-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x50000 : Shape := ⟨2, ![27, 50000]⟩
abbrev S27x64x64 : Shape := ⟨3, ![27, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S64 .f32) (main_v13 : IVec S_ 1) (main_v16 : IVec S27x64x64 1) : IVec S_ 1 :=
  let main_c_5 : IVec S_ 1 := constantI S_ 1 1#1
  let main_v17 : IVec S_ 1 := (fun x v => Host.reduce IntOp.andi x v reducesTo_S27x64x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S27x50000 32) (main_arg2 : IVec S27x50000 32) (main_arg3 : FVec F S27x64x64 .f32) (main_arg4 : FVec F S27x64x64 .f32) (main_arg5 : FVec F S27x64x64 .f32) (main_arg6 : FVec F S64 .f32) (main_arg7 : FVec F S64 .f32) (main_arg8 : FVec F S64 .f32) (main_arg9 : FVec F S64 .f32) (main_arg10 : FVec F S64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg3
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S27x64x64 .f32 := Host.absf main_arg4
  let main_cst_2 : FVec F S_ .f32 := constant S_ .f32 0x7F800000#32
  let main_v10 : FVec F S27x64x64 .f32 := broadcastInDim S27x64x64 ![] bcast_S_S27x64x64 main_cst_2
  let main_v11 : IVec S27x64x64 1 := cmpf .olt main_v9 main_v10
  let main_c_3 : IVec S_ 1 := constantI S_ 1 1#1
  let main_v12 : IVec S_ 1 := (fun x v => Host.reduce IntOp.andi x v reducesTo_S27x64x64_S_d0_1_2 h_S_) main_v11 main_c_3
  let main_v13 : IVec S_ 1 := andi main_v8 main_v12
  let main_v14 : FVec F S27x64x64 .f32 := Host.absf main_arg5
  let main_cst_4 : FVec F S_ .f32 := constant S_ .f32 0x7F800000#32
  let main_v15 : FVec F S27x64x64 .f32 := broadcastInDim S27x64x64 ![] bcast_S_S27x64x64 main_cst_4
  let main_v16 : IVec S27x64x64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S27x50000 : Shape := ⟨2, ![27, 50000]⟩
abbrev S27x64x64 : Shape := ⟨3, ![27, 64, 64]⟩
abbrev S64 : Shape := ⟨1, ![64]⟩
abbrev S_ : Shape := ⟨0, ![]⟩
abbrev S27x50000x1 : Shape := ⟨3, ![27, 50000, 1]⟩
abbrev S27x50000x64 : Shape := ⟨3, ![27, 50000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩
abbrev S1350000 : Shape := ⟨1, ![1350000]⟩
abbrev S1350000x64 : Shape := ⟨2, ![1350000, 64]⟩
abbrev S1350000x1 : Shape := ⟨2, ![1350000, 1]⟩
abbrev S1x64 : Shape := ⟨2, ![1, 64]⟩

abbrev nBuf : Space → Nat
  | .hbm => 132
  | .vmem => 54
  | .smem => 0
  | _ => 0

abbrev hbmTy0_0 (i : Nat) : BufTy := match i % 128 with
  | 0 => ⟨S100000x64, .f32⟩
  | 1 => ⟨S27x50000, .i32⟩
  | 2 => ⟨S27x50000, .i32⟩
  | 3 => ⟨S27x64x64, .f32⟩
  | 4 => ⟨S27x64x64, .f32⟩
  | 5 => ⟨S27x64x64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S_, .i32⟩
  | 13 => ⟨S27x50000, .i32⟩
  | 14 => ⟨S27x50000, .i1⟩
  | 15 => ⟨S_, .i32⟩
  | 16 => ⟨S27x50000, .i32⟩
  | 17 => ⟨S27x50000, .i32⟩
  | 18 => ⟨S27x50000, .i32⟩
  | 19 => ⟨S27x50000x1, .i32⟩
  | 20 => ⟨S27x50000x64, .f32⟩
  | 21 => ⟨S27x50000x64, .f32⟩
  | 22 => ⟨S_, .f32⟩
  | 23 => ⟨S100000x64, .f32⟩
  | 24 => ⟨S1350000, .i32⟩
  | 25 => ⟨S1350000x64, .f32⟩
  | 26 => ⟨S_, .i32⟩
  | 27 => ⟨S1350000, .i32⟩
  | 28 => ⟨S1350000, .i1⟩
  | 29 => ⟨S_, .i32⟩
  | 30 => ⟨S1350000, .i32⟩
  | 31 => ⟨S1350000, .i32⟩
  | 32 => ⟨S1350000, .i32⟩
  | 33 => ⟨S1350000x1, .i32⟩
  | 34 => ⟨S100000x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S1x64, .f32⟩
  | 50 => ⟨S1x64, .f32⟩
  | 51 => ⟨S100000x64, .f32⟩
  | 52 => ⟨S_, .i32⟩
  | 53 => ⟨S27x50000, .i32⟩
  | 54 => ⟨S27x50000, .i1⟩
  | 55 => ⟨S_, .i32⟩
  | 56 => ⟨S27x50000, .i32⟩
  | 57 => ⟨S27x50000, .i32⟩
  | 58 => ⟨S27x50000, .i32⟩
  | 59 => ⟨S27x50000x1, .i32⟩
  | 60 => ⟨S27x50000x64, .f32⟩
  | 61 => ⟨S27x50000x64, .f32⟩
  | 62 => ⟨S_, .f32⟩
  | 63 => ⟨S100000x64, .f32⟩
  | 64 => ⟨S1350000, .i32⟩
  | 65 => ⟨S1350000x64, .f32⟩
  | 66 => ⟨S_, .i32⟩
  | 67 => ⟨S1350000, .i32⟩
  | 68 => ⟨S1350000, .i1⟩
  | 69 => ⟨S_, .i32⟩
  | 70 => ⟨S1350000, .i32⟩
  | 71 => ⟨S1350000, .i32⟩
  | 72 => ⟨S1350000, .i32⟩
  | 73 => ⟨S1350000x1, .i32⟩
  | 74 => ⟨S100000x64, .f32⟩
  | 75 => ⟨S1x64, .f32⟩
  | 76 => ⟨S1x64, .f32⟩
  | 77 => ⟨S_, .f32⟩
  | 78 => ⟨S1x64, .f32⟩
  | 79 => ⟨S1x64, .f32⟩
  | 80 => ⟨S_, .f32⟩
  | 81 => ⟨S1x64, .f32⟩
  | 82 => ⟨S1x64, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S1x64, .f32⟩
  | 89 => ⟨S1x64, .f32⟩
  | 90 => ⟨S1x64, .f32⟩
  | 91 => ⟨S100000x64, .f32⟩
  | 92 => ⟨S_, .i32⟩
  | 93 => ⟨S27x50000, .i32⟩
  | 94 => ⟨S27x50000, .i1⟩
  | 95 => ⟨S_, .i32⟩
  | 96 => ⟨S27x50000, .i32⟩
  | 97 => ⟨S27x50000, .i32⟩
  | 98 => ⟨S27x50000, .i32⟩
  | 99 => ⟨S27x50000x1, .i32⟩
  | 100 => ⟨S27x50000x64, .f32⟩
  | 101 => ⟨S27x50000x64, .f32⟩
  | 102 => ⟨S_, .f32⟩
  | 103 => ⟨S100000x64, .f32⟩
  | 104 => ⟨S1350000, .i32⟩
  | 105 => ⟨S1350000x64, .f32⟩
  | 106 => ⟨S_, .i32⟩
  | 107 => ⟨S1350000, .i32⟩
  | 108 => ⟨S1350000, .i1⟩
  | 109 => ⟨S_, .i32⟩
  | 110 => ⟨S1350000, .i32⟩
  | 111 => ⟨S1350000, .i32⟩
  | 112 => ⟨S1350000, .i32⟩
  | 113 => ⟨S1350000x1, .i32⟩
  | 114 => ⟨S100000x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S100000x64, .f32⟩

abbrev hbmTy0_1 (i : Nat) : BufTy := match i % 128 with
  | 0 => ⟨S1x64, .f32⟩
  | 1 => ⟨S1x64, .f32⟩
  | 2 => ⟨S1x64, .f32⟩
  | 3 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1x10000x64, .f32⟩
  | .local _ .vmem, ⟨1, _⟩ => ⟨S1x10000x64, .f32⟩
  | .local _ .vmem, ⟨2, _⟩ => ⟨S1x64x64, .f32⟩
  | .local _ .vmem, ⟨3, _⟩ => ⟨S1x64x64, .f32⟩
  | .local _ .vmem, ⟨4, _⟩ => ⟨S1x10000x64, .f32⟩
  | .local _ .vmem, ⟨5, _⟩ => ⟨S1x10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S1x10000x64, .f32⟩
  | .local _ .vmem, ⟨19, _⟩ => ⟨S1x10000x64, .f32⟩
  | .local _ .vmem, ⟨20, _⟩ => ⟨S1x64x64, .f32⟩
  | .local _ .vmem, ⟨21, _⟩ => ⟨S1x64x64, .f32⟩
  | .local _ .vmem, ⟨22, _⟩ => ⟨S1x10000x64, .f32⟩
  | .local _ .vmem, ⟨23, _⟩ => ⟨S1x10000x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S1x10000x64, .f32⟩
  | .local _ .vmem, ⟨37, _⟩ => ⟨S1x10000x64, .f32⟩
  | .local _ .vmem, ⟨38, _⟩ => ⟨S1x64x64, .f32⟩
  | .local _ .vmem, ⟨39, _⟩ => ⟨S1x64x64, .f32⟩
  | .local _ .vmem, ⟨40, _⟩ => ⟨S1x10000x64, .f32⟩
  | .local _ .vmem, ⟨41, _⟩ => ⟨S1x10000x64, .f32⟩
  | .local _ .vmem, ⟨42, _⟩ => ⟨S10000x64, .f32⟩
  | .local _ .vmem, ⟨43, _⟩ => ⟨S10000x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80_0 : Ref sig .tc := ⟨.hbm, 115, rfl⟩
abbrev main_v80_1 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_cst_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_21 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg3_0 : Ref sig .tc := ⟨.vmem, 50, rfl⟩
abbrev cc8_stg4_0 : Ref sig .tc := ⟨.vmem, 51, rfl⟩
abbrev cc8_stg5_0 : Ref sig .tc := ⟨.vmem, 52, rfl⟩
abbrev cc8_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem5_0 : DmaSem sig := 52
abbrev cc8_sem5_1 : DmaSem sig := 53

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![27, 5], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![27, 5], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x64x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  bcast_S_S100000x64 : S_.BroadcastsInDim S100000x64 (![] : Fin 0 → Fin S100000x64.rank)
  shapeCasts_S27x50000_S1350000 : S27x50000.ShapeCasts S1350000
  shapeCasts_S27x50000x64_S1350000x64 : S27x50000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  gather_S100000x64_S27x50000x1_S27x50000x64_2_0_n_n_0_2_164_wf : GatherDims.WF S100000x64 S27x50000x1 S27x50000x64 [2] [0] [] [0] [] 2 ![1, 64]
  dot_S10000x64_S64x64_S10000x64_1_0_0_1_n_n_wf : DotDims.WF S10000x64 S64x64 S10000x64 [1] [0] [0] [1] [] []
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S27x50000x64.size a
  hwx0_0 : ∀ i : grid0.Coords, EltTy.bits .f32 = 32 ∨ (Rect.block (s := S27x50000x64) S1x10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .f32 = 32 ∨ (Rect.block (s := S27x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S27x50000x64.size a
  hwx0_2 : ∀ i : grid0.Coords, EltTy.bits .f32 = 32 ∨ (Rect.block (s := S27x50000x64) S1x10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x10000x64.size a ≤ S27x50000x64.size a
  hwx3_0 : ∀ i : grid3.Coords, EltTy.bits .f32 = 32 ∨ (Rect.block (s := S27x50000x64) S1x10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x64x64.size a ≤ S27x64x64.size a
  hwx3_1 : ∀ i : grid3.Coords, EltTy.bits .f32 = 32 ∨ (Rect.block (s := S27x64x64) S1x64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x10000x64.size a ≤ S27x50000x64.size a
  hwx3_2 : ∀ i : grid3.Coords, EltTy.bits .f32 = 32 ∨ (Rect.block (s := S27x50000x64) S1x10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x10000x64.size a ≤ S27x50000x64.size a
  hwx6_0 : ∀ i : grid6.Coords, EltTy.bits .f32 = 32 ∨ (Rect.block (s := S27x50000x64) S1x10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x64x64.size a ≤ S27x64x64.size a
  hwx6_1 : ∀ i : grid6.Coords, EltTy.bits .f32 = 32 ∨ (Rect.block (s := S27x64x64) S1x64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x10000x64.size a ≤ S27x50000x64.size a
  hwx6_2 : ∀ i : grid6.Coords, EltTy.bits .f32 = 32 ∨ (Rect.block (s := S27x50000x64) S1x10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)

variable [Facts₀]

def gather_S100000x64_S27x50000x1_S27x50000x64_2_0_n_n_0_2_164 : GatherDims S100000x64 S27x50000x1 S27x50000x64 where
  offsetDims := [2]
  collapsedSliceDims := [0]
  operandBatchingDims := []
  startIndicesBatchingDims := []
  startIndexMap := [0]
  indexVectorDim := 2
  sliceSizes := ![1, 64]
  wf := gather_S100000x64_S27x50000x1_S27x50000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_v6) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S1x10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1x64x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v48) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v60) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v61) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v68) S1x10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S1x64x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v79) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v82) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v91) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v92) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x64 : Shape := ⟨2, ![100000, 64]⟩
abbrev S27x50000 : Shape := ⟨2, ![27, 50000]⟩
abbrev S27x64x64 : Shape := ⟨3, ![27, 64, 64]⟩
abbrev S64 : Shape := ⟨1, ![64]⟩
abbrev S_ : Shape := ⟨0, ![]⟩
abbrev S27x50000x1 : Shape := ⟨3, ![27, 50000, 1]⟩
abbrev S27x50000x64 : Shape := ⟨3, ![27, 50000, 64]⟩
abbrev S1350000 : Shape := ⟨1, ![1350000]⟩
abbrev S1350000x64 : Shape := ⟨2, ![1350000, 64]⟩
abbrev S1350000x1 : Shape := ⟨2, ![1350000, 1]⟩
abbrev S1x64 : Shape := ⟨2, ![1, 64]⟩

abbrev nBuf : Space → Nat
  | .hbm => 222
  | .vmem => 0
  | .smem => 0
  | _ => 0

abbrev hbmTy0_0 (i : Nat) : BufTy := match i % 128 with
  | 0 => ⟨S100000x64, .f32⟩
  | 1 => ⟨S27x50000, .i32⟩
  | 2 => ⟨S27x50000, .i32⟩
  | 3 => ⟨S27x64x64, .f32⟩
  | 4 => ⟨S27x64x64, .f32⟩
  | 5 => ⟨S27x64x64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S_, .i32⟩
  | 13 => ⟨S27x50000, .i32⟩
  | 14 => ⟨S27x50000, .i1⟩
  | 15 => ⟨S_, .i32⟩
  | 16 => ⟨S27x50000, .i32⟩
  | 17 => ⟨S27x50000, .i32⟩
  | 18 => ⟨S27x50000, .i32⟩
  | 19 => ⟨S27x50000x1, .i32⟩
  | 20 => ⟨S27x50000x64, .f32⟩
  | 21 => ⟨S27x50000x64, .f32⟩
  | 22 => ⟨S_, .f32⟩
  | 23 => ⟨S100000x64, .f32⟩
  | 24 => ⟨S1350000, .i32⟩
  | 25 => ⟨S1350000x64, .f32⟩
  | 26 => ⟨S_, .i32⟩
  | 27 => ⟨S1350000, .i32⟩
  | 28 => ⟨S1350000, .i1⟩
  | 29 => ⟨S_, .i32⟩
  | 30 => ⟨S1350000, .i32⟩
  | 31 => ⟨S1350000, .i32⟩
  | 32 => ⟨S1350000, .i32⟩
  | 33 => ⟨S1350000x1, .i32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S27x50000, .i32⟩
  | 84 => ⟨S27x50000, .i1⟩
  | 85 => ⟨S_, .i32⟩
  | 86 => ⟨S27x50000, .i32⟩
  | 87 => ⟨S27x50000, .i32⟩
  | 88 => ⟨S27x50000, .i32⟩
  | 89 => ⟨S27x50000x1, .i32⟩
  | 90 => ⟨S27x50000x64, .f32⟩
  | 91 => ⟨S27x50000x64, .f32⟩
  | 92 => ⟨S_, .f32⟩
  | 93 => ⟨S100000x64, .f32⟩
  | 94 => ⟨S1350000, .i32⟩
  | 95 => ⟨S1350000x64, .f32⟩
  | 96 => ⟨S_, .i32⟩
  | 97 => ⟨S1350000, .i32⟩
  | 98 => ⟨S1350000, .i1⟩
  | 99 => ⟨S_, .i32⟩
  | 100 => ⟨S1350000, .i32⟩
  | 101 => ⟨S1350000, .i32⟩
  | 102 => ⟨S1350000, .i32⟩
  | 103 => ⟨S1350000x1, .i32⟩
  | 104 => ⟨S100000x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S100000x64, .f32⟩

abbrev hbmTy0_1 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S_, .i32⟩
  | 25 => ⟨S27x50000, .i32⟩
  | 26 => ⟨S27x50000, .i1⟩
  | 27 => ⟨S_, .i32⟩
  | 28 => ⟨S27x50000, .i32⟩
  | 29 => ⟨S27x50000, .i32⟩
  | 30 => ⟨S27x50000, .i32⟩
  | 31 => ⟨S27x50000x1, .i32⟩
  | 32 => ⟨S27x50000x64, .f32⟩
  | 33 => ⟨S27x50000x64, .f32⟩
  | 34 => ⟨S_, .f32⟩
  | 35 => ⟨S100000x64, .f32⟩
  | 36 => ⟨S1350000, .i32⟩
  | 37 => ⟨S1350000x64, .f32⟩
  | 38 => ⟨S_, .i32⟩
  | 39 => ⟨S1350000, .i32⟩
  | 40 => ⟨S1350000, .i1⟩
  | 41 => ⟨S_, .i32⟩
  | 42 => ⟨S1350000, .i32⟩
  | 43 => ⟨S1350000, .i32⟩
  | 44 => ⟨S1350000, .i32⟩
  | 45 => ⟨S1350000x1, .i32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_6 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_call1_cst : Ref sig .tc := ⟨.hbm, 79, rfl⟩
abbrev main_call1_v0 : Ref sig .tc := ⟨.hbm, 80, rfl⟩
abbrev main_v37 : Ref sig .tc := ⟨.hbm, 81, rfl⟩
abbrev main_c_7 : Ref sig .tc := ⟨.hbm, 82, rfl⟩
abbrev main_v38 : Ref sig .tc := ⟨.hbm, 83, rfl⟩
abbrev main_v39 : Ref sig .tc := ⟨.hbm, 84, rfl⟩
abbrev main_c_8 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_9 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_10 : Ref sig .tc := ⟨.hbm, 96, rfl⟩
abbrev main_v49 : Ref sig .tc := ⟨.hbm, 97, rfl⟩
abbrev main_v50 : Ref sig .tc := ⟨.hbm, 98, rfl⟩
abbrev main_c_11 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_12 : Ref sig .tc := ⟨.hbm, 105, rfl⟩
abbrev main_v56 : Ref sig .tc := ⟨.hbm, 106, rfl⟩
abbrev main_cst_13 : Ref sig .tc := ⟨.hbm, 107, rfl⟩
abbrev main_v57 : Ref sig .tc := ⟨.hbm, 108, rfl⟩
abbrev main_v58 : Ref sig .tc := ⟨.hbm, 109, rfl⟩
abbrev main_c_14 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_cst_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_cst_1 : Ref sig .tc := ⟨.hbm, 121, rfl⟩
abbrev main_call2_v8 : Ref sig .tc := ⟨.hbm, 122, rfl⟩
abbrev main_call2_cst_2 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_cst_3 : Ref sig .tc := ⟨.hbm, 127, rfl⟩
abbrev main_call2_v12 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_15 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call3_cst : Ref sig .tc := ⟨.hbm, 149, rfl⟩
abbrev main_call3_v0 : Ref sig .tc := ⟨.hbm, 150, rfl⟩
abbrev main_v75 : Ref sig .tc := ⟨.hbm, 151, rfl⟩
abbrev main_c_16 : Ref sig .tc := ⟨.hbm, 152, rfl⟩
abbrev main_v76 : Ref sig .tc := ⟨.hbm, 153, rfl⟩
abbrev main_v77 : Ref sig .tc := ⟨.hbm, 154, rfl⟩
abbrev main_c_17 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_cst_18 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_c_19 : Ref sig .tc := ⟨.hbm, 166, rfl⟩
abbrev main_v87 : Ref sig .tc := ⟨.hbm, 167, rfl⟩
abbrev main_v88 : Ref sig .tc := ⟨.hbm, 168, rfl⟩
abbrev main_c_20 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_cst_21 : Ref sig .tc := ⟨.hbm, 175, rfl⟩
abbrev main_v94 : Ref sig .tc := ⟨.hbm, 176, rfl⟩
abbrev main_cst_22 : Ref sig .tc := ⟨.hbm, 177, rfl⟩
abbrev main_v95 : Ref sig .tc := ⟨.hbm, 178, rfl⟩
abbrev main_v96 : Ref sig .tc := ⟨.hbm, 179, rfl⟩
abbrev main_c_23 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_cst_1 : Ref sig .tc := ⟨.hbm, 191, rfl⟩
abbrev main_call4_v8 : Ref sig .tc := ⟨.hbm, 192, rfl⟩
abbrev main_call4_cst_2 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_cst_3 : Ref sig .tc := ⟨.hbm, 197, rfl⟩
abbrev main_call4_v12 : Ref sig .tc := ⟨.hbm, 198, rfl⟩
abbrev main_call4_cst_4 : Ref sig .tc := ⟨.hbm, 199, rfl⟩
abbrev main_call4_call0_v0 : Ref sig .tc := ⟨.hbm, 200, rfl⟩
abbrev main_call4_call0_v1 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_cst_24 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_call5_cst : Ref sig .tc := ⟨.hbm, 219, rfl⟩
abbrev main_call5_v0 : Ref sig .tc := ⟨.hbm, 220, rfl⟩
abbrev main_v113 : Ref sig .tc := ⟨.hbm, 221, rfl⟩

abbrev nD : Nat := 1
abbrev τ : Topo := Topo.v7x

variable {F : FTy → Type} [FloatOps F]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bcast_S_S100000x64 : S_.BroadcastsInDim S100000x64 (![] : Fin 0 → Fin S100000x64.rank)
  shapeCasts_S27x50000_S1350000 : S27x50000.ShapeCasts S1350000
  shapeCasts_S27x50000x64_S1350000x64 : S27x50000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  gather_S100000x64_S27x50000x1_S27x50000x64_2_0_n_n_0_2_164_wf : GatherDims.WF S100000x64 S27x50000x1 S27x50000x64 [2] [0] [] [0] [] 2 ![1, 64]
  dot_S27x50000x64_S27x64x64_S27x50000x64_2_1_1_2_0_0_wf : DotDims.WF S27x50000x64 S27x64x64 S27x50000x64 [2] [1] [1] [2] [0] [0]
  scatter_S100000x64_S1350000x1_S1350000x64_1_0_0_1_wf : ScatterDims.WF S100000x64 S1350000x1 S1350000x64 [1] [0] [0] 1

variable [Facts₀]

def gather_S100000x64_S27x50000x1_S27x50000x64_2_0_n_n_0_2_164 : GatherDims S100000x64 S27x50000x1 S27x50000x64 where
  offsetDims := [2]
  collapsedSliceDims := [0]
  operandBatchingDims := []
  startIndicesBatchingDims := []
  startIndexMap := [0]
  indexVectorDim := 2
  sliceSizes := ![1, 64]
  wf := gather_S100000x64_S27x50000x1_S27x50000x64_2_0_n_n_0_2_164_wf
def dot_S27x50000x64_S27x64x64_S27x50000x64_2_1_1_2_0_0 : DotDims S27x50000x64 S27x64x64 S27x50000x64 where
  lhsContracting := [2]
  rhsContracting := [1]
  lhsNonContracting := [1]
  rhsNonContracting := [2]
  lhsBatch := [0]
  rhsBatch := [0]
  wf := dot_S27x50000x64_S27x64x64_S27x50000x64_2_1_1_2_0_0_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.Spec.lean ====
/-
  The network both programs compute, written once over the extended reals.

  One layer is: look up a feature row for each of 27 x 50000 (offset, edge) pairs (negative row numbers wrapped by the
  row count, then the host's own row lookup), multiply the rows of offset k by the 64 x 64 matrix of offset k, add
  every product row into the output row its edge names (the host's scatter-add into zeros), then normalise every
  column by its mean and variance over the 100000 rows, scale, shift, and take the positive part.

  The lookup and the scatter-add are the same host operations in both programs and are kept as two opaque functions
  `gath` and `scat`.  The matrix product is stated entry by entry (`mm`) and as the host's batched product (`mmR`).
  The normalisation is stated twice: with the variance accumulated in one pass, E[x^2] - E[x]^2, from column sums
  kept as 1 x 64 rows (`bnK`), and with the variance taken in two passes, E[(x - E[x])^2] (`bnR`).
-/
import proofs.«110267_j20564303414103_1_alg».proof.Proof.Gen.KernelIdeal
import proofs.«110267_j20564303414103_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx

/-- node features, 100000 rows of 64 channels -/
abbrev Feat := FVec Ideal Cert.KernelIdeal.S100000x64 .f32
/-- one row number per (offset, edge) pair -/
abbrev Edge := IVec Cert.KernelIdeal.S27x50000 32
/-- one 64 x 64 matrix per offset -/
abbrev Wts := FVec Ideal Cert.KernelIdeal.S27x64x64 .f32
/-- one 64-channel row per (offset, edge) pair -/
abbrev Rows := FVec Ideal Cert.KernelIdeal.S27x50000x64 .f32
/-- one number per channel -/
abbrev Chan := FVec Ideal Cert.KernelIdeal.S64 .f32
/-- one number per channel, kept as a 1 x 64 row -/
abbrev Row1 := FVec Ideal Cert.KernelIdeal.S1x64 .f32

section Shared
open Cert.KernelIdeal Cert.KernelIdeal.Facts₀

/-- The row lookup: row numbers below zero are raised by 100000, then the host's lookup of whole rows. -/
def gath (x : Feat) (i : Edge) : Rows :=
  Host.gather gather_S100000x64_S27x50000x1_S27x50000x64_2_0_n_n_0_2_164 x
    (broadcastInDim S27x50000x1 ![0, 1] bcast_S27x50000_S27x50000x1_0_1
      (select (cmpi .slt i (broadcastInDim S27x50000 ![] bcast_S_S27x50000 (constantI S_ 32 0#32)))
        (addi i (broadcastInDim S27x50000 ![] bcast_S_S27x50000 (constantI S_ 32 100000#32))) i))

/-- The flattened row numbers of the scatter-add, below zero raised by 100000, as a column. -/
def scatIdx (o : Edge) : IVec S1350000x1 32 :=
  broadcastInDim S1350000x1 ![0] bcast_S1350000_S1350000x1_0
    (select (cmpi .slt (shapeCast S1350000 o shapeCasts_S27x50000_S1350000) (broadcastInDim S1350000 ![] bcast_S_S1350000 (constantI S_ 32 0#32)))
      (addi (shapeCast S1350000 o shapeCasts_S27x50000_S1350000) (broadcastInDim S1350000 ![] bcast_S_S1350000 (constantI S_ 32 100000#32)))
      (shapeCast S1350000 o shapeCasts_S27x50000_S1350000))

/-- The scatter-add: every product row added into the row of a zero array that its edge names. -/
def scat (y : Rows) (o : Edge) : Feat :=
  Host.scatterAdd scatter_S100000x64_S1350000x1_S1350000x64_1_0_0_1
    (broadcastInDim S100000x64 ![] bcast_S_S100000x64 (constant (F := Ideal) S_ .f32 0x00000000#32))
    (scatIdx o)
    (shapeCast S1350000x64 y shapeCasts_S27x50000x64_S1350000x64)

end Shared

/-- The per-offset product entry by entry: row e of offset k times the matrix of offset k. -/
def mm (g : Rows) (w : Wts) : Rows := fun j =>
  ∑ k : Fin 64, g (ix3 (n0 := 27) (n1 := 50000) (n2 := 64) (j 0) (j 1) k) * w (ix3 (n0 := 27) (n1 := 64) (n2 := 64) (j 0) k (j 2))

/-- The column sums over the 100000 rows, as a 1 x 64 row. -/
def colsum (x : Feat) : Row1 := fun j => ∑ n : Fin 100000, x (ix2 (n0 := 100000) (n1 := 64) n (j 1))

/-- The column sums of squares over the 100000 rows, as a 1 x 64 row. -/
def colsumsq (x : Feat) : Row1 := fun j =>
  ∑ n : Fin 100000, x (ix2 (n0 := 100000) (n1 := 64) n (j 1)) * x (ix2 (n0 := 100000) (n1 := 64) n (j 1))

/-- Subtract a row, scale by two rows, add a row, positive part: entry (n, d) uses entry (0, d) of each row. -/
def affRelu (x : Feat) (mu inv g b : Row1) : Feat := fun j =>
  max ((x j - mu (ix2 (n0 := 1) (n1 := 64) 0 (j 1))) * inv (ix2 (n0 := 1) (n1 := 64) 0 (j 1)) * g (ix2 (n0 := 1) (n1 := 64) 0 (j 1))
    + b (ix2 (n0 := 1) (n1 := 64) 0 (j 1))) 0

section OnePass
open Cert.KernelIdeal Cert.KernelIdeal.Facts₀

/-- 100000, in every channel of a 1 x 64 row -/
def nRow : Row1 := broadcastInDim S1x64 ![] bcast_S_S1x64 (constant (F := Ideal) S_ .f32 0x47C35000#32)

/-- the mean from the column sums -/
def meanK (s1 : Row1) : Row1 := Host.divf s1 nRow

/-- one over the square root of (mean of squares - square of mean + eps), from the two column sums -/
def invK (s1 s2 : Row1) : Row1 :=
  Host.rsqrt (addf (subf (Host.divf s2 nRow) (mulf (meanK s1) (meanK s1)))
    (broadcastInDim S1x64 ![] bcast_S_S1x64 (constant (F := Ideal) S_ .f32 0x3727C5AC#32)))

/-- a per-channel vector as a 1 x 64 row -/
def rowOf (v : Chan) : Row1 := shapeCast S1x64 v shapeCasts_S64_S1x64

/-- Normalise with the one-pass variance, scale, shift, positive part. -/
def bnK (x : Feat) (γ β : Chan) : Feat :=
  affRelu x (meanK (colsum x)) (invK (colsum x) (colsumsq x)) (rowOf γ) (rowOf β)

end OnePass

section TwoPass
open Cert.ReferenceIdeal Cert.ReferenceIdeal.Facts₀

/-- the host's batched product: contract the channel of the rows with the first axis of the offset's matrix -/
def mmR (g : Rows) (w : Wts) : Rows :=
  Host.dotGeneral dot_S27x50000x64_S27x64x64_S27x50000x64_2_1_1_2_0_0 none g w

/-- the host's sum over the rows, from zero -/
def sumR (x : Feat) : Chan :=
  Host.reduceAdd x (constant (F := Ideal) S_ .f32 0x00000000#32) reducesTo_S100000x64_S64_d0 h_S_

/-- the mean as the reference takes it: the sum over the rows divided by 100000 -/
def meanR (x : Feat) : Chan :=
  Host.divf (sumR x) (broadcastInDim S64 ![] bcast_S_S64 (constant (F := Ideal) S_ .f32 0x47C35000#32))

/-- a per-channel vector laid over all 100000 rows -/
def overRows (v : Chan) : Feat :=
  broadcastInDim S100000x64 ![0, 1] bcast_S1x64_S100000x64_0_1 (broadcastInDim S1x64 ![1] bcast_S64_S1x64_1 v)

/-- 100000 minus the (zero) correction, as the reference computes its divisor -/
def divisorR : FVec Ideal S_ .f32 :=
  subf (constant (F := Ideal) S_ .f32 0x47C35000#32) (sitofp .f32 (constantI S_ 32 0#32))

/-- The variance in two passes, as the reference's library function takes it: centre with the mean (kept as a
    1 x 64 row), square, sum, divide by the divisor, and keep the quotient where the divisor is positive. -/
def varR (x : Feat) : Chan :=
  select (broadcastInDim S64 ![] bcast_S_S64 (cmpf .ogt divisorR (constant (F := Ideal) S_ .f32 0x00000000#32)))
    (Host.divf
      (Host.reduceAdd
        (mulf
          (subf x (broadcastInDim S100000x64 ![0, 1] bcast_S1x64_S100000x64_0_1
            (Host.divf (broadcastInDim S1x64 ![1] bcast_S64_S1x64_1 (sumR x))
              (broadcastInDim S1x64 ![] bcast_S_S1x64 (constant (F := Ideal) S_ .f32 0x47C35000#32)))))
          (subf x (broadcastInDim S100000x64 ![0, 1] bcast_S1x64_S100000x64_0_1
            (Host.divf (broadcastInDim S1x64 ![1] bcast_S64_S1x64_1 (sumR x))
              (broadcastInDim S1x64 ![] bcast_S_S1x64 (constant (F := Ideal) S_ .f32 0x47C35000#32))))))
        (constant (F := Ideal) S_ .f32 0x00000000#32) reducesTo_S100000x64_S64_d0 h_S_)
      (broadcastInDim S64 ![] bcast_S_S64 divisorR))
    (broadcastInDim S64 ![] bcast_S_S64 (id (constant (F := Ideal) S_ .f32 0x7FC00000#32)))

/-- Normalise with the two-pass variance, scale, shift, positive part. -/
def bnR (x : Feat) (γ β : Chan) : Feat :=
  maximumf
    (addf
      (mulf
        (mulf (subf x (overRows (meanR x)))
          (overRows (Host.rsqrt (addf (varR x) (broadcastInDim S64 ![] bcast_S_S64 (constant (F := Ideal) S_ .f32 0x3727C5AC#32))))))
        (overRows γ))
      (overRows β))
    (broadcastInDim S100000x64 ![] bcast_S_S100000x64 (constant (F := Ideal) S_ .f32 0x00000000#32))

end TwoPass

/-- one layer, with the entrywise product and the one-pass normalisation -/
def layerK (x : Feat) (i o : Edge) (w : Wts) (γ β : Chan) : Feat := bnK (scat (mm (gath x i) w) o) γ β

/-- one layer, with the host's product and the two-pass normalisation -/
def layerR (x : Feat) (i o : Edge) (w : Wts) (γ β : Chan) : Feat := bnR (scat (mmR (gath x i) w) o) γ β

/-- the three layers, one-pass form -/
def netK (x : Feat) (i o : Edge) (w1 w2 w3 : Wts) (g1 b1 g2 b2 g3 b3 : Chan) : Feat :=
  layerK (layerK (layerK x i o w1 g1 b1) i o w2 g2 b2) i o w3 g3 b3

/-- the three layers, two-pass form -/
def netR (x : Feat) (i o : Edge) (w1 w2 w3 : Wts) (g1 b1 g2 b2 g3 b3 : Chan) : Feat :=
  layerR (layerR (layerR x i o w1 g1 b1) i o w2 g2 b2) i o w3 g3 b3

end Cert.Spec

end
-- ==== Proof.KRun.lean ====
/-
  The kernel program's run with its result named.

  The program is nine pipelined regions among stretches of host operations.  Run from any launch memory, every
  weakly fair execution terminates without a fault, and in the final state every unscoped buffer of a core holds the
  contents that folding the stretches and the regions' write-backs over the launch memory gives (the last boundary
  valuation).  Read at the result's buffer this names the result; read at an argument it gives the argument back,
  because no stretch and no region writes an argument.
-/
import proofs.«110267_j20564303414103_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any launch memory with zero counters the program terminates, nothing faulting; the result's buffer ends at
    the last boundary valuation read there, and each argument ends as launched. -/
theorem run_result : θ_run defs (onTc (τ := τ) (main (F := F))) ⟨m, fun _ => 0, ρ⟩ (fun r => ∀ c : Dev nD,
      r.2.mem ((c.tc : Thread nD τ).loc main_v92) = W18 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v92 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩)

end Cert.KernelIdeal.KRun

end
-- ==== Proof.ArgReads.lean ====
/-
  An argument array read at an inner boundary of the kernel program's run is the launch memory's array.

  The boundary valuations are a fold over the program: a stretch of host operations changes only its result
  buffers, none of which is an argument, and a region changes only its output windows' arrays, none of which is
  an argument (an argument that is an input window is read, never written back).  So from any boundary the
  fold at an argument's buffer walks back, one equation per stretch or region, to the launch memory.
-/
import proofs.«110267_j20564303414103_1_alg».proof.Proof.Gen.KernelIdeal.Frame

set_option maxRecDepth 16384

noncomputable section

namespace Cert.KernelIdeal.ArgReads

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- boundary 2, argument 2 -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- boundary 4, argument 6 -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- boundary 4, argument 7 -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- boundary 6, argument 1 -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- boundary 6, argument 4 -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- boundary 8, argument 2 -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- boundary 10, argument 8 -/
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- boundary 10, argument 9 -/
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- boundary 12, argument 1 -/
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- boundary 12, argument 5 -/
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- boundary 14, argument 2 -/
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- boundary 16, argument 10 -/
theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- boundary 16, argument 11 -/
theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

end Cert.KernelIdeal.ArgReads

end
-- ==== Proof.Layer1.lean ====
/-
  Layer 1 of the kernel program, read off its run.

  The layer is three stretches of host operations and three pipelined regions.  Reading the boundary valuations one
  after the other: the first stretch leaves the looked-up rows (the row lookup of the layer's input and the wrapped
  row numbers); the first region leaves their per-offset product with the layer's matrices; the second stretch
  scatters the product rows into a zero array; the second region leaves that array's column sums and column sums of
  squares; the third stretch turns the sums into the mean row and the inverse-deviation row and lays scale and shift
  out as rows; the third region normalises.  Composed, the layer's output array is the specification's one-pass
  layer of the layer's input, the two row-number arrays, the matrices, the scale and the shift — each read at the
  boundary where the layer reads it.  What each region leaves is taken as a hypothesis here (it is proved, for any
  entry contents, in the region's own module).
-/
import proofs.«110267_j20564303414103_1_alg».proof.Proof.Gen.KernelIdeal.Frame
import proofs.«110267_j20564303414103_1_alg».proof.Proof.Spec

set_option maxRecDepth 16384
-- a buffer's type is looked up in the program's table by its number: the later the buffer, the longer the look-up
set_option maxHeartbeats 4000000

noncomputable section

namespace Cert.KernelIdeal.Layer1

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg)

variable (c : Dev nD)

/-! ## The first stretch: wrap the row numbers, look the rows up -/

theorem rows_in : (W1 (F := Ideal) m ρ c (Proc.devRef .tc main_v6) : Cert.Spec.Rows)
    = Cert.Spec.gath (W0 (F := Ideal) m ρ c (Proc.devRef .tc main_arg0)) (W0 (F := Ideal) m ρ c (Proc.devRef .tc main_arg1)) := by
  show StableHlo.after hostOps0 (W0 m ρ c) (Proc.devRef .tc main_v6) = _
  after_results
  rfl

theorem wts_in : W1 (F := Ideal) m ρ c (Proc.devRef .tc main_arg3) = W0 (F := Ideal) m ρ c (Proc.devRef .tc main_arg3) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first region: the per-offset product -/

theorem prod_out
    (hmm : ∀ (V : (c : Dev nD) → (b : Ref sig .tc) → Buf (Elt Ideal) ((c : Thread nD τ).loc b)) (c : Dev nD), (dat0 (F := Ideal) V c).arrAt 2 cfg0.N = Cert.Spec.mm (V c main_v6) (V c main_arg3)) :
    (W2 (F := Ideal) m ρ c (Proc.devRef .tc main_v7) : Cert.Spec.Rows) = Cert.Spec.mm (W1 (F := Ideal) m ρ c (Proc.devRef .tc main_v6)) (W1 (F := Ideal) m ρ c (Proc.devRef .tc main_arg3)) :=
  (W2_arr m ρ c 2).trans (hmm (V1 m ρ) c)

/-! ## The second stretch: scatter the product rows into zeros -/

theorem feat_mid : (W3 (F := Ideal) m ρ c (Proc.devRef .tc main_v17) : Cert.Spec.Feat)
    = Cert.Spec.scat (W2 (F := Ideal) m ρ c (Proc.devRef .tc main_v7)) (W2 (F := Ideal) m ρ c (Proc.devRef .tc main_arg2)) := by
  show StableHlo.after hostOps1 (W2 m ρ c) (Proc.devRef .tc main_v17) = _
  after_results
  rfl

/-! ## The second region: the column sums; its input array is left as it was -/

theorem sum_out
    (hsum : ∀ (V : (c : Dev nD) → (b : Ref sig .tc) → Buf (Elt Ideal) ((c : Thread nD τ).loc b)) (c : Dev nD), (dat1 (F := Ideal) V c).arrAt 1 cfg1.N = Cert.Spec.colsum (V c main_v17)) :
    (W4 (F := Ideal) m ρ c (Proc.devRef .tc main_v18_0) : Cert.Spec.Row1) = Cert.Spec.colsum (W3 (F := Ideal) m ρ c (Proc.devRef .tc main_v17)) :=
  (W4_arr m ρ c 1).trans (hsum (V3 m ρ) c)

theorem sumsq_out
    (hsumsq : ∀ (V : (c : Dev nD) → (b : Ref sig .tc) → Buf (Elt Ideal) ((c : Thread nD τ).loc b)) (c : Dev nD), (dat1 (F := Ideal) V c).arrAt 2 cfg1.N = Cert.Spec.colsumsq (V c main_v17)) :
    (W4 (F := Ideal) m ρ c (Proc.devRef .tc main_v18_1) : Cert.Spec.Row1) = Cert.Spec.colsumsq (W3 (F := Ideal) m ρ c (Proc.devRef .tc main_v17)) :=
  (W4_arr m ρ c 2).trans (hsumsq (V3 m ρ) c)

theorem feat_kept : W4 (F := Ideal) m ρ c (Proc.devRef .tc main_v17) = W3 (F := Ideal) m ρ c (Proc.devRef .tc main_v17) :=
  (W4_arr m ρ c 0).trans (((dat1 (V3 m ρ) c).arrAt_in 0 rfl _).trans (A_eq1 (V3 m ρ) c 0))

/-! ## The third stretch: the mean row, the inverse-deviation row, scale and shift as rows -/

theorem mean_row : (W5 (F := Ideal) m ρ c (Proc.devRef .tc main_v20) : Cert.Spec.Row1) = Cert.Spec.meanK (W4 (F := Ideal) m ρ c (Proc.devRef .tc main_v18_0)) := by
  show StableHlo.after hostOps2 (W4 m ρ c) (Proc.devRef .tc main_v20) = _
  after_results
  rfl

theorem inv_row : (W5 (F := Ideal) m ρ c (Proc.devRef .tc main_v27) : Cert.Spec.Row1) = Cert.Spec.invK (W4 (F := Ideal) m ρ c (Proc.devRef .tc main_v18_0)) (W4 (F := Ideal) m ρ c (Proc.devRef .tc main_v18_1)) := by
  show StableHlo.after hostOps2 (W4 m ρ c) (Proc.devRef .tc main_v27) = _
  after_results
  rfl

theorem scale_row : (W5 (F := Ideal) m ρ c (Proc.devRef .tc main_v28) : Cert.Spec.Row1) = Cert.Spec.rowOf (W4 (F := Ideal) m ρ c (Proc.devRef .tc main_arg6)) := by
  show StableHlo.after hostOps2 (W4 m ρ c) (Proc.devRef .tc main_v28) = _
  after_results
  rfl

theorem shift_row : (W5 (F := Ideal) m ρ c (Proc.devRef .tc main_v29) : Cert.Spec.Row1) = Cert.Spec.rowOf (W4 (F := Ideal) m ρ c (Proc.devRef .tc main_arg7)) := by
  show StableHlo.after hostOps2 (W4 m ρ c) (Proc.devRef .tc main_v29) = _
  after_results
  rfl

theorem feat_kept' : W5 (F := Ideal) m ρ c (Proc.devRef .tc main_v17) = W4 (F := Ideal) m ρ c (Proc.devRef .tc main_v17) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The third region, and the layer -/

theorem layer
    (hmm : ∀ (V : (c : Dev nD) → (b : Ref sig .tc) → Buf (Elt Ideal) ((c : Thread nD τ).loc b)) (c : Dev nD), (dat0 (F := Ideal) V c).arrAt 2 cfg0.N = Cert.Spec.mm (V c main_v6) (V c main_arg3))
    (hsum : ∀ (V : (c : Dev nD) → (b : Ref sig .tc) → Buf (Elt Ideal) ((c : Thread nD τ).loc b)) (c : Dev nD), (dat1 (F := Ideal) V c).arrAt 1 cfg1.N = Cert.Spec.colsum (V c main_v17))
    (hsumsq : ∀ (V : (c : Dev nD) → (b : Ref sig .tc) → Buf (Elt Ideal) ((c : Thread nD τ).loc b)) (c : Dev nD), (dat1 (F := Ideal) V c).arrAt 2 cfg1.N = Cert.Spec.colsumsq (V c main_v17))
    (haff : ∀ (V : (c : Dev nD) → (b : Ref sig .tc) → Buf (Elt Ideal) ((c : Thread nD τ).loc b)) (c : Dev nD), (dat2 (F := Ideal) V c).arrAt 5 cfg2.N
      = Cert.Spec.affRelu (V c main_v17) (V c main_v20) (V c main_v27) (V c main_v28) (V c main_v29)) :
    (W6 (F := Ideal) m ρ c (Proc.devRef .tc main_v30) : Cert.Spec.Feat)
      = Cert.Spec.layerK (W0 (F := Ideal) m ρ c (Proc.devRef .tc main_arg0)) (W0 (F := Ideal) m ρ c (Proc.devRef .tc main_arg1)) (W2 (F := Ideal) m ρ c (Proc.devRef .tc main_arg2))
          (W0 (F := Ideal) m ρ c (Proc.devRef .tc main_arg3)) (W4 (F := Ideal) m ρ c (Proc.devRef .tc main_arg6)) (W4 (F := Ideal) m ρ c (Proc.devRef .tc main_arg7)) := by
  refine (W6_arr m ρ c 5).trans ((haff (V5 m ρ) c).trans ?_)
  show Cert.Spec.affRelu (W5 (F := Ideal) m ρ c (Proc.devRef .tc main_v17)) (W5 (F := Ideal) m ρ c (Proc.devRef .tc main_v20)) (W5 (F := Ideal) m ρ c (Proc.devRef .tc main_v27)) (W5 (F := Ideal) m ρ c (Proc.devRef .tc main_v28)) (W5 (F := Ideal) m ρ c (Proc.devRef .tc main_v29)) = _
  rw [feat_kept' m ρ c, feat_kept m ρ c, mean_row m ρ c, inv_row m ρ c, scale_row m ρ c, shift_row m ρ c,
    sum_out m ρ c hsum, sumsq_out m ρ c hsumsq, feat_mid m ρ c, prod_out m ρ c hmm, rows_in m ρ c, wts_in m ρ c]
  rfl

end Cert.KernelIdeal.Layer1

end
-- ==== Proof.Layer2.lean ====
/-
  Layer 2 of the kernel program, read off its run.

  The layer is three stretches of host operations and three pipelined regions.  Reading the boundary valuations one
  after the other: the first stretch leaves the looked-up rows (the row lookup of the layer's input and the wrapped
  row numbers); the first region leaves their per-offset product with the layer's matrices; the second stretch
  scatters the product rows into a zero array; the second region leaves that array's column sums and column sums of
  squares; the third stretch turns the sums into the mean row and the inverse-deviation row and lays scale and shift
  out as rows; the third region normalises.  Composed, the layer's output array is the specification's one-pass
  layer of the layer's input, the two row-number arrays, the matrices, the scale and the shift — each read at the
  boundary where the layer reads it.  What each region leaves is taken as a hypothesis here (it is proved, for any
  entry contents, in the region's own module).
-/
import proofs.«110267_j20564303414103_1_alg».proof.Proof.Gen.KernelIdeal.Frame
import proofs.«110267_j20564303414103_1_alg».proof.Proof.Spec

set_option maxRecDepth 16384
-- a buffer's type is looked up in the program's table by its number: the later the buffer, the longer the look-up
set_option maxHeartbeats 4000000

noncomputable section

namespace Cert.KernelIdeal.Layer2

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg)

variable (c : Dev nD)

/-! ## The first stretch: wrap the row numbers, look the rows up -/

theorem rows_in : (W7 (F := Ideal) m ρ c (Proc.devRef .tc main_v37) : Cert.Spec.Rows)
    = Cert.Spec.gath (W6 (F := Ideal) m ρ c (Proc.devRef .tc main_v30)) (W6 (F := Ideal) m ρ c (Proc.devRef .tc main_arg1)) := by
  show StableHlo.after hostOps3 (W6 m ρ c) (Proc.devRef .tc main_v37) = _
  after_results
  rfl

theorem wts_in : W7 (F := Ideal) m ρ c (Proc.devRef .tc main_arg4) = W6 (F := Ideal) m ρ c (Proc.devRef .tc main_arg4) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first region: the per-offset product -/

theorem prod_out
    (hmm : ∀ (V : (c : Dev nD) → (b : Ref sig .tc) → Buf (Elt Ideal) ((c : Thread nD τ).loc b)) (c : Dev nD), (dat3 (F := Ideal) V c).arrAt 2 cfg3.N = Cert.Spec.mm (V c main_v37) (V c main_arg4)) :
    (W8 (F := Ideal) m ρ c (Proc.devRef .tc main_v38) : Cert.Spec.Rows) = Cert.Spec.mm (W7 (F := Ideal) m ρ c (Proc.devRef .tc main_v37)) (W7 (F := Ideal) m ρ c (Proc.devRef .tc main_arg4)) :=
  (W8_arr m ρ c 2).trans (hmm (V7 m ρ) c)

/-! ## The second stretch: scatter the product rows into zeros -/

theorem feat_mid : (W9 (F := Ideal) m ρ c (Proc.devRef .tc main_v48) : Cert.Spec.Feat)
    = Cert.Spec.scat (W8 (F := Ideal) m ρ c (Proc.devRef .tc main_v38)) (W8 (F := Ideal) m ρ c (Proc.devRef .tc main_arg2)) := by
  show StableHlo.after hostOps4 (W8 m ρ c) (Proc.devRef .tc main_v48) = _
  after_results
  rfl

/-! ## The second region: the column sums; its input array is left as it was -/

theorem sum_out
    (hsum : ∀ (V : (c : Dev nD) → (b : Ref sig .tc) → Buf (Elt Ideal) ((c : Thread nD τ).loc b)) (c : Dev nD), (dat4 (F := Ideal) V c).arrAt 1 cfg4.N = Cert.Spec.colsum (V c main_v48)) :
    (W10 (F := Ideal) m ρ c (Proc.devRef .tc main_v49_0) : Cert.Spec.Row1) = Cert.Spec.colsum (W9 (F := Ideal) m ρ c (Proc.devRef .tc main_v48)) :=
  (W10_arr m ρ c 1).trans (hsum (V9 m ρ) c)

theorem sumsq_out
    (hsumsq : ∀ (V : (c : Dev nD) → (b : Ref sig .tc) → Buf (Elt Ideal) ((c : Thread nD τ).loc b)) (c : Dev nD), (dat4 (F := Ideal) V c).arrAt 2 cfg4.N = Cert.Spec.colsumsq (V c main_v48)) :
    (W10 (F := Ideal) m ρ c (Proc.devRef .tc main_v49_1) : Cert.Spec.Row1) = Cert.Spec.colsumsq (W9 (F := Ideal) m ρ c (Proc.devRef .tc main_v48)) :=
  (W10_arr m ρ c 2).trans (hsumsq (V9 m ρ) c)

theorem feat_kept : W10 (F := Ideal) m ρ c (Proc.devRef .tc main_v48) = W9 (F := Ideal) m ρ c (Proc.devRef .tc main_v48) :=
  (W10_arr m ρ c 0).trans (((dat4 (V9 m ρ) c).arrAt_in 0 rfl _).trans (A_eq4 (V9 m ρ) c 0))

/-! ## The third stretch: the mean row, the inverse-deviation row, scale and shift as rows -/

theorem mean_row : (W11 (F := Ideal) m ρ c (Proc.devRef .tc main_v51) : Cert.Spec.Row1) = Cert.Spec.meanK (W10 (F := Ideal) m ρ c (Proc.devRef .tc main_v49_0)) := by
  show StableHlo.after hostOps5 (W10 m ρ c) (Proc.devRef .tc main_v51) = _
  after_results
  rfl

theorem inv_row : (W11 (F := Ideal) m ρ c (Proc.devRef .tc main_v58) : Cert.Spec.Row1) = Cert.Spec.invK (W10 (F := Ideal) m ρ c (Proc.devRef .tc main_v49_0)) (W10 (F := Ideal) m ρ c (Proc.devRef .tc main_v49_1)) := by
  show StableHlo.after hostOps5 (W10 m ρ c) (Proc.devRef .tc main_v58) = _
  after_results
  rfl

theorem scale_row : (W11 (F := Ideal) m ρ c (Proc.devRef .tc main_v59) : Cert.Spec.Row1) = Cert.Spec.rowOf (W10 (F := Ideal) m ρ c (Proc.devRef .tc main_arg8)) := by
  show StableHlo.after hostOps5 (W10 m ρ c) (Proc.devRef .tc main_v59) = _
  after_results
  rfl

theorem shift_row : (W11 (F := Ideal) m ρ c (Proc.devRef .tc main_v60) : Cert.Spec.Row1) = Cert.Spec.rowOf (W10 (F := Ideal) m ρ c (Proc.devRef .tc main_arg9)) := by
  show StableHlo.after hostOps5 (W10 m ρ c) (Proc.devRef .tc main_v60) = _
  after_results
  rfl

theorem feat_kept' : W11 (F := Ideal) m ρ c (Proc.devRef .tc main_v48) = W10 (F := Ideal) m ρ c (Proc.devRef .tc main_v48) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The third region, and the layer -/

theorem layer
    (hmm : ∀ (V : (c : Dev nD) → (b : Ref sig .tc) → Buf (Elt Ideal) ((c : Thread nD τ).loc b)) (c : Dev nD), (dat3 (F := Ideal) V c).arrAt 2 cfg3.N = Cert.Spec.mm (V c main_v37) (V c main_arg4))
    (hsum : ∀ (V : (c : Dev nD) → (b : Ref sig .tc) → Buf (Elt Ideal) ((c : Thread nD τ).loc b)) (c : Dev nD), (dat4 (F := Ideal) V c).arrAt 1 cfg4.N = Cert.Spec.colsum (V c main_v48))
    (hsumsq : ∀ (V : (c : Dev nD) → (b : Ref sig .tc) → Buf (Elt Ideal) ((c : Thread nD τ).loc b)) (c : Dev nD), (dat4 (F := Ideal) V c).arrAt 2 cfg4.N = Cert.Spec.colsumsq (V c main_v48))
    (haff : ∀ (V : (c : Dev nD) → (b : Ref sig .tc) → Buf (Elt Ideal) ((c : Thread nD τ).loc b)) (c : Dev nD), (dat5 (F := Ideal) V c).arrAt 5 cfg5.N
      = Cert.Spec.affRelu (V c main_v48) (V c main_v51) (V c main_v58) (V c main_v59) (V c main_v60)) :
    (W12 (F := Ideal) m ρ c (Proc.devRef .tc main_v61) : Cert.Spec.Feat)
      = Cert.Spec.layerK (W6 (F := Ideal) m ρ c (Proc.devRef .tc main_v30)) (W6 (F := Ideal) m ρ c (Proc.devRef .tc main_arg1)) (W8 (F := Ideal) m ρ c (Proc.devRef .tc main_arg2))
          (W6 (F := Ideal) m ρ c (Proc.devRef .tc main_arg4)) (W10 (F := Ideal) m ρ c (Proc.devRef .tc main_arg8)) (W10 (F := Ideal) m ρ c (Proc.devRef .tc main_arg9)) := by
  refine (W12_arr m ρ c 5).trans ((haff (V11 m ρ) c).trans ?_)
  show Cert.Spec.affRelu (W11 (F := Ideal) m ρ c (Proc.devRef .tc main_v48)) (W11 (F := Ideal) m ρ c (Proc.devRef .tc main_v51)) (W11 (F := Ideal) m ρ c (Proc.devRef .tc main_v58)) (W11 (F := Ideal) m ρ c (Proc.devRef .tc main_v59)) (W11 (F := Ideal) m ρ c (Proc.devRef .tc main_v60)) = _
  rw [feat_kept' m ρ c, feat_kept m ρ c, mean_row m ρ c, inv_row m ρ c, scale_row m ρ c, shift_row m ρ c,
    sum_out m ρ c hsum, sumsq_out m ρ c hsumsq, feat_mid m ρ c, prod_out m ρ c hmm, rows_in m ρ c, wts_in m ρ c]
  rfl

end Cert.KernelIdeal.Layer2

end
-- ==== Proof.Layer3.lean ====
/-
  Layer 3 of the kernel program, read off its run.

  The layer is three stretches of host operations and three pipelined regions.  Reading the boundary valuations one
  after the other: the first stretch leaves the looked-up rows (the row lookup of the layer's input and the wrapped
  row numbers); the first region leaves their per-offset product with the layer's matrices; the second stretch
  scatters the product rows into a zero array; the second region leaves that array's column sums and column sums of
  squares; the third stretch turns the sums into the mean row and the inverse-deviation row and lays scale and shift
  out as rows; the third region normalises.  Composed, the layer's output array is the specification's one-pass
  layer of the layer's input, the two row-number arrays, the matrices, the scale and the shift — each read at the
  boundary where the layer reads it.  What each region leaves is taken as a hypothesis here (it is proved, for any
  entry contents, in the region's own module).
-/
import proofs.«110267_j20564303414103_1_alg».proof.Proof.Gen.KernelIdeal.Frame
import proofs.«110267_j20564303414103_1_alg».proof.Proof.Spec

set_option maxRecDepth 16384
-- a buffer's type is looked up in the program's table by its number: the later the buffer, the longer the look-up
set_option maxHeartbeats 4000000

noncomputable section

namespace Cert.KernelIdeal.Layer3

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg)

variable (c : Dev nD)

/-! ## The first stretch: wrap the row numbers, look the rows up -/

theorem rows_in : (W13 (F := Ideal) m ρ c (Proc.devRef .tc main_v68) : Cert.Spec.Rows)
    = Cert.Spec.gath (W12 (F := Ideal) m ρ c (Proc.devRef .tc main_v61)) (W12 (F := Ideal) m ρ c (Proc.devRef .tc main_arg1)) := by
  show StableHlo.after hostOps6 (W12 m ρ c) (Proc.devRef .tc main_v68) = _
  after_results
  rfl

theorem wts_in : W13 (F := Ideal) m ρ c (Proc.devRef .tc main_arg5) = W12 (F := Ideal) m ρ c (Proc.devRef .tc main_arg5) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first region: the per-offset product -/

theorem prod_out
    (hmm : ∀ (V : (c : Dev nD) → (b : Ref sig .tc) → Buf (Elt Ideal) ((c : Thread nD τ).loc b)) (c : Dev nD), (dat6 (F := Ideal) V c).arrAt 2 cfg6.N = Cert.Spec.mm (V c main_v68) (V c main_arg5)) :
    (W14 (F := Ideal) m ρ c (Proc.devRef .tc main_v69) : Cert.Spec.Rows) = Cert.Spec.mm (W13 (F := Ideal) m ρ c (Proc.devRef .tc main_v68)) (W13 (F := Ideal) m ρ c (Proc.devRef .tc main_arg5)) :=
  (W14_arr m ρ c 2).trans (hmm (V13 m ρ) c)

/-! ## The second stretch: scatter the product rows into zeros -/

theorem feat_mid : (W15 (F := Ideal) m ρ c (Proc.devRef .tc main_v79) : Cert.Spec.Feat)
    = Cert.Spec.scat (W14 (F := Ideal) m ρ c (Proc.devRef .tc main_v69)) (W14 (F := Ideal) m ρ c (Proc.devRef .tc main_arg2)) := by
  show StableHlo.after hostOps7 (W14 m ρ c) (Proc.devRef .tc main_v79) = _
  after_results
  rfl

/-! ## The second region: the column sums; its input array is left as it was -/

theorem sum_out
    (hsum : ∀ (V : (c : Dev nD) → (b : Ref sig .tc) → Buf (Elt Ideal) ((c : Thread nD τ).loc b)) (c : Dev nD), (dat7 (F := Ideal) V c).arrAt 1 cfg7.N = Cert.Spec.colsum (V c main_v79)) :
    (W16 (F := Ideal) m ρ c (Proc.devRef .tc main_v80_0) : Cert.Spec.Row1) = Cert.Spec.colsum (W15 (F := Ideal) m ρ c (Proc.devRef .tc main_v79)) :=
  (W16_arr m ρ c 1).trans (hsum (V15 m ρ) c)

theorem sumsq_out
    (hsumsq : ∀ (V : (c : Dev nD) → (b : Ref sig .tc) → Buf (Elt Ideal) ((c : Thread nD τ).loc b)) (c : Dev nD), (dat7 (F := Ideal) V c).arrAt 2 cfg7.N = Cert.Spec.colsumsq (V c main_v79)) :
    (W16 (F := Ideal) m ρ c (Proc.devRef .tc main_v80_1) : Cert.Spec.Row1) = Cert.Spec.colsumsq (W15 (F := Ideal) m ρ c (Proc.devRef .tc main_v79)) :=
  (W16_arr m ρ c 2).trans (hsumsq (V15 m ρ) c)

theorem feat_kept : W16 (F := Ideal) m ρ c (Proc.devRef .tc main_v79) = W15 (F := Ideal) m ρ c (Proc.devRef .tc main_v79) :=
  (W16_arr m ρ c 0).trans (((dat7 (V15 m ρ) c).arrAt_in 0 rfl _).trans (A_eq7 (V15 m ρ) c 0))

/-! ## The third stretch: the mean row, the inverse-deviation row, scale and shift as rows -/

theorem mean_row : (W17 (F := Ideal) m ρ c (Proc.devRef .tc main_v82) : Cert.Spec.Row1) = Cert.Spec.meanK (W16 (F := Ideal) m ρ c (Proc.devRef .tc main_v80_0)) := by
  show StableHlo.after hostOps8 (W16 m ρ c) (Proc.devRef .tc main_v82) = _
  after_results
  rfl

theorem inv_row : (W17 (F := Ideal) m ρ c (Proc.devRef .tc main_v89) : Cert.Spec.Row1) = Cert.Spec.invK (W16 (F := Ideal) m ρ c (Proc.devRef .tc main_v80_0)) (W16 (F := Ideal) m ρ c (Proc.devRef .tc main_v80_1)) := by
  show StableHlo.after hostOps8 (W16 m ρ c) (Proc.devRef .tc main_v89) = _
  after_results
  rfl

theorem scale_row : (W17 (F := Ideal) m ρ c (Proc.devRef .tc main_v90) : Cert.Spec.Row1) = Cert.Spec.rowOf (W16 (F := Ideal) m ρ c (Proc.devRef .tc main_arg10)) := by
  show StableHlo.after hostOps8 (W16 m ρ c) (Proc.devRef .tc main_v90) = _
  after_results
  rfl

theorem shift_row : (W17 (F := Ideal) m ρ c (Proc.devRef .tc main_v91) : Cert.Spec.Row1) = Cert.Spec.rowOf (W16 (F := Ideal) m ρ c (Proc.devRef .tc main_arg11)) := by
  show StableHlo.after hostOps8 (W16 m ρ c) (Proc.devRef .tc main_v91) = _
  after_results
  rfl

theorem feat_kept' : W17 (F := Ideal) m ρ c (Proc.devRef .tc main_v79) = W16 (F := Ideal) m ρ c (Proc.devRef .tc main_v79) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The third region, and the layer -/

theorem layer
    (hmm : ∀ (V : (c : Dev nD) → (b : Ref sig .tc) → Buf (Elt Ideal) ((c : Thread nD τ).loc b)) (c : Dev nD), (dat6 (F := Ideal) V c).arrAt 2 cfg6.N = Cert.Spec.mm (V c main_v68) (V c main_arg5))
    (hsum : ∀ (V : (c : Dev nD) → (b : Ref sig .tc) → Buf (Elt Ideal) ((c : Thread nD τ).loc b)) (c : Dev nD), (dat7 (F := Ideal) V c).arrAt 1 cfg7.N = Cert.Spec.colsum (V c main_v79))
    (hsumsq : ∀ (V : (c : Dev nD) → (b : Ref sig .tc) → Buf (Elt Ideal) ((c : Thread nD τ).loc b)) (c : Dev nD), (dat7 (F := Ideal) V c).arrAt 2 cfg7.N = Cert.Spec.colsumsq (V c main_v79))
    (haff : ∀ (V : (c : Dev nD) → (b : Ref sig .tc) → Buf (Elt Ideal) ((c : Thread nD τ).loc b)) (c : Dev nD), (dat8 (F := Ideal) V c).arrAt 5 cfg8.N
      = Cert.Spec.affRelu (V c main_v79) (V c main_v82) (V c main_v89) (V c main_v90) (V c main_v91)) :
    (W18 (F := Ideal) m ρ c (Proc.devRef .tc main_v92) : Cert.Spec.Feat)
      = Cert.Spec.layerK (W12 (F := Ideal) m ρ c (Proc.devRef .tc main_v61)) (W12 (F := Ideal) m ρ c (Proc.devRef .tc main_arg1)) (W14 (F := Ideal) m ρ c (Proc.devRef .tc main_arg2))
          (W12 (F := Ideal) m ρ c (Proc.devRef .tc main_arg5)) (W16 (F := Ideal) m ρ c (Proc.devRef .tc main_arg10)) (W16 (F := Ideal) m ρ c (Proc.devRef .tc main_arg11)) := by
  refine (W18_arr m ρ c 5).trans ((haff (V17 m ρ) c).trans ?_)
  show Cert.Spec.affRelu (W17 (F := Ideal) m ρ c (Proc.devRef .tc main_v79)) (W17 (F := Ideal) m ρ c (Proc.devRef .tc main_v82)) (W17 (F := Ideal) m ρ c (Proc.devRef .tc main_v89)) (W17 (F := Ideal) m ρ c (Proc.devRef .tc main_v90)) (W17 (F := Ideal) m ρ c (Proc.devRef .tc main_v91)) = _
  rw [feat_kept' m ρ c, feat_kept m ρ c, mean_row m ρ c, inv_row m ρ c, scale_row m ρ c, shift_row m ρ c,
    sum_out m ρ c hsum, sumsq_out m ρ c hsumsq, feat_mid m ρ c, prod_out m ρ c hmm, rows_in m ρ c, wts_in m ρ c]
  rfl

end Cert.KernelIdeal.Layer3

end
-- ==== Proof.KValue.lean ====
/-
  The kernel program's result is the three-layer network, one-pass form, of its argument arrays.

  Each layer's output array is the specification's one-pass layer of what the layer reads at its own boundaries; the
  second layer's input is the first layer's output and the third's the second's, and every argument read at an inner
  boundary is the launch memory's array.  So the result's buffer, at the last boundary, holds the three layers
  composed over the launch memory's arguments; the run of the program then ends with that array in the result's
  buffer and the arguments as launched.  What the nine regions leave is taken as twelve hypotheses (one per output
  array), each proved for any entry contents in its region's own module.
-/
import proofs.«110267_j20564303414103_1_alg».proof.Proof.Gen.KernelIdeal.Frame
import proofs.«110267_j20564303414103_1_alg».proof.Proof.Spec
import proofs.«110267_j20564303414103_1_alg».proof.Proof.KRun
import proofs.«110267_j20564303414103_1_alg».proof.Proof.ArgReads
import proofs.«110267_j20564303414103_1_alg».proof.Proof.Layer1
import proofs.«110267_j20564303414103_1_alg».proof.Proof.Layer2
import proofs.«110267_j20564303414103_1_alg».proof.Proof.Layer3
set_option maxRecDepth 16384

noncomputable section

namespace Cert.KernelIdeal.KValue

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg)

/-- The result's buffer at the last boundary. -/
theorem result
    (hmm0 : ∀ (V : (c : Dev nD) → (b : Ref sig .tc) → Buf (Elt Ideal) ((c : Thread nD τ).loc b)) (c : Dev nD), (dat0 (F := Ideal) V c).arrAt 2 cfg0.N = Cert.Spec.mm (V c main_v6) (V c main_arg3))
    (hsum1 : ∀ (V : (c : Dev nD) → (b : Ref sig .tc) → Buf (Elt Ideal) ((c : Thread nD τ).loc b)) (c : Dev nD), (dat1 (F := Ideal) V c).arrAt 1 cfg1.N = Cert.Spec.colsum (V c main_v17))
    (hsumsq1 : ∀ (V : (c : Dev nD) → (b : Ref sig .tc) → Buf (Elt Ideal) ((c : Thread nD τ).loc b)) (c : Dev nD), (dat1 (F := Ideal) V c).arrAt 2 cfg1.N = Cert.Spec.colsumsq (V c main_v17))
    (haff2 : ∀ (V : (c : Dev nD) → (b : Ref sig .tc) → Buf (Elt Ideal) ((c : Thread nD τ).loc b)) (c : Dev nD), (dat2 (F := Ideal) V c).arrAt 5 cfg2.N
      = Cert.Spec.affRelu (V c main_v17) (V c main_v20) (V c main_v27) (V c main_v28) (V c main_v29))
    (hmm3 : ∀ (V : (c : Dev nD) → (b : Ref sig .tc) → Buf (Elt Ideal) ((c : Thread nD τ).loc b)) (c : Dev nD), (dat3 (F := Ideal) V c).arrAt 2 cfg3.N = Cert.Spec.mm (V c main_v37) (V c main_arg4))
    (hsum4 : ∀ (V : (c : Dev nD) → (b : Ref sig .tc) → Buf (Elt Ideal) ((c : Thread nD τ).loc b)) (c : Dev nD), (dat4 (F := Ideal) V c).arrAt 1 cfg4.N = Cert.Spec.colsum (V c main_v48))
    (hsumsq4 : ∀ (V : (c : Dev nD) → (b : Ref sig .tc) → Buf (Elt Ideal) ((c : Thread nD τ).loc b)) (c : Dev nD), (dat4 (F := Ideal) V c).arrAt 2 cfg4.N = Cert.Spec.colsumsq (V c main_v48))
    (haff5 : ∀ (V : (c : Dev nD) → (b : Ref sig .tc) → Buf (Elt Ideal) ((c : Thread nD τ).loc b)) (c : Dev nD), (dat5 (F := Ideal) V c).arrAt 5 cfg5.N
      = Cert.Spec.affRelu (V c main_v48) (V c main_v51) (V c main_v58) (V c main_v59) (V c main_v60))
    (hmm6 : ∀ (V : (c : Dev nD) → (b : Ref sig .tc) → Buf (Elt Ideal) ((c : Thread nD τ).loc b)) (c : Dev nD), (dat6 (F := Ideal) V c).arrAt 2 cfg6.N = Cert.Spec.mm (V c main_v68) (V c main_arg5))
    (hsum7 : ∀ (V : (c : Dev nD) → (b : Ref sig .tc) → Buf (Elt Ideal) ((c : Thread nD τ).loc b)) (c : Dev nD), (dat7 (F := Ideal) V c).arrAt 1 cfg7.N = Cert.Spec.colsum (V c main_v79))
    (hsumsq7 : ∀ (V : (c : Dev nD) → (b : Ref sig .tc) → Buf (Elt Ideal) ((c : Thread nD τ).loc b)) (c : Dev nD), (dat7 (F := Ideal) V c).arrAt 2 cfg7.N = Cert.Spec.colsumsq (V c main_v79))
    (haff8 : ∀ (V : (c : Dev nD) → (b : Ref sig .tc) → Buf (Elt Ideal) ((c : Thread nD τ).loc b)) (c : Dev nD), (dat8 (F := Ideal) V c).arrAt 5 cfg8.N
      = Cert.Spec.affRelu (V c main_v79) (V c main_v82) (V c main_v89) (V c main_v90) (V c main_v91))
    (c : Dev nD) :
    (W18 (F := Ideal) m ρ c (Proc.devRef .tc main_v92) : Cert.Spec.Feat)
      = Cert.Spec.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.KernelIdeal.Layer3.layer m ρ c hmm6 hsum7 hsumsq7 haff8,
    Cert.KernelIdeal.Layer2.layer m ρ c hmm3 hsum4 hsumsq4 haff5,
    Cert.KernelIdeal.Layer1.layer m ρ c hmm0 hsum1 hsumsq1 haff2,
    Cert.KernelIdeal.ArgReads.W2_main_arg2 m ρ c, Cert.KernelIdeal.ArgReads.W4_main_arg6 m ρ c, Cert.KernelIdeal.ArgReads.W4_main_arg7 m ρ c,
    Cert.KernelIdeal.ArgReads.W6_main_arg1 m ρ c, Cert.KernelIdeal.ArgReads.W6_main_arg4 m ρ c, Cert.KernelIdeal.ArgReads.W8_main_arg2 m ρ c,
    Cert.KernelIdeal.ArgReads.W10_main_arg8 m ρ c, Cert.KernelIdeal.ArgReads.W10_main_arg9 m ρ c,
    Cert.KernelIdeal.ArgReads.W12_main_arg1 m ρ c, Cert.KernelIdeal.ArgReads.W12_main_arg5 m ρ c, Cert.KernelIdeal.ArgReads.W14_main_arg2 m ρ c,
    Cert.KernelIdeal.ArgReads.W16_main_arg10 m ρ c, Cert.KernelIdeal.ArgReads.W16_main_arg11 m ρ c]
  rfl

/-- The program's run: it terminates without a fault, the result's buffer ends at the one-pass network of the launch
    memory's arguments, and the arguments end as launched. -/
theorem run
    (hmm0 : ∀ (V : (c : Dev nD) → (b : Ref sig .tc) → Buf (Elt Ideal) ((c : Thread nD τ).loc b)) (c : Dev nD), (dat0 (F := Ideal) V c).arrAt 2 cfg0.N = Cert.Spec.mm (V c main_v6) (V c main_arg3))
    (hsum1 : ∀ (V : (c : Dev nD) → (b : Ref sig .tc) → Buf (Elt Ideal) ((c : Thread nD τ).loc b)) (c : Dev nD), (dat1 (F := Ideal) V c).arrAt 1 cfg1.N = Cert.Spec.colsum (V c main_v17))
    (hsumsq1 : ∀ (V : (c : Dev nD) → (b : Ref sig .tc) → Buf (Elt Ideal) ((c : Thread nD τ).loc b)) (c : Dev nD), (dat1 (F := Ideal) V c).arrAt 2 cfg1.N = Cert.Spec.colsumsq (V c main_v17))
    (haff2 : ∀ (V : (c : Dev nD) → (b : Ref sig .tc) → Buf (Elt Ideal) ((c : Thread nD τ).loc b)) (c : Dev nD), (dat2 (F := Ideal) V c).arrAt 5 cfg2.N
      = Cert.Spec.affRelu (V c main_v17) (V c main_v20) (V c main_v27) (V c main_v28) (V c main_v29))
    (hmm3 : ∀ (V : (c : Dev nD) → (b : Ref sig .tc) → Buf (Elt Ideal) ((c : Thread nD τ).loc b)) (c : Dev nD), (dat3 (F := Ideal) V c).arrAt 2 cfg3.N = Cert.Spec.mm (V c main_v37) (V c main_arg4))
    (hsum4 : ∀ (V : (c : Dev nD) → (b : Ref sig .tc) → Buf (Elt Ideal) ((c : Thread nD τ).loc b)) (c : Dev nD), (dat4 (F := Ideal) V c).arrAt 1 cfg4.N = Cert.Spec.colsum (V c main_v48))
    (hsumsq4 : ∀ (V : (c : Dev nD) → (b : Ref sig .tc) → Buf (Elt Ideal) ((c : Thread nD τ).loc b)) (c : Dev nD), (dat4 (F := Ideal) V c).arrAt 2 cfg4.N = Cert.Spec.colsumsq (V c main_v48))
    (haff5 : ∀ (V : (c : Dev nD) → (b : Ref sig .tc) → Buf (Elt Ideal) ((c : Thread nD τ).loc b)) (c : Dev nD), (dat5 (F := Ideal) V c).arrAt 5 cfg5.N
      = Cert.Spec.affRelu (V c main_v48) (V c main_v51) (V c main_v58) (V c main_v59) (V c main_v60))
    (hmm6 : ∀ (V : (c : Dev nD) → (b : Ref sig .tc) → Buf (Elt Ideal) ((c : Thread nD τ).loc b)) (c : Dev nD), (dat6 (F := Ideal) V c).arrAt 2 cfg6.N = Cert.Spec.mm (V c main_v68) (V c main_arg5))
    (hsum7 : ∀ (V : (c : Dev nD) → (b : Ref sig .tc) → Buf (Elt Ideal) ((c : Thread nD τ).loc b)) (c : Dev nD), (dat7 (F := Ideal) V c).arrAt 1 cfg7.N = Cert.Spec.colsum (V c main_v79))
    (hsumsq7 : ∀ (V : (c : Dev nD) → (b : Ref sig .tc) → Buf (Elt Ideal) ((c : Thread nD τ).loc b)) (c : Dev nD), (dat7 (F := Ideal) V c).arrAt 2 cfg7.N = Cert.Spec.colsumsq (V c main_v79))
    (haff8 : ∀ (V : (c : Dev nD) → (b : Ref sig .tc) → Buf (Elt Ideal) ((c : Thread nD τ).loc b)) (c : Dev nD), (dat8 (F := Ideal) V c).arrAt 5 cfg8.N
      = Cert.Spec.affRelu (V c main_v79) (V c main_v82) (V c main_v89) (V c main_v90) (V c main_v91)) :
    θ_run defs (onTc (τ := τ) (main (F := Ideal))) ⟨m, fun _ => 0, ρ⟩ (fun r => ∀ c : Dev nD,
      r.2.mem ((c.tc : Thread nD τ).loc main_v92) = Cert.Spec.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun r h c => ⟨(h c).1.trans (result m ρ hmm0 hsum1 hsumsq1 haff2 hmm3 hsum4 hsumsq4 haff5 hmm6 hsum7 hsumsq7 haff8 c), (h c).2⟩)
    (Cert.KernelIdeal.KRun.run_result (F := Ideal) m ρ)

end Cert.KernelIdeal.KValue

end
-- ==== Proof.MatmulRegion0.lean ====
/-
  The per-offset matrix product: what the product kernel leaves in its output array.

  The kernel runs over a 27 x 5 grid of points.  At point (k, e) it is handed rows 10000 e .. 10000 e + 9999 of
  offset k of the looked-up rows (a 1 x 10000 x 64 block), the 64 x 64 matrix of offset k (a 1 x 64 x 64 block), and
  writes back a 1 x 10000 x 64 block of the output at the same place as the rows' block.  Its body drops the unit
  axis of both blocks, multiplies the 10000 x 64 rows by the 64 x 64 matrix into a zero accumulator, and puts the
  unit axis back.  Over the extended reals the product at (r, d) is the sum over the 64 contracted channels c of
  row r at c times the matrix at (c, d); nothing else is left of it.

  So the block written back at a point is the block, at that point's place, of ONE function of the two input arrays
  as the kernel finds them: entry (k, e, d) is the sum over c of rows (k, e, c) times matrices (k, c, d).  The 135
  blocks tile the output array (entry (k, e, d) lies in the block of point 5 k + e / 10000), so after the last point
  the output array is that function.  No finiteness is used.
-/
import proofs.«110267_j20564303414103_1_alg».proof.Proof.Spec
import proofs.«110267_j20564303414103_1_alg».proof.Proof.Gen.KernelIdeal.Frame
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.MatmulRegion0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The block the body stores, at (u, r, d): the unit axis is dropped from both blocks and put back on the result,
    the product into the zero accumulator is the host's product, and that product of a 10000 x 64 by a 64 x 64 matrix
    at (r, d) is the sum over the contracted channel. -/
theorem product_block_apply (x0 : Vec Ideal S1x10000x64 .f32) (x1 : Vec Ideal S1x64x64 .f32)
    (u : Fin 1) (r : Fin 10000) (d : Fin 64) :
    k0_pay1 (F := Ideal) x0 x1 (ix3 u r d) = ∑ c : Fin 64, x0 (ix3 (0 : Fin 1) r c) * x1 (ix3 (0 : Fin 1) c d) := by
  unfold k0_pay1
  refine (shapeCast_ab_1ab_apply _ _ u r d).trans ?_
  refine (congrFun (matmul_zero_eq_dotGeneral _ none _ _) (ix2 r d)).trans ?_
  refine (StackMember.dotGeneral_plain_apply none _ _ r d).trans ?_
  refine Finset.sum_congr rfl fun c _ => ?_
  rw [shapeCast_1ab_ab_apply, shapeCast_1ab_ab_apply]

/-- The same entry against the specification: when row (y 1) of the rows' block is row (i 0, i 1) of an array g and
    column (y 2) of the matrix block is column (i 0, ., i 2) of an array w, the stored block at y is the entrywise
    product of g and w at i. -/
theorem product_block_entry (x0 : Vec Ideal S1x10000x64 .f32) (x1 : Vec Ideal S1x64x64 .f32)
    (g : Cert.Spec.Rows) (w : Cert.Spec.Wts) (y : S1x10000x64.Idx) (i : S27x50000x64.Idx)
    (h0 : ∀ c : Fin 64, x0 (ix3 (0 : Fin 1) (y 1) c) = g (ix3 (n0 := 27) (n1 := 50000) (n2 := 64) (i 0) (i 1) c))
    (h1 : ∀ c : Fin 64, x1 (ix3 (0 : Fin 1) c (y 2)) = w (ix3 (n0 := 27) (n1 := 64) (n2 := 64) (i 0) c (i 2))) :
    k0_pay1 (F := Ideal) x0 x1 y = Cert.Spec.mm g w i := by
  refine (congrArg (k0_pay1 (F := Ideal) x0 x1) (eq_ix3 y)).trans ?_
  refine (product_block_apply x0 x1 (y 0) (y 1) (y 2)).trans ?_
  exact Finset.sum_congr rfl fun c _ => by rw [h0 c, h1 c]

/-! ## Where the three windows' blocks sit -/

/-- All-zero offsets, however spelt. -/
theorem zero_offsets : (![0, 0, 0] : Fin 3 → Nat) = fun _ => 0 := funext fun a => by fin_cases a <;> rfl

/-- The index maps over the grid, decided point by point: the rows' block and the output's block are at the same
    block position (offset t / 5, row block t % 5, channel block 0), and the matrix block is the whole matrix of the
    same offset. -/
theorem block_positions : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) = t.val / 5
    ∧ win0_2.index t (1 : Fin 3) = t.val % 5
    ∧ win0_2.index t (2 : Fin 3) = 0 :=
  (by decide +kernel : ∀ t : Fin grid0.N, _)

variable (V : (c : Dev nD) → (b : Ref sig .tc) → Buf (Elt Ideal) ((c : Thread nD τ).loc b))

/-! ## What a point writes back -/

/-- WHAT POINT t WRITES BACK is its block of the entrywise product of the two input arrays as the kernel finds them. -/
theorem point_writes_product_block (c : Dev nD) (t : Fin cfg0.N) :
    (dat0 (F := Ideal) V c).flushed 2 t
      = ((cfg0.win 2).blk t).view.read (Elt Ideal) (Cert.Spec.mm (V c main_v6) (V c main_arg3)) := by
  show (cfg0.win 2).cut (grid0.coords t) ((dat0 V c).after 2 t) = _
  rw [after0_2]
  unfold out0_2
  rw [View.canon_unit_zero zero_offsets]
  simp only [View.ld_unit_zero (S := S1x10000x64) zero_offsets, View.ld_unit_zero (S := S1x64x64) zero_offsets]
  obtain ⟨e0, e1, e2, e3, e4, e5, -, -, e8⟩ := block_positions t
  funext y
  show k0_pay1 (F := Ideal) (iblk0 V c 0 t) (iblk0 V c 1 t) y
    = Cert.Spec.mm (V c main_v6) (V c main_arg3) (((cfg0.win 2).blk t).view.emb y)
  have hy0 : (y 0).val < 1 := (y 0).isLt
  refine product_block_entry (iblk0 V c 0 t) (iblk0 V c 1 t) (V c main_v6) (V c main_arg3) y
    (((cfg0.win 2).blk t).view.emb y) (fun cc => ?_) (fun cc => ?_)
  · show V c main_v6 (((cfg0.win 0).blk t).view.emb (ix3 (0 : Fin 1) (y 1) cc)) = V c main_v6 _
    refine congrArg (V c main_v6) (funext fun a => Fin.ext ?_)
    match a with
    | ⟨0, _⟩ => show win0_0.index t (0 : Fin 3) * 1 + 1 * 0 = win0_2.index t (0 : Fin 3) * 1 + 1 * (y 0).val; omega
    | ⟨1, _⟩ => show win0_0.index t (1 : Fin 3) * 10000 + 1 * (y 1).val = win0_2.index t (1 : Fin 3) * 10000 + 1 * (y 1).val; omega
    | ⟨2, _⟩ => show win0_0.index t (2 : Fin 3) * 64 + 1 * cc.val = cc.val; omega
  · show V c main_arg3 (((cfg0.win 1).blk t).view.emb (ix3 (0 : Fin 1) cc (y 2))) = V c main_arg3 _
    refine congrArg (V c main_arg3) (funext fun a => Fin.ext ?_)
    match a with
    | ⟨0, _⟩ => show win0_1.index t (0 : Fin 3) * 1 + 1 * 0 = win0_2.index t (0 : Fin 3) * 1 + 1 * (y 0).val; omega
    | ⟨1, _⟩ => show win0_1.index t (1 : Fin 3) * 64 + 1 * cc.val = cc.val; omega
    | ⟨2, _⟩ => show win0_1.index t (2 : Fin 3) * 64 + 1 * (y 2).val = win0_2.index t (2 : Fin 3) * 64 + 1 * (y 2).val; omega

/-! ## The blocks tile the output -/

/-- An entry of the output array is in point t's block iff each coordinate is in the block's range on its axis. -/
theorem mem_block (t : Fin cfg0.N) (i : S27x50000x64.Idx) :
    i ∈ ((cfg0.win 2).blk t).view.set ↔ ∀ a : Fin 3, win0_2.index t a * S1x10000x64.size a ≤ (i a).val
      ∧ (i a).val < win0_2.index t a * S1x10000x64.size a + S1x10000x64.size a := by
  show i ∈ ((View.whole main_v7).slice (win0_2.rect t)).set ↔ _
  rw [View.set_slice_whole, Rect.mem_set_unit]
  exact Iff.rfl

/-- Entry (k, e, d) lies in the block of point 5 k + e / 10000. -/
theorem covered (i : S27x50000x64.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 64 := (i 2).isLt
  have hN : grid0.N = 135 := N_0
  obtain ⟨t, ht⟩ : ∃ t : Fin cfg0.N, t.val = (i 0).val * 5 + (i 1).val / 10000 :=
    ⟨⟨(i 0).val * 5 + (i 1).val / 10000, by show _ < grid0.N; rw [hN]; omega⟩, rfl⟩
  obtain ⟨-, -, -, -, -, -, p0, p1, p2⟩ := block_positions t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 64 ≤ (i 2).val ∧ (i 2).val < win0_2.index t (2 : Fin 3) * 64 + 64; omega

/-! ## The output array after the last point -/

/-- THE OUTPUT ARRAY after all 135 points is the entrywise product of the two input arrays as the kernel finds them. -/
theorem final (c : Dev nD) :
    (dat0 (F := Ideal) V c).arrAt 2 cfg0.N = Cert.Spec.mm (V c main_v6) (V c main_arg3) :=
  (dat0 (F := Ideal) V c).arrAt_eq_of_cover 2 (Cert.Spec.mm (V c main_v6) (V c main_arg3))
    (fun t _ => point_writes_product_block V c t) covered

end Cert.KernelIdeal.MatmulRegion0

end
-- ==== Proof.MatmulRegion3.lean ====
/-
  The per-offset matrix product: what the product kernel leaves in its output array.

  The kernel runs over a 27 x 5 grid of points.  At point (k, e) it is handed rows 10000 e .. 10000 e + 9999 of
  offset k of the looked-up rows (a 1 x 10000 x 64 block), the 64 x 64 matrix of offset k (a 1 x 64 x 64 block), and
  writes back a 1 x 10000 x 64 block of the output at the same place as the rows' block.  Its body drops the unit
  axis of both blocks, multiplies the 10000 x 64 rows by the 64 x 64 matrix into a zero accumulator, and puts the
  unit axis back.  Over the extended reals the product at (r, d) is the sum over the 64 contracted channels c of
  row r at c times the matrix at (c, d); nothing else is left of it.

  So the block written back at a point is the block, at that point's place, of ONE function of the two input arrays
  as the kernel finds them: entry (k, e, d) is the sum over c of rows (k, e, c) times matrices (k, c, d).  The 135
  blocks tile the output array (entry (k, e, d) lies in the block of point 5 k + e / 10000), so after the last point
  the output array is that function.  No finiteness is used.
-/
import proofs.«110267_j20564303414103_1_alg».proof.Proof.Spec
import proofs.«110267_j20564303414103_1_alg».proof.Proof.Gen.KernelIdeal.Frame
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.MatmulRegion3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The block the body stores, at (u, r, d): the unit axis is dropped from both blocks and put back on the result,
    the product into the zero accumulator is the host's product, and that product of a 10000 x 64 by a 64 x 64 matrix
    at (r, d) is the sum over the contracted channel. -/
theorem product_block_apply (x0 : Vec Ideal S1x10000x64 .f32) (x1 : Vec Ideal S1x64x64 .f32)
    (u : Fin 1) (r : Fin 10000) (d : Fin 64) :
    k3_pay1 (F := Ideal) x0 x1 (ix3 u r d) = ∑ c : Fin 64, x0 (ix3 (0 : Fin 1) r c) * x1 (ix3 (0 : Fin 1) c d) := by
  unfold k3_pay1
  refine (shapeCast_ab_1ab_apply _ _ u r d).trans ?_
  refine (congrFun (matmul_zero_eq_dotGeneral _ none _ _) (ix2 r d)).trans ?_
  refine (StackMember.dotGeneral_plain_apply none _ _ r d).trans ?_
  refine Finset.sum_congr rfl fun c _ => ?_
  rw [shapeCast_1ab_ab_apply, shapeCast_1ab_ab_apply]

/-- The same entry against the specification: when row (y 1) of the rows' block is row (i 0, i 1) of an array g and
    column (y 2) of the matrix block is column (i 0, ., i 2) of an array w, the stored block at y is the entrywise
    product of g and w at i. -/
theorem product_block_entry (x0 : Vec Ideal S1x10000x64 .f32) (x1 : Vec Ideal S1x64x64 .f32)
    (g : Cert.Spec.Rows) (w : Cert.Spec.Wts) (y : S1x10000x64.Idx) (i : S27x50000x64.Idx)
    (h0 : ∀ c : Fin 64, x0 (ix3 (0 : Fin 1) (y 1) c) = g (ix3 (n0 := 27) (n1 := 50000) (n2 := 64) (i 0) (i 1) c))
    (h1 : ∀ c : Fin 64, x1 (ix3 (0 : Fin 1) c (y 2)) = w (ix3 (n0 := 27) (n1 := 64) (n2 := 64) (i 0) c (i 2))) :
    k3_pay1 (F := Ideal) x0 x1 y = Cert.Spec.mm g w i := by
  refine (congrArg (k3_pay1 (F := Ideal) x0 x1) (eq_ix3 y)).trans ?_
  refine (product_block_apply x0 x1 (y 0) (y 1) (y 2)).trans ?_
  exact Finset.sum_congr rfl fun c _ => by rw [h0 c, h1 c]

/-! ## Where the three windows' blocks sit -/

/-- All-zero offsets, however spelt. -/
theorem zero_offsets : (![0, 0, 0] : Fin 3 → Nat) = fun _ => 0 := funext fun a => by fin_cases a <;> rfl

/-- The index maps over the grid, decided point by point: the rows' block and the output's block are at the same
    block position (offset t / 5, row block t % 5, channel block 0), and the matrix block is the whole matrix of the
    same offset. -/
theorem block_positions : ∀ t : Fin cfg3.N,
    win3_0.index t (0 : Fin 3) = win3_2.index t (0 : Fin 3)
    ∧ win3_0.index t (1 : Fin 3) = win3_2.index t (1 : Fin 3)
    ∧ win3_0.index t (2 : Fin 3) = 0
    ∧ win3_1.index t (0 : Fin 3) = win3_2.index t (0 : Fin 3)
    ∧ win3_1.index t (1 : Fin 3) = 0
    ∧ win3_1.index t (2 : Fin 3) = 0
    ∧ win3_2.index t (0 : Fin 3) = t.val / 5
    ∧ win3_2.index t (1 : Fin 3) = t.val % 5
    ∧ win3_2.index t (2 : Fin 3) = 0 :=
  (by decide +kernel : ∀ t : Fin grid3.N, _)

variable (V : (c : Dev nD) → (b : Ref sig .tc) → Buf (Elt Ideal) ((c : Thread nD τ).loc b))

/-! ## What a point writes back -/

/-- WHAT POINT t WRITES BACK is its block of the entrywise product of the two input arrays as the kernel finds them. -/
theorem point_writes_product_block (c : Dev nD) (t : Fin cfg3.N) :
    (dat3 (F := Ideal) V c).flushed 2 t
      = ((cfg3.win 2).blk t).view.read (Elt Ideal) (Cert.Spec.mm (V c main_v37) (V c main_arg4)) := by
  show (cfg3.win 2).cut (grid3.coords t) ((dat3 V c).after 2 t) = _
  rw [after3_2]
  unfold out3_2
  rw [View.canon_unit_zero zero_offsets]
  simp only [View.ld_unit_zero (S := S1x10000x64) zero_offsets, View.ld_unit_zero (S := S1x64x64) zero_offsets]
  obtain ⟨e0, e1, e2, e3, e4, e5, -, -, e8⟩ := block_positions t
  funext y
  show k3_pay1 (F := Ideal) (iblk3 V c 0 t) (iblk3 V c 1 t) y
    = Cert.Spec.mm (V c main_v37) (V c main_arg4) (((cfg3.win 2).blk t).view.emb y)
  have hy0 : (y 0).val < 1 := (y 0).isLt
  refine product_block_entry (iblk3 V c 0 t) (iblk3 V c 1 t) (V c main_v37) (V c main_arg4) y
    (((cfg3.win 2).blk t).view.emb y) (fun cc => ?_) (fun cc => ?_)
  · show V c main_v37 (((cfg3.win 0).blk t).view.emb (ix3 (0 : Fin 1) (y 1) cc)) = V c main_v37 _
    refine congrArg (V c main_v37) (funext fun a => Fin.ext ?_)
    match a with
    | ⟨0, _⟩ => show win3_0.index t (0 : Fin 3) * 1 + 1 * 0 = win3_2.index t (0 : Fin 3) * 1 + 1 * (y 0).val; omega
    | ⟨1, _⟩ => show win3_0.index t (1 : Fin 3) * 10000 + 1 * (y 1).val = win3_2.index t (1 : Fin 3) * 10000 + 1 * (y 1).val; omega
    | ⟨2, _⟩ => show win3_0.index t (2 : Fin 3) * 64 + 1 * cc.val = cc.val; omega
  · show V c main_arg4 (((cfg3.win 1).blk t).view.emb (ix3 (0 : Fin 1) cc (y 2))) = V c main_arg4 _
    refine congrArg (V c main_arg4) (funext fun a => Fin.ext ?_)
    match a with
    | ⟨0, _⟩ => show win3_1.index t (0 : Fin 3) * 1 + 1 * 0 = win3_2.index t (0 : Fin 3) * 1 + 1 * (y 0).val; omega
    | ⟨1, _⟩ => show win3_1.index t (1 : Fin 3) * 64 + 1 * cc.val = cc.val; omega
    | ⟨2, _⟩ => show win3_1.index t (2 : Fin 3) * 64 + 1 * (y 2).val = win3_2.index t (2 : Fin 3) * 64 + 1 * (y 2).val; omega

/-! ## The blocks tile the output -/

/-- An entry of the output array is in point t's block iff each coordinate is in the block's range on its axis. -/
theorem mem_block (t : Fin cfg3.N) (i : S27x50000x64.Idx) :
    i ∈ ((cfg3.win 2).blk t).view.set ↔ ∀ a : Fin 3, win3_2.index t a * S1x10000x64.size a ≤ (i a).val
      ∧ (i a).val < win3_2.index t a * S1x10000x64.size a + S1x10000x64.size a := by
  show i ∈ ((View.whole main_v38).slice (win3_2.rect t)).set ↔ _
  rw [View.set_slice_whole, Rect.mem_set_unit]
  exact Iff.rfl

/-- Entry (k, e, d) lies in the block of point 5 k + e / 10000. -/
theorem covered (i : S27x50000x64.Idx) :
    ∃ t : Fin cfg3.N, (cfg3.win 2).flush t = true ∧ i ∈ ((cfg3.win 2).blk t).view.set := by
  have hi0 : (i 0).val < 27 := (i 0).isLt
  have hi1 : (i 1).val < 50000 := (i 1).isLt
  have hi2 : (i 2).val < 64 := (i 2).isLt
  have hN : grid3.N = 135 := N_3
  obtain ⟨t, ht⟩ : ∃ t : Fin cfg3.N, t.val = (i 0).val * 5 + (i 1).val / 10000 :=
    ⟨⟨(i 0).val * 5 + (i 1).val / 10000, by show _ < grid3.N; rw [hN]; omega⟩, rfl⟩
  obtain ⟨-, -, -, -, -, -, p0, p1, p2⟩ := block_positions t
  refine ⟨t, flush3_2 t, ?_⟩
  rw [mem_block]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 10000 ≤ (i 1).val ∧ (i 1).val < win3_2.index t (1 : Fin 3) * 10000 + 10000; omega
  | ⟨2, _⟩ => show win3_2.index t (2 : Fin 3) * 64 ≤ (i 2).val ∧ (i 2).val < win3_2.index t (2 : Fin 3) * 64 + 64; omega

/-! ## The output array after the last point -/

/-- THE OUTPUT ARRAY after all 135 points is the entrywise product of the two input arrays as the kernel finds them. -/
theorem final (c : Dev nD) :
    (dat3 (F := Ideal) V c).arrAt 2 cfg3.N = Cert.Spec.mm (V c main_v37) (V c main_arg4) :=
  (dat3 (F := Ideal) V c).arrAt_eq_of_cover 2 (Cert.Spec.mm (V c main_v37) (V c main_arg4))
    (fun t _ => point_writes_product_block V c t) covered

end Cert.KernelIdeal.MatmulRegion3

end
-- ==== Proof.MatmulRegion6.lean ====
/-
  The per-offset matrix product: what the product kernel leaves in its output array.

  The kernel runs over a 27 x 5 grid of points.  At point (k, e) it is handed rows 10000 e .. 10000 e + 9999 of
  offset k of the looked-up rows (a 1 x 10000 x 64 block), the 64 x 64 matrix of offset k (a 1 x 64 x 64 block), and
  writes back a 1 x 10000 x 64 block of the output at the same place as the rows' block.  Its body drops the unit
  axis of both blocks, multiplies the 10000 x 64 rows by the 64 x 64 matrix into a zero accumulator, and puts the
  unit axis back.  Over the extended reals the product at (r, d) is the sum over the 64 contracted channels c of
  row r at c times the matrix at (c, d); nothing else is left of it.

  So the block written back at a point is the block, at that point's place, of ONE function of the two input arrays
  as the kernel finds them: entry (k, e, d) is the sum over c of rows (k, e, c) times matrices (k, c, d).  The 135
  blocks tile the output array (entry (k, e, d) lies in the block of point 5 k + e / 10000), so after the last point
  the output array is that function.  No finiteness is used.
-/
import proofs.«110267_j20564303414103_1_alg».proof.Proof.Spec
import proofs.«110267_j20564303414103_1_alg».proof.Proof.Gen.KernelIdeal.Frame
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.MatmulRegion6

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The block the body stores, at (u, r, d): the unit axis is dropped from both blocks and put back on the result,
    the product into the zero accumulator is the host's product, and that product of a 10000 x 64 by a 64 x 64 matrix
    at (r, d) is the sum over the contracted channel. -/
theorem product_block_apply (x0 : Vec Ideal S1x10000x64 .f32) (x1 : Vec Ideal S1x64x64 .f32)
    (u : Fin 1) (r : Fin 10000) (d : Fin 64) :
    k6_pay1 (F := Ideal) x0 x1 (ix3 u r d) = ∑ c : Fin 64, x0 (ix3 (0 : Fin 1) r c) * x1 (ix3 (0 : Fin 1) c d) := by
  unfold k6_pay1
  refine (shapeCast_ab_1ab_apply _ _ u r d).trans ?_
  refine (congrFun (matmul_zero_eq_dotGeneral _ none _ _) (ix2 r d)).trans ?_
  refine (StackMember.dotGeneral_plain_apply none _ _ r d).trans ?_
  refine Finset.sum_congr rfl fun c _ => ?_
  rw [shapeCast_1ab_ab_apply, shapeCast_1ab_ab_apply]

/-- The same entry against the specification: when row (y 1) of the rows' block is row (i 0, i 1) of an array g and
    column (y 2) of the matrix block is column (i 0, ., i 2) of an array w, the stored block at y is the entrywise
    product of g and w at i. -/
theorem product_block_entry (x0 : Vec Ideal S1x10000x64 .f32) (x1 : Vec Ideal S1x64x64 .f32)
    (g : Cert.Spec.Rows) (w : Cert.Spec.Wts) (y : S1x10000x64.Idx) (i : S27x50000x64.Idx)
    (h0 : ∀ c : Fin 64, x0 (ix3 (0 : Fin 1) (y 1) c) = g (ix3 (n0 := 27) (n1 := 50000) (n2 := 64) (i 0) (i 1) c))
    (h1 : ∀ c : Fin 64, x1 (ix3 (0 : Fin 1) c (y 2)) = w (ix3 (n0 := 27) (n1 := 64) (n2 := 64) (i 0) c (i 2))) :
    k6_pay1 (F := Ideal) x0 x1 y = Cert.Spec.mm g w i := by
  refine (congrArg (k6_pay1 (F := Ideal) x0 x1) (eq_ix3 y)).trans ?_
  refine (product_block_apply x0 x1 (y 0) (y 1) (y 2)).trans ?_
  exact Finset.sum_congr rfl fun c _ => by rw [h0 c, h1 c]

/-! ## Where the three windows' blocks sit -/

/-- All-zero offsets, however spelt. -/
theorem zero_offsets : (![0, 0, 0] : Fin 3 → Nat) = fun _ => 0 := funext fun a => by fin_cases a <;> rfl

/-- The index maps over the grid, decided point by point: the rows' block and the output's block are at the same
    block position (offset t / 5, row block t % 5, channel block 0), and the matrix block is the whole matrix of the
    same offset. -/
theorem block_positions : ∀ t : Fin cfg6.N,
    win6_0.index t (0 : Fin 3) = win6_2.index t (0 : Fin 3)
    ∧ win6_0.index t (1 : Fin 3) = win6_2.index t (1 : Fin 3)
    ∧ win6_0.index t (2 : Fin 3) = 0
    ∧ win6_1.index t (0 : Fin 3) = win6_2.index t (0 : Fin 3)
    ∧ win6_1.index t (1 : Fin 3) = 0
    ∧ win6_1.index t (2 : Fin 3) = 0
    ∧ win6_2.index t (0 : Fin 3) = t.val / 5
    ∧ win6_2.index t (1 : Fin 3) = t.val % 5
    ∧ win6_2.index t (2 : Fin 3) = 0 :=
  (by decide +kernel : ∀ t : Fin grid6.N, _)

variable (V : (c : Dev nD) → (b : Ref sig .tc) → Buf (Elt Ideal) ((c : Thread nD τ).loc b))

/-! ## What a point writes back -/

/-- WHAT POINT t WRITES BACK is its block of the entrywise product of the two input arrays as the kernel finds them. -/
theorem point_writes_product_block (c : Dev nD) (t : Fin cfg6.N) :
    (dat6 (F := Ideal) V c).flushed 2 t
      = ((cfg6.win 2).blk t).view.read (Elt Ideal) (Cert.Spec.mm (V c main_v68) (V c main_arg5)) := by
  show (cfg6.win 2).cut (grid6.coords t) ((dat6 V c).after 2 t) = _
  rw [after6_2]
  unfold out6_2
  rw [View.canon_unit_zero zero_offsets]
  simp only [View.ld_unit_zero (S := S1x10000x64) zero_offsets, View.ld_unit_zero (S := S1x64x64) zero_offsets]
  obtain ⟨e0, e1, e2, e3, e4, e5, -, -, e8⟩ := block_positions t
  funext y
  show k6_pay1 (F := Ideal) (iblk6 V c 0 t) (iblk6 V c 1 t) y
    = Cert.Spec.mm (V c main_v68) (V c main_arg5) (((cfg6.win 2).blk t).view.emb y)
  have hy0 : (y 0).val < 1 := (y 0).isLt
  refine product_block_entry (iblk6 V c 0 t) (iblk6 V c 1 t) (V c main_v68) (V c main_arg5) y
    (((cfg6.win 2).blk t).view.emb y) (fun cc => ?_) (fun cc => ?_)
  · show V c main_v68 (((cfg6.win 0).blk t).view.emb (ix3 (0 : Fin 1) (y 1) cc)) = V c main_v68 _
    refine congrArg (V c main_v68) (funext fun a => Fin.ext ?_)
    match a with
    | ⟨0, _⟩ => show win6_0.index t (0 : Fin 3) * 1 + 1 * 0 = win6_2.index t (0 : Fin 3) * 1 + 1 * (y 0).val; omega
    | ⟨1, _⟩ => show win6_0.index t (1 : Fin 3) * 10000 + 1 * (y 1).val = win6_2.index t (1 : Fin 3) * 10000 + 1 * (y 1).val; omega
    | ⟨2, _⟩ => show win6_0.index t (2 : Fin 3) * 64 + 1 * cc.val = cc.val; omega
  · show V c main_arg5 (((cfg6.win 1).blk t).view.emb (ix3 (0 : Fin 1) cc (y 2))) = V c main_arg5 _
    refine congrArg (V c main_arg5) (funext fun a => Fin.ext ?_)
    match a with
    | ⟨0, _⟩ => show win6_1.index t (0 : Fin 3) * 1 + 1 * 0 = win6_2.index t (0 : Fin 3) * 1 + 1 * (y 0).val; omega
    | ⟨1, _⟩ => show win6_1.index t (1 : Fin 3) * 64 + 1 * cc.val = cc.val; omega
    | ⟨2, _⟩ => show win6_1.index t (2 : Fin 3) * 64 + 1 * (y 2).val = win6_2.index t (2 : Fin 3) * 64 + 1 * (y 2).val; omega

/-! ## The blocks tile the output -/

/-- An entry of the output array is in point t's block iff each coordinate is in the block's range on its axis. -/
theorem mem_block (t : Fin cfg6.N) (i : S27x50000x64.Idx) :
    i ∈ ((cfg6.win 2).blk t).view.set ↔ ∀ a : Fin 3, win6_2.index t a * S1x10000x64.size a ≤ (i a).val
      ∧ (i a).val < win6_2.index t a * S1x10000x64.size a + S1x10000x64.size a := by
  show i ∈ ((View.whole main_v69).slice (win6_2.rect t)).set ↔ _
  rw [View.set_slice_whole, Rect.mem_set_unit]
  exact Iff.rfl

/-- Entry (k, e, d) lies in the block of point 5 k + e / 10000. -/
theorem covered (i : S27x50000x64.Idx) :
    ∃ t : Fin cfg6.N, (cfg6.win 2).flush t = true ∧ i ∈ ((cfg6.win 2).blk t).view.set := by
  have hi0 : (i 0).val < 27 := (i 0).isLt
  have hi1 : (i 1).val < 50000 := (i 1).isLt
  have hi2 : (i 2).val < 64 := (i 2).isLt
  have hN : grid6.N = 135 := N_6
  obtain ⟨t, ht⟩ : ∃ t : Fin cfg6.N, t.val = (i 0).val * 5 + (i 1).val / 10000 :=
    ⟨⟨(i 0).val * 5 + (i 1).val / 10000, by show _ < grid6.N; rw [hN]; omega⟩, rfl⟩
  obtain ⟨-, -, -, -, -, -, p0, p1, p2⟩ := block_positions t
  refine ⟨t, flush6_2 t, ?_⟩
  rw [mem_block]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 10000 ≤ (i 1).val ∧ (i 1).val < win6_2.index t (1 : Fin 3) * 10000 + 10000; omega
  | ⟨2, _⟩ => show win6_2.index t (2 : Fin 3) * 64 ≤ (i 2).val ∧ (i 2).val < win6_2.index t (2 : Fin 3) * 64 + 64; omega

/-! ## The output array after the last point -/

/-- THE OUTPUT ARRAY after all 135 points is the entrywise product of the two input arrays as the kernel finds them. -/
theorem final (c : Dev nD) :
    (dat6 (F := Ideal) V c).arrAt 2 cfg6.N = Cert.Spec.mm (V c main_v68) (V c main_arg5) :=
  (dat6 (F := Ideal) V c).arrAt_eq_of_cover 2 (Cert.Spec.mm (V c main_v68) (V c main_arg5))
    (fun t _ => point_writes_product_block V c t) covered

end Cert.KernelIdeal.MatmulRegion6

end
-- ==== Proof.StatsPayload.lean ====
/-
  The arithmetic of one grid point of the column-statistics kernels, read entry by entry over the extended reals.

  A block is 10000 rows of 64 channels.  Summing a block over its rows leaves one number per channel; re-laid as a
  1 x 64 row and added to a running 1 x 64 row it gives, in channel d, the running value plus the sum over the
  block's 10000 rows of the block's entry (r, d).  The second statistic is the same with every entry squared first.
  The zero the first grid point starts from is the real number zero.
-/
import proofs.«110267_j20564303414103_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StatsPayload

open Idealize.ShloMosaic Idealize.ShloMosaic.ValueIdx
open Cert.KernelIdeal Cert.KernelIdeal.Facts₀

/-- The sum of a block over its rows, in channel d, is the sum over the 10000 rows of entry (r, d). -/
theorem rows_sum (x : FVec Ideal S10000x64 .f32) (hφ : FKind.Formats .f32)
    (hacc : (0x00000000#32 : BitVec 32) = FKind.add.neutral .f32 hφ) (d : Fin 64) :
    multiReduction (F := Ideal) .add [0] S64 x 0x00000000#32 reduces_S10000x64_S64 hφ hacc (ix1 d)
      = ∑ r : Fin 10000, x (ix2 r d) := by
  refine (Ideal.multiReduction_add_single x 0x00000000#32 reduces_S10000x64_S64 hφ hacc (ix1 d)).trans ?_
  refine Finset.sum_congr rfl fun r _ => congrArg x ?_
  funext a
  match a with
  | ⟨0, _⟩ => rfl
  | ⟨1, _⟩ => rfl

/-- One point's update of the first statistic: the running row plus the block's column sums. -/
theorem add_rows_sum (x : FVec Ideal S10000x64 .f32) (acc : FVec Ideal S1x64 .f32) (hφ : FKind.Formats .f32)
    (hacc : (0x00000000#32 : BitVec 32) = FKind.add.neutral .f32 hφ) (u : Fin 1) (d : Fin 64) :
    addf (shapeCast S1x64 acc shapeCasts_S1x64_S1x64)
        (shapeCast S1x64
          (multiReduction (F := Ideal) .add [0] S64 (shapeCast S10000x64 x shapeCasts_S10000x64_S10000x64) 0x00000000#32
            reduces_S10000x64_S64 hφ hacc)
          shapeCasts_S64_S1x64) (ix2 u d)
      = acc (ix2 u d) + ∑ r : Fin 10000, x (ix2 r d) := by
  rw [addf_apply, shapeCast_self, shapeCast_self, shapeCast_a_1a_apply, rows_sum]

/-- One point's update of the second statistic: the running row plus the block's column sums of squares. -/
theorem add_rows_sumsq (x : FVec Ideal S10000x64 .f32) (acc : FVec Ideal S1x64 .f32) (hφ : FKind.Formats .f32)
    (hacc : (0x00000000#32 : BitVec 32) = FKind.add.neutral .f32 hφ) (u : Fin 1) (d : Fin 64) :
    addf (shapeCast S1x64 acc shapeCasts_S1x64_S1x64)
        (shapeCast S1x64
          (multiReduction (F := Ideal) .add [0] S64
            (mulf (shapeCast S10000x64 x shapeCasts_S10000x64_S10000x64) (shapeCast S10000x64 x shapeCasts_S10000x64_S10000x64))
            0x00000000#32 reduces_S10000x64_S64 hφ hacc)
          shapeCasts_S64_S1x64) (ix2 u d)
      = acc (ix2 u d) + ∑ r : Fin 10000, x (ix2 r d) * x (ix2 r d) := by
  rw [addf_apply, shapeCast_self, shapeCast_self, shapeCast_a_1a_apply, rows_sum]
  rfl

/-- The row of zeros the first grid point stores is zero in every entry. -/
theorem zero_row (j : S1x64.Idx) :
    (broadcast S1x64 (Scalar.ofBits (F := Ideal) .f32 0x00000000#32) : FVec Ideal S1x64 .f32) j = 0 := by
  show Ideal.ofBits .f32 0x00000000#32 = 0
  exact Ideal.ofBits_zero_f32

end Cert.KernelIdeal.StatsPayload

end
-- ==== Proof.LibBlockRanges.lean ====
/-
  Sums over consecutive rows, block after block.

  A column of N numbers is extended by zero to all natural numbers, so that partial sums can be written over
  ranges of naturals without carrying bounds.  Adding the b numbers of block t to the sum of everything below
  b * t gives the sum of everything below b * (t + 1); the sum below N is the sum of the whole column.  Nothing
  here is about real numbers: any commutative additive monoid will do.
-/
import Mathlib.Algebra.BigOperators.Fin
import Mathlib.Algebra.BigOperators.Intervals

namespace Cert.StatsSum

open Finset

variable {M : Type*} [AddCommMonoid M]

/-- A column of N entries, continued by zeros. -/
def byZero (N : ℕ) (f : Fin N → M) : ℕ → M := fun n => if h : n < N then f ⟨n, h⟩ else 0

theorem byZero_of_lt (N : ℕ) (f : Fin N → M) (n : ℕ) (h : n < N) : byZero N f n = f ⟨n, h⟩ := dif_pos h

/-- Summing the continued column below N is summing the column. -/
theorem sum_range_byZero (N : ℕ) (f : Fin N → M) : ∑ n ∈ range N, byZero N f n = ∑ n : Fin N, f n := by
  rw [Finset.sum_range]
  exact Finset.sum_congr rfl fun n _ => byZero_of_lt N f n.val n.isLt

/-- The sum below b * (t + 1) is the sum below b * t plus the b entries of block t. -/
theorem sum_range_next_block (g : ℕ → M) (b t : ℕ) :
    ∑ n ∈ range (b * (t + 1)), g n = ∑ n ∈ range (b * t), g n + ∑ r : Fin b, g (b * t + r.val) := by
  rw [Nat.mul_succ, Finset.sum_range_add]
  exact congrArg (∑ n ∈ range (b * t), g n + ·) (Finset.sum_range fun r => g (b * t + r))

/-- The first block alone: the sum below b * 1 is the sum of the b entries of block 0. -/
theorem sum_range_first_block (g : ℕ → M) (b : ℕ) :
    ∑ n ∈ range (b * (0 + 1)), g n = ∑ r : Fin b, g (b * 0 + r.val) := by
  rw [sum_range_next_block, Nat.mul_zero, Finset.range_zero, Finset.sum_empty, zero_add]

end Cert.StatsSum
-- ==== Proof.StatsRegion1.lean ====
/-
  The column statistics accumulated over the grid: what the two 1 x 64 result arrays hold after the ten grid points.

  The features are 100000 rows of 64 channels, read ten thousand rows at a time: grid point t reads rows
  10000 t … 10000 t + 9999.  Both outputs are one 1 x 64 row that stays in place from point to point and is
  written back once, after the last point.  At point 0 the rows are first set to zero; at every point the
  block's column sums are added to the first row and its column sums of squares to the second.  Hence after
  point t the first row holds, in channel d, the sum of entry (n, d) over all rows n below 10000 (t + 1), and the
  second row the sum of their squares — by induction on the point, each step appending one block of rows to the
  range summed over.  After point 9 the range is all 100000 rows, so the arrays written back are the column
  sums and the column sums of squares of the features the region was entered with.
-/
import proofs.«110267_j20564303414103_1_alg».proof.Proof.Spec
import proofs.«110267_j20564303414103_1_alg».proof.Proof.Gen.KernelIdeal.Frame
import proofs.«110267_j20564303414103_1_alg».proof.Proof.StatsPayload
import proofs.«110267_j20564303414103_1_alg».proof.Proof.LibBlockRanges
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsRegion1

open Cert.KernelIdeal Cert.KernelIdeal.Gen

section Pieces
variable {F : FTy → Type} [FloatOps F]

theorem hz : (![0, 0] : Fin 2 → Nat) = fun _ => 0 := funext fun a => by fin_cases a <;> rfl

/-- Away from the first grid point the body adds the block's column sums onto what the first output already holds:
    its one store covers the whole 1 x 64 buffer, and its loads read the whole buffers. -/
theorem out_B_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S10000x64) hz,
    View.ld_unit_zero (S := S1x64) hz]

/-- Likewise the second output: the block's column sums of squares added onto what it holds. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S10000x64) hz,
    View.ld_unit_zero (S := S1x64) hz]

/-- At the first grid point the body first stores zeros, reads them back, and adds the block's column sums. -/
theorem out_A_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

/-- Likewise the second output at the first grid point: zeros, then the block's column sums of squares. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

/-! ## One grid point's arithmetic, entry by entry -/

/-- The first output after a point: what it held plus the block's column sums. -/
theorem pay4_apply (x : FVec Ideal S10000x64 .f32) (acc : FVec Ideal S1x64 .f32) (u : Fin 1) (d : Fin 64) :
    k1_pay4 (F := Ideal) x acc (ix2 u d) = acc (ix2 u d) + ∑ r : Fin 10000, x (ix2 r d) :=
  StatsPayload.add_rows_sum x acc (.inl rfl) rfl u d

/-- The second output after a point: what it held plus the block's column sums of squares. -/
theorem pay5_apply (x : FVec Ideal S10000x64 .f32) (acc : FVec Ideal S1x64 .f32) (u : Fin 1) (d : Fin 64) :
    k1_pay5 (F := Ideal) x acc (ix2 u d) = acc (ix2 u d) + ∑ r : Fin 10000, x (ix2 r d) * x (ix2 r d) :=
  StatsPayload.add_rows_sumsq x acc (.inl rfl) rfl u d

/-- The zeros stored at the first point. -/
theorem pay1_apply (j : S1x64.Idx) : k1_pay1 (F := Ideal) j = 0 := StatsPayload.zero_row j
theorem pay2_apply (j : S1x64.Idx) : k1_pay2 (F := Ideal) j = 0 := StatsPayload.zero_row j

/-! ## The block a grid point reads -/

/-- Point t's block of the features is rows 10000 t … 10000 t + 9999, all 64 channels. -/
theorem index_facts : ∀ t : Fin cfg1.N, win1_0.index t 0 = t.val ∧ win1_0.index t 1 = 0 :=
  (by decide +kernel : ∀ t : Fin grid1.N, win1_0.index t 0 = t.val ∧ win1_0.index t 1 = 0)

theorem iblk_apply (V : (c : Dev nD) → (b : Ref sig .tc) → Buf (Elt Ideal) ((c : Thread nD τ).loc b)) (c : Dev nD)
    (t : Fin cfg1.N) (r : Fin 10000) (d : Fin 64) (hlt : 10000 * t.val + r.val < 100000) :
    (iblk1 (F := Ideal) V c 0 t : FVec Ideal S10000x64 .f32) (ix2 r d)
      = (V c main_v17 : FVec Ideal S100000x64 .f32) (ix2 ⟨10000 * t.val + r.val, hlt⟩ d) := by
  have hi := index_facts t
  unfold iblk1
  rw [View.read_apply]
  show V c main_v17 _ = V c main_v17 _
  refine congrArg (V c main_v17) (funext fun a => Fin.ext ?_)
  match a with
  | ⟨0, _⟩ => show win1_0.index t 0 * 10000 + 1 * r.val = 10000 * t.val + r.val; rw [hi.1]; omega
  | ⟨1, _⟩ => show win1_0.index t 1 * 64 + 1 * d.val = d.val; rw [hi.2]; omega

end Pieces

/-! ## The running totals, point by point -/

section Totals

variable (V : (c : Dev nD) → (b : Ref sig .tc) → Buf (Elt Ideal) ((c : Thread nD τ).loc b))

/-- The features the region is entered with, and the block of them that grid point t reads. -/
abbrev feat (c : Dev nD) : FVec Ideal S100000x64 .f32 := V c main_v17
abbrev blk (c : Dev nD) (t : Fin cfg1.N) : FVec Ideal S10000x64 .f32 := iblk1 (F := Ideal) V c 0 t

/-- Channel d of the features, row by row, continued by zeros; and its squares. -/
abbrev col (c : Dev nD) (d : Fin 64) : ℕ → EReal :=
  StatsSum.byZero 100000 fun n => feat V c (ix2 n d)
abbrev colsq (c : Dev nD) (d : Fin 64) : ℕ → EReal :=
  StatsSum.byZero 100000 fun n => feat V c (ix2 n d) * feat V c (ix2 n d)

/-- The rows of point t's block are rows 10000 t + r of the features. -/
theorem block_sum (c : Dev nD) (t : Fin cfg1.N) (d : Fin 64) :
    ∑ r : Fin 10000, blk V c t (ix2 r d)
      = ∑ r : Fin 10000, col V c d (10000 * t.val + r.val) := by
  have hN : t.val < 10 := lt_of_lt_of_eq t.isLt (show cfg1.N = 10 from N_1)
  refine Finset.sum_congr rfl fun r _ => ?_
  have hlt : 10000 * t.val + r.val < 100000 := by have := r.isLt; omega
  exact (iblk_apply V c t r d hlt).trans (StatsSum.byZero_of_lt 100000 (fun n => feat V c (ix2 n d)) _ hlt).symm

theorem block_sumsq (c : Dev nD) (t : Fin cfg1.N) (d : Fin 64) :
    ∑ r : Fin 10000, blk V c t (ix2 r d)
        * blk V c t (ix2 r d)
      = ∑ r : Fin 10000, colsq V c d (10000 * t.val + r.val) := by
  have hN : t.val < 10 := lt_of_lt_of_eq t.isLt (show cfg1.N = 10 from N_1)
  refine Finset.sum_congr rfl fun r _ => ?_
  have hlt : 10000 * t.val + r.val < 100000 := by have := r.isLt; omega
  rw [show blk V c t (ix2 r d) = feat V c (ix2 ⟨10000 * t.val + r.val, hlt⟩ d) from iblk_apply V c t r d hlt]
  exact (StatsSum.byZero_of_lt 100000 (fun n => feat V c (ix2 n d) * feat V c (ix2 n d)) _ hlt).symm

/-- At the first point the first output is left holding the first block's column sums. -/
theorem fst_first (c : Dev nD) (t : Fin cfg1.N) (h0 : t.val % 10 = 0) (u : Fin 1) (d : Fin 64) :
    (outsAt1 (F := Ideal) V c t.val t.isLt).1 (ix2 u d) = ∑ r : Fin 10000, col V c d (10000 * t.val + r.val) := by
  rw [outsAt1_A V c t h0]
  dsimp only
  rw [out_A_1 (F := Ideal) c (grid1.coords t) (ms1_0 t) (hs1_0 t) (ms1_1 t) (hs1_1 t) (ms1_2 t) (hs1_2 t)
      ((hcond1_0 t).mpr h0) (iblk1 V c 0 t),
    pay4_apply (blk V c t) k1_pay1 u d, pay1_apply, zero_add, block_sum]

/-- At every later point the first output gains that point's block's column sums. -/
theorem fst_next (c : Dev nD) (t : Fin cfg1.N) (h0 : ¬t.val % 10 = 0) (u : Fin 1) (d : Fin 64) :
    (outsAt1 (F := Ideal) V c t.val t.isLt).1 (ix2 u d)
      = (outsAt1 (F := Ideal) V c (t.val - 1) (Nat.lt_of_le_of_lt (Nat.sub_le _ _) t.isLt)).1 (ix2 u d)
        + ∑ r : Fin 10000, col V c d (10000 * t.val + r.val) := by
  rw [outsAt1_B V c t h0]
  dsimp only
  rw [out_B_1 (F := Ideal) c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2,
    pay4_apply (blk V c t) (outsAt1 V c (t.val - 1) (Nat.lt_of_le_of_lt (Nat.sub_le _ _) t.isLt)).1 u d, block_sum]

theorem snd_first (c : Dev nD) (t : Fin cfg1.N) (h0 : t.val % 10 = 0) (u : Fin 1) (d : Fin 64) :
    (outsAt1 (F := Ideal) V c t.val t.isLt).2 (ix2 u d) = ∑ r : Fin 10000, colsq V c d (10000 * t.val + r.val) := by
  rw [outsAt1_A V c t h0]
  dsimp only
  rw [out_A_2 (F := Ideal) c (grid1.coords t) (ms1_0 t) (hs1_0 t) (ms1_1 t) (hs1_1 t) (ms1_2 t) (hs1_2 t)
      ((hcond1_0 t).mpr h0) (iblk1 V c 0 t),
    pay5_apply (blk V c t) k1_pay2 u d, pay2_apply, zero_add, block_sumsq]

theorem snd_next (c : Dev nD) (t : Fin cfg1.N) (h0 : ¬t.val % 10 = 0) (u : Fin 1) (d : Fin 64) :
    (outsAt1 (F := Ideal) V c t.val t.isLt).2 (ix2 u d)
      = (outsAt1 (F := Ideal) V c (t.val - 1) (Nat.lt_of_le_of_lt (Nat.sub_le _ _) t.isLt)).2 (ix2 u d)
        + ∑ r : Fin 10000, colsq V c d (10000 * t.val + r.val) := by
  rw [outsAt1_B V c t h0]
  dsimp only
  rw [out_B_2 (F := Ideal) c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2,
    pay5_apply (blk V c t) (outsAt1 V c (t.val - 1) (Nat.lt_of_le_of_lt (Nat.sub_le _ _) t.isLt)).2 u d, block_sumsq]

/-- THE INVARIANT: after point n the first output holds, in every channel, the sum over all rows below
    10000 (n + 1) — by induction on the point, each step adding one block. -/
theorem outsAt_fst (c : Dev nD) : ∀ (n : ℕ) (h : n < cfg1.N) (u : Fin 1) (d : Fin 64),
    (outsAt1 (F := Ideal) V c n h).1 (ix2 u d) = ∑ k ∈ Finset.range (10000 * (n + 1)), col V c d k
  | 0, h, u, d => by
    rw [StatsSum.sum_range_first_block]
    exact fst_first V c ⟨0, h⟩ rfl u d
  | n + 1, h, u, d => by
    have hN : cfg1.N = 10 := N_1
    have hB : ¬(n + 1) % 10 = 0 := by omega
    rw [StatsSum.sum_range_next_block, ← outsAt_fst c n (Nat.lt_of_succ_lt h) u d]
    exact fst_next V c ⟨n + 1, h⟩ hB u d

/-- Likewise the second output and the squares. -/
theorem outsAt_snd (c : Dev nD) : ∀ (n : ℕ) (h : n < cfg1.N) (u : Fin 1) (d : Fin 64),
    (outsAt1 (F := Ideal) V c n h).2 (ix2 u d) = ∑ k ∈ Finset.range (10000 * (n + 1)), colsq V c d k
  | 0, h, u, d => by
    rw [StatsSum.sum_range_first_block]
    exact snd_first V c ⟨0, h⟩ rfl u d
  | n + 1, h, u, d => by
    have hN : cfg1.N = 10 := N_1
    have hB : ¬(n + 1) % 10 = 0 := by omega
    rw [StatsSum.sum_range_next_block, ← outsAt_snd c n (Nat.lt_of_succ_lt h) u d]
    exact snd_next V c ⟨n + 1, h⟩ hB u d

/-- After the last point, 9, the rows below 100000 are all the rows: the outputs hold the whole column sums. -/
theorem last_fst (c : Dev nD) (h9 : 9 < cfg1.N) :
    (outsAt1 (F := Ideal) V c 9 h9).1 = Cert.Spec.colsum (V c main_v17) := by
  funext j
  obtain ⟨u, d, rfl⟩ : ∃ (u : Fin 1) (d : Fin 64), j = ix2 u d := ⟨j 0, j 1, eq_ix2 j⟩
  rw [outsAt_fst V c 9 h9 u d]
  exact StatsSum.sum_range_byZero 100000 _

theorem last_snd (c : Dev nD) (h9 : 9 < cfg1.N) :
    (outsAt1 (F := Ideal) V c 9 h9).2 = Cert.Spec.colsumsq (V c main_v17) := by
  funext j
  obtain ⟨u, d, rfl⟩ : ∃ (u : Fin 1) (d : Fin 64), j = ix2 u d := ⟨j 0, j 1, eq_ix2 j⟩
  rw [outsAt_snd V c 9 h9 u d]
  exact StatsSum.sum_range_byZero 100000 _

/-! ## From the last point's buffers to the result arrays -/

/-- Both outputs' one block sits at the origin of its 1 x 64 array at every point. -/
theorem origin_1 : ∀ (t : Fin cfg1.N) (a : Fin 2), win1_1.index t a * main_v18_0.ty.shape.size a = 0 :=
  (by decide +kernel : ∀ (t : Fin grid1.N) (a : Fin 2), win1_1.index t a * main_v18_0.ty.shape.size a = 0)
theorem origin_2 : ∀ (t : Fin cfg1.N) (a : Fin 2), win1_2.index t a * main_v18_1.ty.shape.size a = 0 :=
  (by decide +kernel : ∀ (t : Fin grid1.N) (a : Fin 2), win1_2.index t a * main_v18_1.ty.shape.size a = 0)

/-- The one write-back, after point 9, writes the whole column sums: the block is the whole array. -/
theorem flushed_fst (c : Dev nD) (t : Fin cfg1.N) (hf : (cfg1.win 1).flush t = true) :
    (dat1 (F := Ideal) V c).flushed 1 t
      = ((cfg1.win 1).blk t).view.read (Elt Ideal) (Cert.Spec.colsum (V c main_v17)) := by
  have hN : cfg1.N = 10 := N_1
  have h9 : t.val = 9 := by have := (flush1_1 t).mp hf; have := t.isLt; omega
  obtain ⟨n, hn⟩ := t
  obtain rfl : n = 9 := h9
  show (cfg1.win 1).cut (grid1.coords ⟨9, hn⟩) ((dat1 V c).after 1 ⟨9, hn⟩) = _
  rw [after1_1]
  show (cfg1.win 1).cut (grid1.coords ⟨9, hn⟩) (outsAt1 V c 9 hn).1 = _
  rw [last_fst V c hn]
  have hz' : (fun a => win1_1.index ⟨9, hn⟩ a * main_v18_0.ty.shape.size a) = fun _ => 0 :=
    funext fun a => origin_1 ⟨9, hn⟩ a
  exact (Memref.read_access_unit_zero (Elt Ideal) main_v18_0 hz' (fun a => by rw [congrFun hz' a]; simp)
    (Cert.Spec.colsum (V c main_v17))).symm

theorem flushed_snd (c : Dev nD) (t : Fin cfg1.N) (hf : (cfg1.win 2).flush t = true) :
    (dat1 (F := Ideal) V c).flushed 2 t
      = ((cfg1.win 2).blk t).view.read (Elt Ideal) (Cert.Spec.colsumsq (V c main_v17)) := by
  have hN : cfg1.N = 10 := N_1
  have h9 : t.val = 9 := by have := (flush1_2 t).mp hf; have := t.isLt; omega
  obtain ⟨n, hn⟩ := t
  obtain rfl : n = 9 := h9
  show (cfg1.win 2).cut (grid1.coords ⟨9, hn⟩) ((dat1 V c).after 2 ⟨9, hn⟩) = _
  rw [after1_2]
  show (cfg1.win 2).cut (grid1.coords ⟨9, hn⟩) (outsAt1 V c 9 hn).2 = _
  rw [last_snd V c hn]
  have hz' : (fun a => win1_2.index ⟨9, hn⟩ a * main_v18_1.ty.shape.size a) = fun _ => 0 :=
    funext fun a => origin_2 ⟨9, hn⟩ a
  exact (Memref.read_access_unit_zero (Elt Ideal) main_v18_1 hz' (fun a => by rw [congrFun hz' a]; simp)
    (Cert.Spec.colsumsq (V c main_v17))).symm

/-- THE RESULT: the first result array ends holding the column sums of the features the region was entered with. -/
theorem final_sum (c : Dev nD) :
    (dat1 (F := Ideal) V c).arrAt 1 cfg1.N = Cert.Spec.colsum (V c main_v17) :=
  (dat1 (F := Ideal) V c).arrAt_eq_of_cover 1 (Cert.Spec.colsum (V c main_v17)) (flushed_fst V c) fun i =>
    ⟨t1_9, (flush1_1 t1_9).mpr rfl, by
      show i ∈ ((View.whole main_v18_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_9 0 * win1_1.size 0 ≤ (i 0 : Nat)
          ∧ (i 0 : Nat) < win1_1.index t1_9 0 * win1_1.size 0 + win1_1.xsize (grid1.coords t1_9) 0
        rw [show win1_1.index t1_9 0 * win1_1.size 0 = 0 from by decide +kernel,
          show win1_1.xsize (grid1.coords t1_9) 0 = 1 from by decide +kernel]
        omega
      | ⟨1, _⟩ =>
        show win1_1.index t1_9 1 * win1_1.size 1 ≤ (i 1 : Nat)
          ∧ (i 1 : Nat) < win1_1.index t1_9 1 * win1_1.size 1 + win1_1.xsize (grid1.coords t1_9) 1
        rw [show win1_1.index t1_9 1 * win1_1.size 1 = 0 from by decide +kernel,
          show win1_1.xsize (grid1.coords t1_9) 1 = 64 from by decide +kernel]
        omega⟩

/-- THE RESULT: the second result array ends holding the column sums of squares. -/
theorem final_sumsq (c : Dev nD) :
    (dat1 (F := Ideal) V c).arrAt 2 cfg1.N = Cert.Spec.colsumsq (V c main_v17) :=
  (dat1 (F := Ideal) V c).arrAt_eq_of_cover 2 (Cert.Spec.colsumsq (V c main_v17)) (flushed_snd V c) fun i =>
    ⟨t1_9, (flush1_2 t1_9).mpr rfl, by
      show i ∈ ((View.whole main_v18_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 1 from by decide +kernel]
        omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 64 from by decide +kernel]
        omega⟩

end Totals

end Cert.KernelIdeal.StatsRegion1

end
-- ==== Proof.StatsRegion4.lean ====
/-
  The column statistics accumulated over the grid: what the two 1 x 64 result arrays hold after the ten grid points.

  The features are 100000 rows of 64 channels, read ten thousand rows at a time: grid point t reads rows
  10000 t … 10000 t + 9999.  Both outputs are one 1 x 64 row that stays in place from point to point and is
  written back once, after the last point.  At point 0 the rows are first set to zero; at every point the
  block's column sums are added to the first row and its column sums of squares to the second.  Hence after
  point t the first row holds, in channel d, the sum of entry (n, d) over all rows n below 10000 (t + 1), and the
  second row the sum of their squares — by induction on the point, each step appending one block of rows to the
  range summed over.  After point 9 the range is all 100000 rows, so the arrays written back are the column
  sums and the column sums of squares of the features the region was entered with.
-/
import proofs.«110267_j20564303414103_1_alg».proof.Proof.Spec
import proofs.«110267_j20564303414103_1_alg».proof.Proof.Gen.KernelIdeal.Frame
import proofs.«110267_j20564303414103_1_alg».proof.Proof.StatsPayload
import proofs.«110267_j20564303414103_1_alg».proof.Proof.LibBlockRanges
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsRegion4

open Cert.KernelIdeal Cert.KernelIdeal.Gen

section Pieces
variable {F : FTy → Type} [FloatOps F]

theorem hz : (![0, 0] : Fin 2 → Nat) = fun _ => 0 := funext fun a => by fin_cases a <;> rfl

/-- Away from the first grid point the body adds the block's column sums onto what the first output already holds:
    its one store covers the whole 1 x 64 buffer, and its loads read the whole buffers. -/
theorem out_B_1 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S10000x64) hz,
    View.ld_unit_zero (S := S1x64) hz]

/-- Likewise the second output: the block's column sums of squares added onto what it holds. -/
theorem out_B_2 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S10000x64) hz,
    View.ld_unit_zero (S := S1x64) hz]

/-- At the first grid point the body first stores zeros, reads them back, and adds the block's column sums. -/
theorem out_A_1 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S10000x64) hz]

/-- Likewise the second output at the first grid point: zeros, then the block's column sums of squares. -/
theorem out_A_2 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S10000x64) hz]

/-! ## One grid point's arithmetic, entry by entry -/

/-- The first output after a point: what it held plus the block's column sums. -/
theorem pay4_apply (x : FVec Ideal S10000x64 .f32) (acc : FVec Ideal S1x64 .f32) (u : Fin 1) (d : Fin 64) :
    k4_pay4 (F := Ideal) x acc (ix2 u d) = acc (ix2 u d) + ∑ r : Fin 10000, x (ix2 r d) :=
  StatsPayload.add_rows_sum x acc (.inl rfl) rfl u d

/-- The second output after a point: what it held plus the block's column sums of squares. -/
theorem pay5_apply (x : FVec Ideal S10000x64 .f32) (acc : FVec Ideal S1x64 .f32) (u : Fin 1) (d : Fin 64) :
    k4_pay5 (F := Ideal) x acc (ix2 u d) = acc (ix2 u d) + ∑ r : Fin 10000, x (ix2 r d) * x (ix2 r d) :=
  StatsPayload.add_rows_sumsq x acc (.inl rfl) rfl u d

/-- The zeros stored at the first point. -/
theorem pay1_apply (j : S1x64.Idx) : k4_pay1 (F := Ideal) j = 0 := StatsPayload.zero_row j
theorem pay2_apply (j : S1x64.Idx) : k4_pay2 (F := Ideal) j = 0 := StatsPayload.zero_row j

/-! ## The block a grid point reads -/

/-- Point t's block of the features is rows 10000 t … 10000 t + 9999, all 64 channels. -/
theorem index_facts : ∀ t : Fin cfg4.N, win4_0.index t 0 = t.val ∧ win4_0.index t 1 = 0 :=
  (by decide +kernel : ∀ t : Fin grid4.N, win4_0.index t 0 = t.val ∧ win4_0.index t 1 = 0)

theorem iblk_apply (V : (c : Dev nD) → (b : Ref sig .tc) → Buf (Elt Ideal) ((c : Thread nD τ).loc b)) (c : Dev nD)
    (t : Fin cfg4.N) (r : Fin 10000) (d : Fin 64) (hlt : 10000 * t.val + r.val < 100000) :
    (iblk4 (F := Ideal) V c 0 t : FVec Ideal S10000x64 .f32) (ix2 r d)
      = (V c main_v48 : FVec Ideal S100000x64 .f32) (ix2 ⟨10000 * t.val + r.val, hlt⟩ d) := by
  have hi := index_facts t
  unfold iblk4
  rw [View.read_apply]
  show V c main_v48 _ = V c main_v48 _
  refine congrArg (V c main_v48) (funext fun a => Fin.ext ?_)
  match a with
  | ⟨0, _⟩ => show win4_0.index t 0 * 10000 + 1 * r.val = 10000 * t.val + r.val; rw [hi.1]; omega
  | ⟨1, _⟩ => show win4_0.index t 1 * 64 + 1 * d.val = d.val; rw [hi.2]; omega

end Pieces

/-! ## The running totals, point by point -/

section Totals

variable (V : (c : Dev nD) → (b : Ref sig .tc) → Buf (Elt Ideal) ((c : Thread nD τ).loc b))

/-- The features the region is entered with, and the block of them that grid point t reads. -/
abbrev feat (c : Dev nD) : FVec Ideal S100000x64 .f32 := V c main_v48
abbrev blk (c : Dev nD) (t : Fin cfg4.N) : FVec Ideal S10000x64 .f32 := iblk4 (F := Ideal) V c 0 t

/-- Channel d of the features, row by row, continued by zeros; and its squares. -/
abbrev col (c : Dev nD) (d : Fin 64) : ℕ → EReal :=
  StatsSum.byZero 100000 fun n => feat V c (ix2 n d)
abbrev colsq (c : Dev nD) (d : Fin 64) : ℕ → EReal :=
  StatsSum.byZero 100000 fun n => feat V c (ix2 n d) * feat V c (ix2 n d)

/-- The rows of point t's block are rows 10000 t + r of the features. -/
theorem block_sum (c : Dev nD) (t : Fin cfg4.N) (d : Fin 64) :
    ∑ r : Fin 10000, blk V c t (ix2 r d)
      = ∑ r : Fin 10000, col V c d (10000 * t.val + r.val) := by
  have hN : t.val < 10 := lt_of_lt_of_eq t.isLt (show cfg4.N = 10 from N_4)
  refine Finset.sum_congr rfl fun r _ => ?_
  have hlt : 10000 * t.val + r.val < 100000 := by have := r.isLt; omega
  exact (iblk_apply V c t r d hlt).trans (StatsSum.byZero_of_lt 100000 (fun n => feat V c (ix2 n d)) _ hlt).symm

theorem block_sumsq (c : Dev nD) (t : Fin cfg4.N) (d : Fin 64) :
    ∑ r : Fin 10000, blk V c t (ix2 r d)
        * blk V c t (ix2 r d)
      = ∑ r : Fin 10000, colsq V c d (10000 * t.val + r.val) := by
  have hN : t.val < 10 := lt_of_lt_of_eq t.isLt (show cfg4.N = 10 from N_4)
  refine Finset.sum_congr rfl fun r _ => ?_
  have hlt : 10000 * t.val + r.val < 100000 := by have := r.isLt; omega
  rw [show blk V c t (ix2 r d) = feat V c (ix2 ⟨10000 * t.val + r.val, hlt⟩ d) from iblk_apply V c t r d hlt]
  exact (StatsSum.byZero_of_lt 100000 (fun n => feat V c (ix2 n d) * feat V c (ix2 n d)) _ hlt).symm

/-- At the first point the first output is left holding the first block's column sums. -/
theorem fst_first (c : Dev nD) (t : Fin cfg4.N) (h0 : t.val % 10 = 0) (u : Fin 1) (d : Fin 64) :
    (outsAt4 (F := Ideal) V c t.val t.isLt).1 (ix2 u d) = ∑ r : Fin 10000, col V c d (10000 * t.val + r.val) := by
  rw [outsAt4_A V c t h0]
  dsimp only
  rw [out_A_1 (F := Ideal) c (grid4.coords t) (ms4_0 t) (hs4_0 t) (ms4_1 t) (hs4_1 t) (ms4_2 t) (hs4_2 t)
      ((hcond4_0 t).mpr h0) (iblk4 V c 0 t),
    pay4_apply (blk V c t) k4_pay1 u d, pay1_apply, zero_add, block_sum]

/-- At every later point the first output gains that point's block's column sums. -/
theorem fst_next (c : Dev nD) (t : Fin cfg4.N) (h0 : ¬t.val % 10 = 0) (u : Fin 1) (d : Fin 64) :
    (outsAt4 (F := Ideal) V c t.val t.isLt).1 (ix2 u d)
      = (outsAt4 (F := Ideal) V c (t.val - 1) (Nat.lt_of_le_of_lt (Nat.sub_le _ _) t.isLt)).1 (ix2 u d)
        + ∑ r : Fin 10000, col V c d (10000 * t.val + r.val) := by
  rw [outsAt4_B V c t h0]
  dsimp only
  rw [out_B_1 (F := Ideal) c (grid4.coords t) (ms4_0 t) (hs4_0 t) (ms4_1 t) (hs4_1 t) (ms4_2 t) (hs4_2 t)
      (fun h => h0 ((hcond4_0 t).mp h)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2,
    pay4_apply (blk V c t) (outsAt4 V c (t.val - 1) (Nat.lt_of_le_of_lt (Nat.sub_le _ _) t.isLt)).1 u d, block_sum]

theorem snd_first (c : Dev nD) (t : Fin cfg4.N) (h0 : t.val % 10 = 0) (u : Fin 1) (d : Fin 64) :
    (outsAt4 (F := Ideal) V c t.val t.isLt).2 (ix2 u d) = ∑ r : Fin 10000, colsq V c d (10000 * t.val + r.val) := by
  rw [outsAt4_A V c t h0]
  dsimp only
  rw [out_A_2 (F := Ideal) c (grid4.coords t) (ms4_0 t) (hs4_0 t) (ms4_1 t) (hs4_1 t) (ms4_2 t) (hs4_2 t)
      ((hcond4_0 t).mpr h0) (iblk4 V c 0 t),
    pay5_apply (blk V c t) k4_pay2 u d, pay2_apply, zero_add, block_sumsq]

theorem snd_next (c : Dev nD) (t : Fin cfg4.N) (h0 : ¬t.val % 10 = 0) (u : Fin 1) (d : Fin 64) :
    (outsAt4 (F := Ideal) V c t.val t.isLt).2 (ix2 u d)
      = (outsAt4 (F := Ideal) V c (t.val - 1) (Nat.lt_of_le_of_lt (Nat.sub_le _ _) t.isLt)).2 (ix2 u d)
        + ∑ r : Fin 10000, colsq V c d (10000 * t.val + r.val) := by
  rw [outsAt4_B V c t h0]
  dsimp only
  rw [out_B_2 (F := Ideal) c (grid4.coords t) (ms4_0 t) (hs4_0 t) (ms4_1 t) (hs4_1 t) (ms4_2 t) (hs4_2 t)
      (fun h => h0 ((hcond4_0 t).mp h)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2,
    pay5_apply (blk V c t) (outsAt4 V c (t.val - 1) (Nat.lt_of_le_of_lt (Nat.sub_le _ _) t.isLt)).2 u d, block_sumsq]

/-- THE INVARIANT: after point n the first output holds, in every channel, the sum over all rows below
    10000 (n + 1) — by induction on the point, each step adding one block. -/
theorem outsAt_fst (c : Dev nD) : ∀ (n : ℕ) (h : n < cfg4.N) (u : Fin 1) (d : Fin 64),
    (outsAt4 (F := Ideal) V c n h).1 (ix2 u d) = ∑ k ∈ Finset.range (10000 * (n + 1)), col V c d k
  | 0, h, u, d => by
    rw [StatsSum.sum_range_first_block]
    exact fst_first V c ⟨0, h⟩ rfl u d
  | n + 1, h, u, d => by
    have hN : cfg4.N = 10 := N_4
    have hB : ¬(n + 1) % 10 = 0 := by omega
    rw [StatsSum.sum_range_next_block, ← outsAt_fst c n (Nat.lt_of_succ_lt h) u d]
    exact fst_next V c ⟨n + 1, h⟩ hB u d

/-- Likewise the second output and the squares. -/
theorem outsAt_snd (c : Dev nD) : ∀ (n : ℕ) (h : n < cfg4.N) (u : Fin 1) (d : Fin 64),
    (outsAt4 (F := Ideal) V c n h).2 (ix2 u d) = ∑ k ∈ Finset.range (10000 * (n + 1)), colsq V c d k
  | 0, h, u, d => by
    rw [StatsSum.sum_range_first_block]
    exact snd_first V c ⟨0, h⟩ rfl u d
  | n + 1, h, u, d => by
    have hN : cfg4.N = 10 := N_4
    have hB : ¬(n + 1) % 10 = 0 := by omega
    rw [StatsSum.sum_range_next_block, ← outsAt_snd c n (Nat.lt_of_succ_lt h) u d]
    exact snd_next V c ⟨n + 1, h⟩ hB u d

/-- After the last point, 9, the rows below 100000 are all the rows: the outputs hold the whole column sums. -/
theorem last_fst (c : Dev nD) (h9 : 9 < cfg4.N) :
    (outsAt4 (F := Ideal) V c 9 h9).1 = Cert.Spec.colsum (V c main_v48) := by
  funext j
  obtain ⟨u, d, rfl⟩ : ∃ (u : Fin 1) (d : Fin 64), j = ix2 u d := ⟨j 0, j 1, eq_ix2 j⟩
  rw [outsAt_fst V c 9 h9 u d]
  exact StatsSum.sum_range_byZero 100000 _

theorem last_snd (c : Dev nD) (h9 : 9 < cfg4.N) :
    (outsAt4 (F := Ideal) V c 9 h9).2 = Cert.Spec.colsumsq (V c main_v48) := by
  funext j
  obtain ⟨u, d, rfl⟩ : ∃ (u : Fin 1) (d : Fin 64), j = ix2 u d := ⟨j 0, j 1, eq_ix2 j⟩
  rw [outsAt_snd V c 9 h9 u d]
  exact StatsSum.sum_range_byZero 100000 _

/-! ## From the last point's buffers to the result arrays -/

/-- Both outputs' one block sits at the origin of its 1 x 64 array at every point. -/
theorem origin_1 : ∀ (t : Fin cfg4.N) (a : Fin 2), win4_1.index t a * main_v49_0.ty.shape.size a = 0 :=
  (by decide +kernel : ∀ (t : Fin grid4.N) (a : Fin 2), win4_1.index t a * main_v49_0.ty.shape.size a = 0)
theorem origin_2 : ∀ (t : Fin cfg4.N) (a : Fin 2), win4_2.index t a * main_v49_1.ty.shape.size a = 0 :=
  (by decide +kernel : ∀ (t : Fin grid4.N) (a : Fin 2), win4_2.index t a * main_v49_1.ty.shape.size a = 0)

/-- The one write-back, after point 9, writes the whole column sums: the block is the whole array. -/
theorem flushed_fst (c : Dev nD) (t : Fin cfg4.N) (hf : (cfg4.win 1).flush t = true) :
    (dat4 (F := Ideal) V c).flushed 1 t
      = ((cfg4.win 1).blk t).view.read (Elt Ideal) (Cert.Spec.colsum (V c main_v48)) := by
  have hN : cfg4.N = 10 := N_4
  have h9 : t.val = 9 := by have := (flush4_1 t).mp hf; have := t.isLt; omega
  obtain ⟨n, hn⟩ := t
  obtain rfl : n = 9 := h9
  show (cfg4.win 1).cut (grid4.coords ⟨9, hn⟩) ((dat4 V c).after 1 ⟨9, hn⟩) = _
  rw [after4_1]
  show (cfg4.win 1).cut (grid4.coords ⟨9, hn⟩) (outsAt4 V c 9 hn).1 = _
  rw [last_fst V c hn]
  have hz' : (fun a => win4_1.index ⟨9, hn⟩ a * main_v49_0.ty.shape.size a) = fun _ => 0 :=
    funext fun a => origin_1 ⟨9, hn⟩ a
  exact (Memref.read_access_unit_zero (Elt Ideal) main_v49_0 hz' (fun a => by rw [congrFun hz' a]; simp)
    (Cert.Spec.colsum (V c main_v48))).symm

theorem flushed_snd (c : Dev nD) (t : Fin cfg4.N) (hf : (cfg4.win 2).flush t = true) :
    (dat4 (F := Ideal) V c).flushed 2 t
      = ((cfg4.win 2).blk t).view.read (Elt Ideal) (Cert.Spec.colsumsq (V c main_v48)) := by
  have hN : cfg4.N = 10 := N_4
  have h9 : t.val = 9 := by have := (flush4_2 t).mp hf; have := t.isLt; omega
  obtain ⟨n, hn⟩ := t
  obtain rfl : n = 9 := h9
  show (cfg4.win 2).cut (grid4.coords ⟨9, hn⟩) ((dat4 V c).after 2 ⟨9, hn⟩) = _
  rw [after4_2]
  show (cfg4.win 2).cut (grid4.coords ⟨9, hn⟩) (outsAt4 V c 9 hn).2 = _
  rw [last_snd V c hn]
  have hz' : (fun a => win4_2.index ⟨9, hn⟩ a * main_v49_1.ty.shape.size a) = fun _ => 0 :=
    funext fun a => origin_2 ⟨9, hn⟩ a
  exact (Memref.read_access_unit_zero (Elt Ideal) main_v49_1 hz' (fun a => by rw [congrFun hz' a]; simp)
    (Cert.Spec.colsumsq (V c main_v48))).symm

/-- THE RESULT: the first result array ends holding the column sums of the features the region was entered with. -/
theorem final_sum (c : Dev nD) :
    (dat4 (F := Ideal) V c).arrAt 1 cfg4.N = Cert.Spec.colsum (V c main_v48) :=
  (dat4 (F := Ideal) V c).arrAt_eq_of_cover 1 (Cert.Spec.colsum (V c main_v48)) (flushed_fst V c) fun i =>
    ⟨t4_9, (flush4_1 t4_9).mpr rfl, by
      show i ∈ ((View.whole main_v49_0).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_1.index t4_9 0 * win4_1.size 0 ≤ (i 0 : Nat)
          ∧ (i 0 : Nat) < win4_1.index t4_9 0 * win4_1.size 0 + win4_1.xsize (grid4.coords t4_9) 0
        rw [show win4_1.index t4_9 0 * win4_1.size 0 = 0 from by decide +kernel,
          show win4_1.xsize (grid4.coords t4_9) 0 = 1 from by decide +kernel]
        omega
      | ⟨1, _⟩ =>
        show win4_1.index t4_9 1 * win4_1.size 1 ≤ (i 1 : Nat)
          ∧ (i 1 : Nat) < win4_1.index t4_9 1 * win4_1.size 1 + win4_1.xsize (grid4.coords t4_9) 1
        rw [show win4_1.index t4_9 1 * win4_1.size 1 = 0 from by decide +kernel,
          show win4_1.xsize (grid4.coords t4_9) 1 = 64 from by decide +kernel]
        omega⟩

/-- THE RESULT: the second result array ends holding the column sums of squares. -/
theorem final_sumsq (c : Dev nD) :
    (dat4 (F := Ideal) V c).arrAt 2 cfg4.N = Cert.Spec.colsumsq (V c main_v48) :=
  (dat4 (F := Ideal) V c).arrAt_eq_of_cover 2 (Cert.Spec.colsumsq (V c main_v48)) (flushed_snd V c) fun i =>
    ⟨t4_9, (flush4_2 t4_9).mpr rfl, by
      show i ∈ ((View.whole main_v49_1).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 1 from by decide +kernel]
        omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 64 from by decide +kernel]
        omega⟩

end Totals

end Cert.KernelIdeal.StatsRegion4

end
-- ==== Proof.StatsRegion7.lean ====
/-
  The column statistics accumulated over the grid: what the two 1 x 64 result arrays hold after the ten grid points.

  The features are 100000 rows of 64 channels, read ten thousand rows at a time: grid point t reads rows
  10000 t … 10000 t + 9999.  Both outputs are one 1 x 64 row that stays in place from point to point and is
  written back once, after the last point.  At point 0 the rows are first set to zero; at every point the
  block's column sums are added to the first row and its column sums of squares to the second.  Hence after
  point t the first row holds, in channel d, the sum of entry (n, d) over all rows n below 10000 (t + 1), and the
  second row the sum of their squares — by induction on the point, each step appending one block of rows to the
  range summed over.  After point 9 the range is all 100000 rows, so the arrays written back are the column
  sums and the column sums of squares of the features the region was entered with.
-/
import proofs.«110267_j20564303414103_1_alg».proof.Proof.Spec
import proofs.«110267_j20564303414103_1_alg».proof.Proof.Gen.KernelIdeal.Frame
import proofs.«110267_j20564303414103_1_alg».proof.Proof.StatsPayload
import proofs.«110267_j20564303414103_1_alg».proof.Proof.LibBlockRanges
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsRegion7

open Cert.KernelIdeal Cert.KernelIdeal.Gen

section Pieces
variable {F : FTy → Type} [FloatOps F]

theorem hz : (![0, 0] : Fin 2 → Nat) = fun _ => 0 := funext fun a => by fin_cases a <;> rfl

/-- Away from the first grid point the body adds the block's column sums onto what the first output already holds:
    its one store covers the whole 1 x 64 buffer, and its loads read the whole buffers. -/
theorem out_B_1 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  rw [View.canon_unit_zero hz]
  simp only [View.readAt_eq_ld, h1.read_unread, h2.read_unread, View.ld_unit_zero (S := S10000x64) hz,
    View.ld_unit_zero (S := S1x64) hz]

/-- Likewise the second output: the block's column sums of squares added onto what it holds. -/
theorem out_B_2 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  rw [View.canon_unit_zero hz]
  simp only [View.readAt_eq_ld, h1.read_unread, h3.read_unread, View.ld_unit_zero (S := S10000x64) hz,
    View.ld_unit_zero (S := S1x64) hz]

/-- At the first grid point the body first stores zeros, reads them back, and adds the block's column sums. -/
theorem out_A_1 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_1 c i a1 h1 a2 h2 a3 h3 hc x = k7_pay4 x k7_pay1 := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) hz, View.readCov_unit_zero (S := S1x64) _ hz]
  simp only [View.readAt_eq_ld, h1.read_unread, View.ld_unit_zero (S := S10000x64) hz]

/-- Likewise the second output at the first grid point: zeros, then the block's column sums of squares. -/
theorem out_A_2 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_2 c i a1 h1 a2 h2 a3 h3 hc x = k7_pay5 x k7_pay2 := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz, View.readCov_unit_zero (S := S1x64) _ hz]
  simp only [View.readAt_eq_ld, h1.read_unread, View.ld_unit_zero (S := S10000x64) hz]

/-! ## One grid point's arithmetic, entry by entry -/

/-- The first output after a point: what it held plus the block's column sums. -/
theorem pay4_apply (x : FVec Ideal S10000x64 .f32) (acc : FVec Ideal S1x64 .f32) (u : Fin 1) (d : Fin 64) :
    k7_pay4 (F := Ideal) x acc (ix2 u d) = acc (ix2 u d) + ∑ r : Fin 10000, x (ix2 r d) :=
  StatsPayload.add_rows_sum x acc (.inl rfl) rfl u d

/-- The second output after a point: what it held plus the block's column sums of squares. -/
theorem pay5_apply (x : FVec Ideal S10000x64 .f32) (acc : FVec Ideal S1x64 .f32) (u : Fin 1) (d : Fin 64) :
    k7_pay5 (F := Ideal) x acc (ix2 u d) = acc (ix2 u d) + ∑ r : Fin 10000, x (ix2 r d) * x (ix2 r d) :=
  StatsPayload.add_rows_sumsq x acc (.inl rfl) rfl u d

/-- The zeros stored at the first point. -/
theorem pay1_apply (j : S1x64.Idx) : k7_pay1 (F := Ideal) j = 0 := StatsPayload.zero_row j
theorem pay2_apply (j : S1x64.Idx) : k7_pay2 (F := Ideal) j = 0 := StatsPayload.zero_row j

/-! ## The block a grid point reads -/

/-- Point t's block of the features is rows 10000 t … 10000 t + 9999, all 64 channels. -/
theorem index_facts : ∀ t : Fin cfg7.N, win7_0.index t 0 = t.val ∧ win7_0.index t 1 = 0 :=
  (by decide +kernel : ∀ t : Fin grid7.N, win7_0.index t 0 = t.val ∧ win7_0.index t 1 = 0)

theorem iblk_apply (V : (c : Dev nD) → (b : Ref sig .tc) → Buf (Elt Ideal) ((c : Thread nD τ).loc b)) (c : Dev nD)
    (t : Fin cfg7.N) (r : Fin 10000) (d : Fin 64) (hlt : 10000 * t.val + r.val < 100000) :
    (iblk7 (F := Ideal) V c 0 t : FVec Ideal S10000x64 .f32) (ix2 r d)
      = (V c main_v79 : FVec Ideal S100000x64 .f32) (ix2 ⟨10000 * t.val + r.val, hlt⟩ d) := by
  have hi := index_facts t
  unfold iblk7
  rw [View.read_apply]
  show V c main_v79 _ = V c main_v79 _
  refine congrArg (V c main_v79) (funext fun a => Fin.ext ?_)
  match a with
  | ⟨0, _⟩ => show win7_0.index t 0 * 10000 + 1 * r.val = 10000 * t.val + r.val; rw [hi.1]; omega
  | ⟨1, _⟩ => show win7_0.index t 1 * 64 + 1 * d.val = d.val; rw [hi.2]; omega

end Pieces

/-! ## The running totals, point by point -/

section Totals

variable (V : (c : Dev nD) → (b : Ref sig .tc) → Buf (Elt Ideal) ((c : Thread nD τ).loc b))

/-- The features the region is entered with, and the block of them that grid point t reads. -/
abbrev feat (c : Dev nD) : FVec Ideal S100000x64 .f32 := V c main_v79
abbrev blk (c : Dev nD) (t : Fin cfg7.N) : FVec Ideal S10000x64 .f32 := iblk7 (F := Ideal) V c 0 t

/-- Channel d of the features, row by row, continued by zeros; and its squares. -/
abbrev col (c : Dev nD) (d : Fin 64) : ℕ → EReal :=
  StatsSum.byZero 100000 fun n => feat V c (ix2 n d)
abbrev colsq (c : Dev nD) (d : Fin 64) : ℕ → EReal :=
  StatsSum.byZero 100000 fun n => feat V c (ix2 n d) * feat V c (ix2 n d)

/-- The rows of point t's block are rows 10000 t + r of the features. -/
theorem block_sum (c : Dev nD) (t : Fin cfg7.N) (d : Fin 64) :
    ∑ r : Fin 10000, blk V c t (ix2 r d)
      = ∑ r : Fin 10000, col V c d (10000 * t.val + r.val) := by
  have hN : t.val < 10 := lt_of_lt_of_eq t.isLt (show cfg7.N = 10 from N_7)
  refine Finset.sum_congr rfl fun r _ => ?_
  have hlt : 10000 * t.val + r.val < 100000 := by have := r.isLt; omega
  exact (iblk_apply V c t r d hlt).trans (StatsSum.byZero_of_lt 100000 (fun n => feat V c (ix2 n d)) _ hlt).symm

theorem block_sumsq (c : Dev nD) (t : Fin cfg7.N) (d : Fin 64) :
    ∑ r : Fin 10000, blk V c t (ix2 r d)
        * blk V c t (ix2 r d)
      = ∑ r : Fin 10000, colsq V c d (10000 * t.val + r.val) := by
  have hN : t.val < 10 := lt_of_lt_of_eq t.isLt (show cfg7.N = 10 from N_7)
  refine Finset.sum_congr rfl fun r _ => ?_
  have hlt : 10000 * t.val + r.val < 100000 := by have := r.isLt; omega
  rw [show blk V c t (ix2 r d) = feat V c (ix2 ⟨10000 * t.val + r.val, hlt⟩ d) from iblk_apply V c t r d hlt]
  exact (StatsSum.byZero_of_lt 100000 (fun n => feat V c (ix2 n d) * feat V c (ix2 n d)) _ hlt).symm

/-- At the first point the first output is left holding the first block's column sums. -/
theorem fst_first (c : Dev nD) (t : Fin cfg7.N) (h0 : t.val % 10 = 0) (u : Fin 1) (d : Fin 64) :
    (outsAt7 (F := Ideal) V c t.val t.isLt).1 (ix2 u d) = ∑ r : Fin 10000, col V c d (10000 * t.val + r.val) := by
  rw [outsAt7_A V c t h0]
  dsimp only
  rw [out_A_1 (F := Ideal) c (grid7.coords t) (ms7_0 t) (hs7_0 t) (ms7_1 t) (hs7_1 t) (ms7_2 t) (hs7_2 t)
      ((hcond7_0 t).mpr h0) (iblk7 V c 0 t),
    pay4_apply (blk V c t) k7_pay1 u d, pay1_apply, zero_add, block_sum]

/-- At every later point the first output gains that point's block's column sums. -/
theorem fst_next (c : Dev nD) (t : Fin cfg7.N) (h0 : ¬t.val % 10 = 0) (u : Fin 1) (d : Fin 64) :
    (outsAt7 (F := Ideal) V c t.val t.isLt).1 (ix2 u d)
      = (outsAt7 (F := Ideal) V c (t.val - 1) (Nat.lt_of_le_of_lt (Nat.sub_le _ _) t.isLt)).1 (ix2 u d)
        + ∑ r : Fin 10000, col V c d (10000 * t.val + r.val) := by
  rw [outsAt7_B V c t h0]
  dsimp only
  rw [out_B_1 (F := Ideal) c (grid7.coords t) (ms7_0 t) (hs7_0 t) (ms7_1 t) (hs7_1 t) (ms7_2 t) (hs7_2 t)
      (fun h => h0 ((hcond7_0 t).mp h)) (iblk7 V c 0 t)
      (outsAt7 V c (t.val - 1) (Nat.lt_of_le_of_lt (Nat.sub_le _ _) t.isLt)).1
      (outsAt7 V c (t.val - 1) (Nat.lt_of_le_of_lt (Nat.sub_le _ _) t.isLt)).2,
    pay4_apply (blk V c t) (outsAt7 V c (t.val - 1) (Nat.lt_of_le_of_lt (Nat.sub_le _ _) t.isLt)).1 u d, block_sum]

theorem snd_first (c : Dev nD) (t : Fin cfg7.N) (h0 : t.val % 10 = 0) (u : Fin 1) (d : Fin 64) :
    (outsAt7 (F := Ideal) V c t.val t.isLt).2 (ix2 u d) = ∑ r : Fin 10000, colsq V c d (10000 * t.val + r.val) := by
  rw [outsAt7_A V c t h0]
  dsimp only
  rw [out_A_2 (F := Ideal) c (grid7.coords t) (ms7_0 t) (hs7_0 t) (ms7_1 t) (hs7_1 t) (ms7_2 t) (hs7_2 t)
      ((hcond7_0 t).mpr h0) (iblk7 V c 0 t),
    pay5_apply (blk V c t) k7_pay2 u d, pay2_apply, zero_add, block_sumsq]

theorem snd_next (c : Dev nD) (t : Fin cfg7.N) (h0 : ¬t.val % 10 = 0) (u : Fin 1) (d : Fin 64) :
    (outsAt7 (F := Ideal) V c t.val t.isLt).2 (ix2 u d)
      = (outsAt7 (F := Ideal) V c (t.val - 1) (Nat.lt_of_le_of_lt (Nat.sub_le _ _) t.isLt)).2 (ix2 u d)
        + ∑ r : Fin 10000, colsq V c d (10000 * t.val + r.val) := by
  rw [outsAt7_B V c t h0]
  dsimp only
  rw [out_B_2 (F := Ideal) c (grid7.coords t) (ms7_0 t) (hs7_0 t) (ms7_1 t) (hs7_1 t) (ms7_2 t) (hs7_2 t)
      (fun h => h0 ((hcond7_0 t).mp h)) (iblk7 V c 0 t)
      (outsAt7 V c (t.val - 1) (Nat.lt_of_le_of_lt (Nat.sub_le _ _) t.isLt)).1
      (outsAt7 V c (t.val - 1) (Nat.lt_of_le_of_lt (Nat.sub_le _ _) t.isLt)).2,
    pay5_apply (blk V c t) (outsAt7 V c (t.val - 1) (Nat.lt_of_le_of_lt (Nat.sub_le _ _) t.isLt)).2 u d, block_sumsq]

/-- THE INVARIANT: after point n the first output holds, in every channel, the sum over all rows below
    10000 (n + 1) — by induction on the point, each step adding one block. -/
theorem outsAt_fst (c : Dev nD) : ∀ (n : ℕ) (h : n < cfg7.N) (u : Fin 1) (d : Fin 64),
    (outsAt7 (F := Ideal) V c n h).1 (ix2 u d) = ∑ k ∈ Finset.range (10000 * (n + 1)), col V c d k
  | 0, h, u, d => by
    rw [StatsSum.sum_range_first_block]
    exact fst_first V c ⟨0, h⟩ rfl u d
  | n + 1, h, u, d => by
    have hN : cfg7.N = 10 := N_7
    have hB : ¬(n + 1) % 10 = 0 := by omega
    rw [StatsSum.sum_range_next_block, ← outsAt_fst c n (Nat.lt_of_succ_lt h) u d]
    exact fst_next V c ⟨n + 1, h⟩ hB u d

/-- Likewise the second output and the squares. -/
theorem outsAt_snd (c : Dev nD) : ∀ (n : ℕ) (h : n < cfg7.N) (u : Fin 1) (d : Fin 64),
    (outsAt7 (F := Ideal) V c n h).2 (ix2 u d) = ∑ k ∈ Finset.range (10000 * (n + 1)), colsq V c d k
  | 0, h, u, d => by
    rw [StatsSum.sum_range_first_block]
    exact snd_first V c ⟨0, h⟩ rfl u d
  | n + 1, h, u, d => by
    have hN : cfg7.N = 10 := N_7
    have hB : ¬(n + 1) % 10 = 0 := by omega
    rw [StatsSum.sum_range_next_block, ← outsAt_snd c n (Nat.lt_of_succ_lt h) u d]
    exact snd_next V c ⟨n + 1, h⟩ hB u d

/-- After the last point, 9, the rows below 100000 are all the rows: the outputs hold the whole column sums. -/
theorem last_fst (c : Dev nD) (h9 : 9 < cfg7.N) :
    (outsAt7 (F := Ideal) V c 9 h9).1 = Cert.Spec.colsum (V c main_v79) := by
  funext j
  obtain ⟨u, d, rfl⟩ : ∃ (u : Fin 1) (d : Fin 64), j = ix2 u d := ⟨j 0, j 1, eq_ix2 j⟩
  rw [outsAt_fst V c 9 h9 u d]
  exact StatsSum.sum_range_byZero 100000 _

theorem last_snd (c : Dev nD) (h9 : 9 < cfg7.N) :
    (outsAt7 (F := Ideal) V c 9 h9).2 = Cert.Spec.colsumsq (V c main_v79) := by
  funext j
  obtain ⟨u, d, rfl⟩ : ∃ (u : Fin 1) (d : Fin 64), j = ix2 u d := ⟨j 0, j 1, eq_ix2 j⟩
  rw [outsAt_snd V c 9 h9 u d]
  exact StatsSum.sum_range_byZero 100000 _

/-! ## From the last point's buffers to the result arrays -/

/-- Both outputs' one block sits at the origin of its 1 x 64 array at every point. -/
theorem origin_1 : ∀ (t : Fin cfg7.N) (a : Fin 2), win7_1.index t a * main_v80_0.ty.shape.size a = 0 :=
  (by decide +kernel : ∀ (t : Fin grid7.N) (a : Fin 2), win7_1.index t a * main_v80_0.ty.shape.size a = 0)
theorem origin_2 : ∀ (t : Fin cfg7.N) (a : Fin 2), win7_2.index t a * main_v80_1.ty.shape.size a = 0 :=
  (by decide +kernel : ∀ (t : Fin grid7.N) (a : Fin 2), win7_2.index t a * main_v80_1.ty.shape.size a = 0)

/-- The one write-back, after point 9, writes the whole column sums: the block is the whole array. -/
theorem flushed_fst (c : Dev nD) (t : Fin cfg7.N) (hf : (cfg7.win 1).flush t = true) :
    (dat7 (F := Ideal) V c).flushed 1 t
      = ((cfg7.win 1).blk t).view.read (Elt Ideal) (Cert.Spec.colsum (V c main_v79)) := by
  have hN : cfg7.N = 10 := N_7
  have h9 : t.val = 9 := by have := (flush7_1 t).mp hf; have := t.isLt; omega
  obtain ⟨n, hn⟩ := t
  obtain rfl : n = 9 := h9
  show (cfg7.win 1).cut (grid7.coords ⟨9, hn⟩) ((dat7 V c).after 1 ⟨9, hn⟩) = _
  rw [after7_1]
  show (cfg7.win 1).cut (grid7.coords ⟨9, hn⟩) (outsAt7 V c 9 hn).1 = _
  rw [last_fst V c hn]
  have hz' : (fun a => win7_1.index ⟨9, hn⟩ a * main_v80_0.ty.shape.size a) = fun _ => 0 :=
    funext fun a => origin_1 ⟨9, hn⟩ a
  exact (Memref.read_access_unit_zero (Elt Ideal) main_v80_0 hz' (fun a => by rw [congrFun hz' a]; simp)
    (Cert.Spec.colsum (V c main_v79))).symm

theorem flushed_snd (c : Dev nD) (t : Fin cfg7.N) (hf : (cfg7.win 2).flush t = true) :
    (dat7 (F := Ideal) V c).flushed 2 t
      = ((cfg7.win 2).blk t).view.read (Elt Ideal) (Cert.Spec.colsumsq (V c main_v79)) := by
  have hN : cfg7.N = 10 := N_7
  have h9 : t.val = 9 := by have := (flush7_2 t).mp hf; have := t.isLt; omega
  obtain ⟨n, hn⟩ := t
  obtain rfl : n = 9 := h9
  show (cfg7.win 2).cut (grid7.coords ⟨9, hn⟩) ((dat7 V c).after 2 ⟨9, hn⟩) = _
  rw [after7_2]
  show (cfg7.win 2).cut (grid7.coords ⟨9, hn⟩) (outsAt7 V c 9 hn).2 = _
  rw [last_snd V c hn]
  have hz' : (fun a => win7_2.index ⟨9, hn⟩ a * main_v80_1.ty.shape.size a) = fun _ => 0 :=
    funext fun a => origin_2 ⟨9, hn⟩ a
  exact (Memref.read_access_unit_zero (Elt Ideal) main_v80_1 hz' (fun a => by rw [congrFun hz' a]; simp)
    (Cert.Spec.colsumsq (V c main_v79))).symm

/-- THE RESULT: the first result array ends holding the column sums of the features the region was entered with. -/
theorem final_sum (c : Dev nD) :
    (dat7 (F := Ideal) V c).arrAt 1 cfg7.N = Cert.Spec.colsum (V c main_v79) :=
  (dat7 (F := Ideal) V c).arrAt_eq_of_cover 1 (Cert.Spec.colsum (V c main_v79)) (flushed_fst V c) fun i =>
    ⟨t7_9, (flush7_1 t7_9).mpr rfl, by
      show i ∈ ((View.whole main_v80_0).slice (win7_1.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_1.index t7_9 0 * win7_1.size 0 ≤ (i 0 : Nat)
          ∧ (i 0 : Nat) < win7_1.index t7_9 0 * win7_1.size 0 + win7_1.xsize (grid7.coords t7_9) 0
        rw [show win7_1.index t7_9 0 * win7_1.size 0 = 0 from by decide +kernel,
          show win7_1.xsize (grid7.coords t7_9) 0 = 1 from by decide +kernel]
        omega
      | ⟨1, _⟩ =>
        show win7_1.index t7_9 1 * win7_1.size 1 ≤ (i 1 : Nat)
          ∧ (i 1 : Nat) < win7_1.index t7_9 1 * win7_1.size 1 + win7_1.xsize (grid7.coords t7_9) 1
        rw [show win7_1.index t7_9 1 * win7_1.size 1 = 0 from by decide +kernel,
          show win7_1.xsize (grid7.coords t7_9) 1 = 64 from by decide +kernel]
        omega⟩

/-- THE RESULT: the second result array ends holding the column sums of squares. -/
theorem final_sumsq (c : Dev nD) :
    (dat7 (F := Ideal) V c).arrAt 2 cfg7.N = Cert.Spec.colsumsq (V c main_v79) :=
  (dat7 (F := Ideal) V c).arrAt_eq_of_cover 2 (Cert.Spec.colsumsq (V c main_v79)) (flushed_snd V c) fun i =>
    ⟨t7_9, (flush7_2 t7_9).mpr rfl, by
      show i ∈ ((View.whole main_v80_1).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_2.index t7_9 0 * win7_2.size 0 ≤ (i 0 : Nat)
          ∧ (i 0 : Nat) < win7_2.index t7_9 0 * win7_2.size 0 + win7_2.xsize (grid7.coords t7_9) 0
        rw [show win7_2.index t7_9 0 * win7_2.size 0 = 0 from by decide +kernel,
          show win7_2.xsize (grid7.coords t7_9) 0 = 1 from by decide +kernel]
        omega
      | ⟨1, _⟩ =>
        show win7_2.index t7_9 1 * win7_2.size 1 ≤ (i 1 : Nat)
          ∧ (i 1 : Nat) < win7_2.index t7_9 1 * win7_2.size 1 + win7_2.xsize (grid7.coords t7_9) 1
        rw [show win7_2.index t7_9 1 * win7_2.size 1 = 0 from by decide +kernel,
          show win7_2.xsize (grid7.coords t7_9) 1 = 64 from by decide +kernel]
        omega⟩

end Totals

end Cert.KernelIdeal.StatsRegion7

end
-- ==== Proof.AffineRegion2.lean ====
/-
  The pointwise half of the first layer's normalisation.

  The region walks the 100000 rows in ten blocks of 10000 rows, all 64 channels.  On each block it takes the feature
  entries, subtracts the mean row, multiplies by the inverse-deviation row and by the scale row, adds the shift row and
  keeps the positive part; each of the four rows is a 1 x 64 array read whole at every block and laid over the
  block's 10000 rows.  So what a block writes back is the matching block of rows of one whole-array formula
  (`Cert.Spec.affRelu`: entry (n, d) uses entry (0, d) of each row), and since row r lies in block r / 10000 the ten
  blocks cover the array: after the region the output array is that formula of the five arrays the region read.
-/
import proofs.«110267_j20564303414103_1_alg».proof.Proof.Spec
import proofs.«110267_j20564303414103_1_alg».proof.Proof.Gen.KernelIdeal.Frame
import Idealize.ShloMosaic.Lib.Pipeline.Value
import Idealize.ShloMosaic.Lib.ValueLayout
import Idealize.ShloMosaic.PureOps.Ideal.Laws

noncomputable section

namespace Cert.KernelIdeal.AffineRegion2

open Idealize.ShloMosaic Idealize.ShloMosaic.TcCoe Idealize.SL.Sem
open Idealize.ShloMosaic.ValueIdx
open Idealize.ShloMosaic.Pipeline (Dat)
open Cert.KernelIdeal Cert.KernelIdeal.Gen

/-- The body's accesses all start at the origin of their buffers. -/
theorem origin : (![0, 0] : Fin 2 → Nat) = fun _ => 0 := funext fun a => by fin_cases a <;> rfl

/-- What the body computes at row n, channel d of a block: the feature entry minus the first row's entry of that
    channel, times the second and third rows' entries, plus the fourth's, cut off below at zero. -/
theorem payload_apply (x : Vec Ideal S10000x64 .f32) (mu inv g b : Vec Ideal S1x64 .f32) (n : Fin 10000) (d : Fin 64) :
    k2_pay1 x mu inv g b (ix2 n d)
      = max ((x (ix2 n d) - mu (ix2 (0 : Fin 1) d)) * inv (ix2 (0 : Fin 1) d) * g (ix2 (0 : Fin 1) d) + b (ix2 (0 : Fin 1) d)) 0 := by
  unfold k2_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The same, against the whole-array formula: when the block's feature entry is entry J of the array and the four
    rows' entries are the rows' entries at J's channel, the body's value is the formula's value at J. -/
theorem block_value (X : Cert.Spec.Feat) (M I G B : Cert.Spec.Row1)
    (x : Vec Ideal S10000x64 .f32) (mu inv g b : Vec Ideal S1x64 .f32) (n : Fin 10000) (d : Fin 64)
    (J : S100000x64.Idx)
    (hx : x (ix2 n d) = X J)
    (hmu : mu (ix2 (0 : Fin 1) d) = M (ix2 (n0 := 1) (n1 := 64) 0 (J 1)))
    (hinv : inv (ix2 (0 : Fin 1) d) = I (ix2 (n0 := 1) (n1 := 64) 0 (J 1)))
    (hg : g (ix2 (0 : Fin 1) d) = G (ix2 (n0 := 1) (n1 := 64) 0 (J 1)))
    (hb : b (ix2 (0 : Fin 1) d) = B (ix2 (n0 := 1) (n1 := 64) 0 (J 1))) :
    k2_pay1 x mu inv g b (ix2 n d) = Cert.Spec.affRelu X M I G B J := by
  rw [payload_apply, hx, hmu, hinv, hg, hb]
  rfl

/-- Where each window's block sits at grid point t: the feature block and the output block are the t-th run of
    10000 rows, all 64 channels; each of the four rows is taken whole at every point. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The feature block at grid point t sits over the same rows as the output block: its entry (n, d) is the feature
    array's entry at the place where the output block's entry (n, d) lands. -/
theorem features_read (V : (c : Dev nD) → (b : Ref sig .tc) → Buf (Elt Ideal) ((c : Thread nD τ).loc b)) (c : Dev nD) (t : Fin cfg2.N) (n : Fin 10000) (d : Fin 64) :
    iblk2 V c 0 t (ix2 n d) = V c main_v17 (((cfg2.win 5).blk t).view.emb (ix2 n d)) := by
  obtain ⟨e00, e01, -, -, -, -, -, -, -, -, e50, e51⟩ := block_indices t
  show V c main_v17 (((cfg2.win 0).blk t).view.emb (ix2 n d)) = V c main_v17 (((cfg2.win 5).blk t).view.emb (ix2 n d))
  have h : (((cfg2.win 0).blk t).view.emb (ix2 n d)) = (((cfg2.win 5).blk t).view.emb (ix2 n d)) := by
    funext a; apply Fin.ext
    match a with
    | ⟨0, _⟩ => show win2_0.index t (0 : Fin 2) * 10000 + 1 * n.val = win2_5.index t (0 : Fin 2) * 10000 + 1 * n.val; omega
    | ⟨1, _⟩ => show win2_0.index t (1 : Fin 2) * 64 + 1 * d.val = win2_5.index t (1 : Fin 2) * 64 + 1 * d.val; omega
  rw [h]

/-- The first of the four rows is read whole at every grid point: its entry (0, d) is the row's entry at the channel
    of the place where the output block's entry (n, d) lands. -/
theorem row1_read (V : (c : Dev nD) → (b : Ref sig .tc) → Buf (Elt Ideal) ((c : Thread nD τ).loc b)) (c : Dev nD) (t : Fin cfg2.N) (n : Fin 10000) (d : Fin 64) :
    iblk2 V c 1 t (ix2 (0 : Fin 1) d) = V c main_v20 (ix2 (n0 := 1) (n1 := 64) 0 ((((cfg2.win 5).blk t).view.emb (ix2 n d)) 1)) := by
  obtain ⟨-, -, e0, e1, -, -, -, -, -, -, e50, e51⟩ := block_indices t
  show V c main_v20 (((cfg2.win 1).blk t).view.emb (ix2 (0 : Fin 1) d)) = V c main_v20 (ix2 (n0 := 1) (n1 := 64) 0 ((((cfg2.win 5).blk t).view.emb (ix2 n d)) 1))
  have h : (((cfg2.win 1).blk t).view.emb (ix2 (0 : Fin 1) d)) = (ix2 (n0 := 1) (n1 := 64) 0 ((((cfg2.win 5).blk t).view.emb (ix2 n d)) 1)) := by
    funext a; apply Fin.ext
    match a with
    | ⟨0, _⟩ => show win2_1.index t (0 : Fin 2) * 1 + 1 * 0 = 0; omega
    | ⟨1, _⟩ => show win2_1.index t (1 : Fin 2) * 64 + 1 * d.val = win2_5.index t (1 : Fin 2) * 64 + 1 * d.val; omega
  rw [h]

/-- The second of the four rows is read whole at every grid point: its entry (0, d) is the row's entry at the channel
    of the place where the output block's entry (n, d) lands. -/
theorem row2_read (V : (c : Dev nD) → (b : Ref sig .tc) → Buf (Elt Ideal) ((c : Thread nD τ).loc b)) (c : Dev nD) (t : Fin cfg2.N) (n : Fin 10000) (d : Fin 64) :
    iblk2 V c 2 t (ix2 (0 : Fin 1) d) = V c main_v27 (ix2 (n0 := 1) (n1 := 64) 0 ((((cfg2.win 5).blk t).view.emb (ix2 n d)) 1)) := by
  obtain ⟨-, -, -, -, e0, e1, -, -, -, -, e50, e51⟩ := block_indices t
  show V c main_v27 (((cfg2.win 2).blk t).view.emb (ix2 (0 : Fin 1) d)) = V c main_v27 (ix2 (n0 := 1) (n1 := 64) 0 ((((cfg2.win 5).blk t).view.emb (ix2 n d)) 1))
  have h : (((cfg2.win 2).blk t).view.emb (ix2 (0 : Fin 1) d)) = (ix2 (n0 := 1) (n1 := 64) 0 ((((cfg2.win 5).blk t).view.emb (ix2 n d)) 1)) := by
    funext a; apply Fin.ext
    match a with
    | ⟨0, _⟩ => show win2_2.index t (0 : Fin 2) * 1 + 1 * 0 = 0; omega
    | ⟨1, _⟩ => show win2_2.index t (1 : Fin 2) * 64 + 1 * d.val = win2_5.index t (1 : Fin 2) * 64 + 1 * d.val; omega
  rw [h]

/-- The third of the four rows is read whole at every grid point: its entry (0, d) is the row's entry at the channel
    of the place where the output block's entry (n, d) lands. -/
theorem row3_read (V : (c : Dev nD) → (b : Ref sig .tc) → Buf (Elt Ideal) ((c : Thread nD τ).loc b)) (c : Dev nD) (t : Fin cfg2.N) (n : Fin 10000) (d : Fin 64) :
    iblk2 V c 3 t (ix2 (0 : Fin 1) d) = V c main_v28 (ix2 (n0 := 1) (n1 := 64) 0 ((((cfg2.win 5).blk t).view.emb (ix2 n d)) 1)) := by
  obtain ⟨-, -, -, -, -, -, e0, e1, -, -, e50, e51⟩ := block_indices t
  show V c main_v28 (((cfg2.win 3).blk t).view.emb (ix2 (0 : Fin 1) d)) = V c main_v28 (ix2 (n0 := 1) (n1 := 64) 0 ((((cfg2.win 5).blk t).view.emb (ix2 n d)) 1))
  have h : (((cfg2.win 3).blk t).view.emb (ix2 (0 : Fin 1) d)) = (ix2 (n0 := 1) (n1 := 64) 0 ((((cfg2.win 5).blk t).view.emb (ix2 n d)) 1)) := by
    funext a; apply Fin.ext
    match a with
    | ⟨0, _⟩ => show win2_3.index t (0 : Fin 2) * 1 + 1 * 0 = 0; omega
    | ⟨1, _⟩ => show win2_3.index t (1 : Fin 2) * 64 + 1 * d.val = win2_5.index t (1 : Fin 2) * 64 + 1 * d.val; omega
  rw [h]

/-- The fourth of the four rows is read whole at every grid point: its entry (0, d) is the row's entry at the channel
    of the place where the output block's entry (n, d) lands. -/
theorem row4_read (V : (c : Dev nD) → (b : Ref sig .tc) → Buf (Elt Ideal) ((c : Thread nD τ).loc b)) (c : Dev nD) (t : Fin cfg2.N) (n : Fin 10000) (d : Fin 64) :
    iblk2 V c 4 t (ix2 (0 : Fin 1) d) = V c main_v29 (ix2 (n0 := 1) (n1 := 64) 0 ((((cfg2.win 5).blk t).view.emb (ix2 n d)) 1)) := by
  obtain ⟨-, -, -, -, -, -, -, -, e0, e1, e50, e51⟩ := block_indices t
  show V c main_v29 (((cfg2.win 4).blk t).view.emb (ix2 (0 : Fin 1) d)) = V c main_v29 (ix2 (n0 := 1) (n1 := 64) 0 ((((cfg2.win 5).blk t).view.emb (ix2 n d)) 1))
  have h : (((cfg2.win 4).blk t).view.emb (ix2 (0 : Fin 1) d)) = (ix2 (n0 := 1) (n1 := 64) 0 ((((cfg2.win 5).blk t).view.emb (ix2 n d)) 1)) := by
    funext a; apply Fin.ext
    match a with
    | ⟨0, _⟩ => show win2_4.index t (0 : Fin 2) * 1 + 1 * 0 = 0; omega
    | ⟨1, _⟩ => show win2_4.index t (1 : Fin 2) * 64 + 1 * d.val = win2_5.index t (1 : Fin 2) * 64 + 1 * d.val; omega
  rw [h]

/-- What grid point t writes back is the t-th block of rows of the normalised, scaled, shifted and cut-off array. -/
theorem flushed_eq (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (Cert.Spec.affRelu (V c main_v17) (V c main_v20) (V c main_v27) (V c main_v28) (V c main_v29)) := by
  show (cfg2.win 5).cut (grid2.coords t) ((dat2 (F := Ideal) V c).after 5 t) = _
  rw [after2_5]
  unfold out2_5
  rw [View.canon_unit_zero origin]
  simp only [View.ld_unit_zero (S := S10000x64) origin, View.ld_unit_zero (S := S1x64) origin]
  funext j
  obtain ⟨n, d, rfl⟩ : ∃ (n : Fin 10000) (d : Fin 64), j = ix2 n d := ⟨j 0, j 1, eq_ix2 j⟩
  show k2_pay1 (iblk2 V c 0 t) (iblk2 V c 1 t) (iblk2 V c 2 t) (iblk2 V c 3 t) (iblk2 V c 4 t) (ix2 n d)
      = Cert.Spec.affRelu (V c main_v17) (V c main_v20) (V c main_v27) (V c main_v28) (V c main_v29) (((cfg2.win 5).blk t).view.emb (ix2 n d))
  exact block_value (V c main_v17) (V c main_v20) (V c main_v27) (V c main_v28) (V c main_v29)
    (iblk2 V c 0 t) (iblk2 V c 1 t) (iblk2 V c 2 t) (iblk2 V c 3 t) (iblk2 V c 4 t) n d (((cfg2.win 5).blk t).view.emb (ix2 n d))
    (features_read V c t n d) (row1_read V c t n d) (row2_read V c t n d) (row3_read V c t n d) (row4_read V c t n d)

/-- An entry of the output array lies in grid point t's block exactly when, on each axis, its coordinate lies in the
    block's range. -/
theorem mem_block (t : Fin cfg2.N) (i : S100000x64.Idx) :
    i ∈ ((cfg2.win 5).blk t).view.set ↔
      ∀ a : Fin 2, win2_5.index t a * S10000x64.size a ≤ (i a).val ∧ (i a).val < win2_5.index t a * S10000x64.size a + S10000x64.size a := by
  show i ∈ ((View.whole main_v30).slice (win2_5.rect t)).set ↔ _
  rw [View.set_slice_whole, Rect.mem_set_unit]
  exact Iff.rfl

/-- Every entry of the output array is written back by some grid point: row r belongs to the block of point r / 10000. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_5 _, ?_⟩
  obtain ⟨-, -, -, -, -, -, -, -, -, -, e50, e51⟩ := block_indices ⟨(i 0).val / 10000, by rw [hN]; omega⟩
  rw [mem_block]
  intro a
  match a with
  | ⟨0, _⟩ =>
    show win2_5.index ⟨(i 0).val / 10000, _⟩ (0 : Fin 2) * 10000 ≤ (i 0).val
      ∧ (i 0).val < win2_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win2_5.index ⟨(i 0).val / 10000, _⟩ (1 : Fin 2) * 64 ≤ (i 1).val
      ∧ (i 1).val < win2_5.index ⟨(i 0).val / 10000, _⟩ (1 : Fin 2) * 64 + 64
    rw [e51]; omega

/-- After the region the output array holds, entry by entry, the feature array minus the first row, times the second
    and third rows, plus the fourth, cut off below at zero. -/
theorem final (V : (c : Dev nD) → (b : Ref sig .tc) → Buf (Elt Ideal) ((c : Thread nD τ).loc b)) (c : Dev nD) :
    (dat2 (F := Ideal) V c).arrAt 5 cfg2.N
      = Cert.Spec.affRelu (V c main_v17) (V c main_v20) (V c main_v27) (V c main_v28) (V c main_v29) :=
  (dat2 (F := Ideal) V c).arrAt_eq_of_cover 5
    (Cert.Spec.affRelu (V c main_v17) (V c main_v20) (V c main_v27) (V c main_v28) (V c main_v29))
    (fun t _ => flushed_eq V c t) covered

end Cert.KernelIdeal.AffineRegion2

end
-- ==== Proof.AffineRegion5.lean ====
/-
  The pointwise half of the second layer's normalisation.

  The region walks the 100000 rows in ten blocks of 10000 rows, all 64 channels.  On each block it takes the feature
  entries, subtracts the mean row, multiplies by the inverse-deviation row and by the scale row, adds the shift row and
  keeps the positive part; each of the four rows is a 1 x 64 array read whole at every block and laid over the
  block's 10000 rows.  So what a block writes back is the matching block of rows of one whole-array formula
  (`Cert.Spec.affRelu`: entry (n, d) uses entry (0, d) of each row), and since row r lies in block r / 10000 the ten
  blocks cover the array: after the region the output array is that formula of the five arrays the region read.
-/
import proofs.«110267_j20564303414103_1_alg».proof.Proof.Spec
import proofs.«110267_j20564303414103_1_alg».proof.Proof.Gen.KernelIdeal.Frame
import Idealize.ShloMosaic.Lib.Pipeline.Value
import Idealize.ShloMosaic.Lib.ValueLayout
import Idealize.ShloMosaic.PureOps.Ideal.Laws

noncomputable section

namespace Cert.KernelIdeal.AffineRegion5

open Idealize.ShloMosaic Idealize.ShloMosaic.TcCoe Idealize.SL.Sem
open Idealize.ShloMosaic.ValueIdx
open Idealize.ShloMosaic.Pipeline (Dat)
open Cert.KernelIdeal Cert.KernelIdeal.Gen

/-- The body's accesses all start at the origin of their buffers. -/
theorem origin : (![0, 0] : Fin 2 → Nat) = fun _ => 0 := funext fun a => by fin_cases a <;> rfl

/-- What the body computes at row n, channel d of a block: the feature entry minus the first row's entry of that
    channel, times the second and third rows' entries, plus the fourth's, cut off below at zero. -/
theorem payload_apply (x : Vec Ideal S10000x64 .f32) (mu inv g b : Vec Ideal S1x64 .f32) (n : Fin 10000) (d : Fin 64) :
    k5_pay1 x mu inv g b (ix2 n d)
      = max ((x (ix2 n d) - mu (ix2 (0 : Fin 1) d)) * inv (ix2 (0 : Fin 1) d) * g (ix2 (0 : Fin 1) d) + b (ix2 (0 : Fin 1) d)) 0 := by
  unfold k5_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The same, against the whole-array formula: when the block's feature entry is entry J of the array and the four
    rows' entries are the rows' entries at J's channel, the body's value is the formula's value at J. -/
theorem block_value (X : Cert.Spec.Feat) (M I G B : Cert.Spec.Row1)
    (x : Vec Ideal S10000x64 .f32) (mu inv g b : Vec Ideal S1x64 .f32) (n : Fin 10000) (d : Fin 64)
    (J : S100000x64.Idx)
    (hx : x (ix2 n d) = X J)
    (hmu : mu (ix2 (0 : Fin 1) d) = M (ix2 (n0 := 1) (n1 := 64) 0 (J 1)))
    (hinv : inv (ix2 (0 : Fin 1) d) = I (ix2 (n0 := 1) (n1 := 64) 0 (J 1)))
    (hg : g (ix2 (0 : Fin 1) d) = G (ix2 (n0 := 1) (n1 := 64) 0 (J 1)))
    (hb : b (ix2 (0 : Fin 1) d) = B (ix2 (n0 := 1) (n1 := 64) 0 (J 1))) :
    k5_pay1 x mu inv g b (ix2 n d) = Cert.Spec.affRelu X M I G B J := by
  rw [payload_apply, hx, hmu, hinv, hg, hb]
  rfl

/-- Where each window's block sits at grid point t: the feature block and the output block are the t-th run of
    10000 rows, all 64 channels; each of the four rows is taken whole at every point. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The feature block at grid point t sits over the same rows as the output block: its entry (n, d) is the feature
    array's entry at the place where the output block's entry (n, d) lands. -/
theorem features_read (V : (c : Dev nD) → (b : Ref sig .tc) → Buf (Elt Ideal) ((c : Thread nD τ).loc b)) (c : Dev nD) (t : Fin cfg5.N) (n : Fin 10000) (d : Fin 64) :
    iblk5 V c 0 t (ix2 n d) = V c main_v48 (((cfg5.win 5).blk t).view.emb (ix2 n d)) := by
  obtain ⟨e00, e01, -, -, -, -, -, -, -, -, e50, e51⟩ := block_indices t
  show V c main_v48 (((cfg5.win 0).blk t).view.emb (ix2 n d)) = V c main_v48 (((cfg5.win 5).blk t).view.emb (ix2 n d))
  have h : (((cfg5.win 0).blk t).view.emb (ix2 n d)) = (((cfg5.win 5).blk t).view.emb (ix2 n d)) := by
    funext a; apply Fin.ext
    match a with
    | ⟨0, _⟩ => show win5_0.index t (0 : Fin 2) * 10000 + 1 * n.val = win5_5.index t (0 : Fin 2) * 10000 + 1 * n.val; omega
    | ⟨1, _⟩ => show win5_0.index t (1 : Fin 2) * 64 + 1 * d.val = win5_5.index t (1 : Fin 2) * 64 + 1 * d.val; omega
  rw [h]

/-- The first of the four rows is read whole at every grid point: its entry (0, d) is the row's entry at the channel
    of the place where the output block's entry (n, d) lands. -/
theorem row1_read (V : (c : Dev nD) → (b : Ref sig .tc) → Buf (Elt Ideal) ((c : Thread nD τ).loc b)) (c : Dev nD) (t : Fin cfg5.N) (n : Fin 10000) (d : Fin 64) :
    iblk5 V c 1 t (ix2 (0 : Fin 1) d) = V c main_v51 (ix2 (n0 := 1) (n1 := 64) 0 ((((cfg5.win 5).blk t).view.emb (ix2 n d)) 1)) := by
  obtain ⟨-, -, e0, e1, -, -, -, -, -, -, e50, e51⟩ := block_indices t
  show V c main_v51 (((cfg5.win 1).blk t).view.emb (ix2 (0 : Fin 1) d)) = V c main_v51 (ix2 (n0 := 1) (n1 := 64) 0 ((((cfg5.win 5).blk t).view.emb (ix2 n d)) 1))
  have h : (((cfg5.win 1).blk t).view.emb (ix2 (0 : Fin 1) d)) = (ix2 (n0 := 1) (n1 := 64) 0 ((((cfg5.win 5).blk t).view.emb (ix2 n d)) 1)) := by
    funext a; apply Fin.ext
    match a with
    | ⟨0, _⟩ => show win5_1.index t (0 : Fin 2) * 1 + 1 * 0 = 0; omega
    | ⟨1, _⟩ => show win5_1.index t (1 : Fin 2) * 64 + 1 * d.val = win5_5.index t (1 : Fin 2) * 64 + 1 * d.val; omega
  rw [h]

/-- The second of the four rows is read whole at every grid point: its entry (0, d) is the row's entry at the channel
    of the place where the output block's entry (n, d) lands. -/
theorem row2_read (V : (c : Dev nD) → (b : Ref sig .tc) → Buf (Elt Ideal) ((c : Thread nD τ).loc b)) (c : Dev nD) (t : Fin cfg5.N) (n : Fin 10000) (d : Fin 64) :
    iblk5 V c 2 t (ix2 (0 : Fin 1) d) = V c main_v58 (ix2 (n0 := 1) (n1 := 64) 0 ((((cfg5.win 5).blk t).view.emb (ix2 n d)) 1)) := by
  obtain ⟨-, -, -, -, e0, e1, -, -, -, -, e50, e51⟩ := block_indices t
  show V c main_v58 (((cfg5.win 2).blk t).view.emb (ix2 (0 : Fin 1) d)) = V c main_v58 (ix2 (n0 := 1) (n1 := 64) 0 ((((cfg5.win 5).blk t).view.emb (ix2 n d)) 1))
  have h : (((cfg5.win 2).blk t).view.emb (ix2 (0 : Fin 1) d)) = (ix2 (n0 := 1) (n1 := 64) 0 ((((cfg5.win 5).blk t).view.emb (ix2 n d)) 1)) := by
    funext a; apply Fin.ext
    match a with
    | ⟨0, _⟩ => show win5_2.index t (0 : Fin 2) * 1 + 1 * 0 = 0; omega
    | ⟨1, _⟩ => show win5_2.index t (1 : Fin 2) * 64 + 1 * d.val = win5_5.index t (1 : Fin 2) * 64 + 1 * d.val; omega
  rw [h]

/-- The third of the four rows is read whole at every grid point: its entry (0, d) is the row's entry at the channel
    of the place where the output block's entry (n, d) lands. -/
theorem row3_read (V : (c : Dev nD) → (b : Ref sig .tc) → Buf (Elt Ideal) ((c : Thread nD τ).loc b)) (c : Dev nD) (t : Fin cfg5.N) (n : Fin 10000) (d : Fin 64) :
    iblk5 V c 3 t (ix2 (0 : Fin 1) d) = V c main_v59 (ix2 (n0 := 1) (n1 := 64) 0 ((((cfg5.win 5).blk t).view.emb (ix2 n d)) 1)) := by
  obtain ⟨-, -, -, -, -, -, e0, e1, -, -, e50, e51⟩ := block_indices t
  show V c main_v59 (((cfg5.win 3).blk t).view.emb (ix2 (0 : Fin 1) d)) = V c main_v59 (ix2 (n0 := 1) (n1 := 64) 0 ((((cfg5.win 5).blk t).view.emb (ix2 n d)) 1))
  have h : (((cfg5.win 3).blk t).view.emb (ix2 (0 : Fin 1) d)) = (ix2 (n0 := 1) (n1 := 64) 0 ((((cfg5.win 5).blk t).view.emb (ix2 n d)) 1)) := by
    funext a; apply Fin.ext
    match a with
    | ⟨0, _⟩ => show win5_3.index t (0 : Fin 2) * 1 + 1 * 0 = 0; omega
    | ⟨1, _⟩ => show win5_3.index t (1 : Fin 2) * 64 + 1 * d.val = win5_5.index t (1 : Fin 2) * 64 + 1 * d.val; omega
  rw [h]

/-- The fourth of the four rows is read whole at every grid point: its entry (0, d) is the row's entry at the channel
    of the place where the output block's entry (n, d) lands. -/
theorem row4_read (V : (c : Dev nD) → (b : Ref sig .tc) → Buf (Elt Ideal) ((c : Thread nD τ).loc b)) (c : Dev nD) (t : Fin cfg5.N) (n : Fin 10000) (d : Fin 64) :
    iblk5 V c 4 t (ix2 (0 : Fin 1) d) = V c main_v60 (ix2 (n0 := 1) (n1 := 64) 0 ((((cfg5.win 5).blk t).view.emb (ix2 n d)) 1)) := by
  obtain ⟨-, -, -, -, -, -, -, -, e0, e1, e50, e51⟩ := block_indices t
  show V c main_v60 (((cfg5.win 4).blk t).view.emb (ix2 (0 : Fin 1) d)) = V c main_v60 (ix2 (n0 := 1) (n1 := 64) 0 ((((cfg5.win 5).blk t).view.emb (ix2 n d)) 1))
  have h : (((cfg5.win 4).blk t).view.emb (ix2 (0 : Fin 1) d)) = (ix2 (n0 := 1) (n1 := 64) 0 ((((cfg5.win 5).blk t).view.emb (ix2 n d)) 1)) := by
    funext a; apply Fin.ext
    match a with
    | ⟨0, _⟩ => show win5_4.index t (0 : Fin 2) * 1 + 1 * 0 = 0; omega
    | ⟨1, _⟩ => show win5_4.index t (1 : Fin 2) * 64 + 1 * d.val = win5_5.index t (1 : Fin 2) * 64 + 1 * d.val; omega
  rw [h]

/-- What grid point t writes back is the t-th block of rows of the normalised, scaled, shifted and cut-off array. -/
theorem flushed_eq (V : (c : Dev nD) → (b : Ref sig .tc) → Buf (Elt Ideal) ((c : Thread nD τ).loc b)) (c : Dev nD) (t : Fin cfg5.N) :
    (dat5 (F := Ideal) V c).flushed 5 t
      = ((cfg5.win 5).blk t).view.read (Elt Ideal)
          (Cert.Spec.affRelu (V c main_v48) (V c main_v51) (V c main_v58) (V c main_v59) (V c main_v60)) := by
  show (cfg5.win 5).cut (grid5.coords t) ((dat5 (F := Ideal) V c).after 5 t) = _
  rw [after5_5]
  unfold out5_5
  rw [View.canon_unit_zero origin]
  simp only [View.ld_unit_zero (S := S10000x64) origin, View.ld_unit_zero (S := S1x64) origin]
  funext j
  obtain ⟨n, d, rfl⟩ : ∃ (n : Fin 10000) (d : Fin 64), j = ix2 n d := ⟨j 0, j 1, eq_ix2 j⟩
  show k5_pay1 (iblk5 V c 0 t) (iblk5 V c 1 t) (iblk5 V c 2 t) (iblk5 V c 3 t) (iblk5 V c 4 t) (ix2 n d)
      = Cert.Spec.affRelu (V c main_v48) (V c main_v51) (V c main_v58) (V c main_v59) (V c main_v60) (((cfg5.win 5).blk t).view.emb (ix2 n d))
  exact block_value (V c main_v48) (V c main_v51) (V c main_v58) (V c main_v59) (V c main_v60)
    (iblk5 V c 0 t) (iblk5 V c 1 t) (iblk5 V c 2 t) (iblk5 V c 3 t) (iblk5 V c 4 t) n d (((cfg5.win 5).blk t).view.emb (ix2 n d))
    (features_read V c t n d) (row1_read V c t n d) (row2_read V c t n d) (row3_read V c t n d) (row4_read V c t n d)

/-- An entry of the output array lies in grid point t's block exactly when, on each axis, its coordinate lies in the
    block's range. -/
theorem mem_block (t : Fin cfg5.N) (i : S100000x64.Idx) :
    i ∈ ((cfg5.win 5).blk t).view.set ↔
      ∀ a : Fin 2, win5_5.index t a * S10000x64.size a ≤ (i a).val ∧ (i a).val < win5_5.index t a * S10000x64.size a + S10000x64.size a := by
  show i ∈ ((View.whole main_v61).slice (win5_5.rect t)).set ↔ _
  rw [View.set_slice_whole, Rect.mem_set_unit]
  exact Iff.rfl

/-- Every entry of the output array is written back by some grid point: row r belongs to the block of point r / 10000. -/
theorem covered (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 10 := N_5
  refine ⟨⟨(i 0).val / 10000, by rw [hN]; omega⟩, flush5_5 _, ?_⟩
  obtain ⟨-, -, -, -, -, -, -, -, -, -, e50, e51⟩ := block_indices ⟨(i 0).val / 10000, by rw [hN]; omega⟩
  rw [mem_block]
  intro a
  match a with
  | ⟨0, _⟩ =>
    show win5_5.index ⟨(i 0).val / 10000, _⟩ (0 : Fin 2) * 10000 ≤ (i 0).val
      ∧ (i 0).val < win5_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win5_5.index ⟨(i 0).val / 10000, _⟩ (1 : Fin 2) * 64 ≤ (i 1).val
      ∧ (i 1).val < win5_5.index ⟨(i 0).val / 10000, _⟩ (1 : Fin 2) * 64 + 64
    rw [e51]; omega

/-- After the region the output array holds, entry by entry, the feature array minus the first row, times the second
    and third rows, plus the fourth, cut off below at zero. -/
theorem final (V : (c : Dev nD) → (b : Ref sig .tc) → Buf (Elt Ideal) ((c : Thread nD τ).loc b)) (c : Dev nD) :
    (dat5 (F := Ideal) V c).arrAt 5 cfg5.N
      = Cert.Spec.affRelu (V c main_v48) (V c main_v51) (V c main_v58) (V c main_v59) (V c main_v60) :=
  (dat5 (F := Ideal) V c).arrAt_eq_of_cover 5
    (Cert.Spec.affRelu (V c main_v48) (V c main_v51) (V c main_v58) (V c main_v59) (V c main_v60))
    (fun t _ => flushed_eq V c t) covered

end Cert.KernelIdeal.AffineRegion5

end
-- ==== Proof.AffineRegion8.lean ====
/-
  The pointwise half of the third layer's normalisation.

  The region walks the 100000 rows in ten blocks of 10000 rows, all 64 channels.  On each block it takes the feature
  entries, subtracts the mean row, multiplies by the inverse-deviation row and by the scale row, adds the shift row and
  keeps the positive part; each of the four rows is a 1 x 64 array read whole at every block and laid over the
  block's 10000 rows.  So what a block writes back is the matching block of rows of one whole-array formula
  (`Cert.Spec.affRelu`: entry (n, d) uses entry (0, d) of each row), and since row r lies in block r / 10000 the ten
  blocks cover the array: after the region the output array is that formula of the five arrays the region read.
-/
import proofs.«110267_j20564303414103_1_alg».proof.Proof.Spec
import proofs.«110267_j20564303414103_1_alg».proof.Proof.Gen.KernelIdeal.Frame
import Idealize.ShloMosaic.Lib.Pipeline.Value
import Idealize.ShloMosaic.Lib.ValueLayout
import Idealize.ShloMosaic.PureOps.Ideal.Laws

noncomputable section

namespace Cert.KernelIdeal.AffineRegion8

open Idealize.ShloMosaic Idealize.ShloMosaic.TcCoe Idealize.SL.Sem
open Idealize.ShloMosaic.ValueIdx
open Idealize.ShloMosaic.Pipeline (Dat)
open Cert.KernelIdeal Cert.KernelIdeal.Gen

/-- The body's accesses all start at the origin of their buffers. -/
theorem origin : (![0, 0] : Fin 2 → Nat) = fun _ => 0 := funext fun a => by fin_cases a <;> rfl

/-- What the body computes at row n, channel d of a block: the feature entry minus the first row's entry of that
    channel, times the second and third rows' entries, plus the fourth's, cut off below at zero. -/
theorem payload_apply (x : Vec Ideal S10000x64 .f32) (mu inv g b : Vec Ideal S1x64 .f32) (n : Fin 10000) (d : Fin 64) :
    k8_pay1 x mu inv g b (ix2 n d)
      = max ((x (ix2 n d) - mu (ix2 (0 : Fin 1) d)) * inv (ix2 (0 : Fin 1) d) * g (ix2 (0 : Fin 1) d) + b (ix2 (0 : Fin 1) d)) 0 := by
  unfold k8_pay1
  rw [maximumf_apply, addf_apply, mulf_apply, mulf_apply, subf_apply, broadcast_apply]
  simp only [shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

/-- The same, against the whole-array formula: when the block's feature entry is entry J of the array and the four
    rows' entries are the rows' entries at J's channel, the body's value is the formula's value at J. -/
theorem block_value (X : Cert.Spec.Feat) (M I G B : Cert.Spec.Row1)
    (x : Vec Ideal S10000x64 .f32) (mu inv g b : Vec Ideal S1x64 .f32) (n : Fin 10000) (d : Fin 64)
    (J : S100000x64.Idx)
    (hx : x (ix2 n d) = X J)
    (hmu : mu (ix2 (0 : Fin 1) d) = M (ix2 (n0 := 1) (n1 := 64) 0 (J 1)))
    (hinv : inv (ix2 (0 : Fin 1) d) = I (ix2 (n0 := 1) (n1 := 64) 0 (J 1)))
    (hg : g (ix2 (0 : Fin 1) d) = G (ix2 (n0 := 1) (n1 := 64) 0 (J 1)))
    (hb : b (ix2 (0 : Fin 1) d) = B (ix2 (n0 := 1) (n1 := 64) 0 (J 1))) :
    k8_pay1 x mu inv g b (ix2 n d) = Cert.Spec.affRelu X M I G B J := by
  rw [payload_apply, hx, hmu, hinv, hg, hb]
  rfl

/-- Where each window's block sits at grid point t: the feature block and the output block are the t-th run of
    10000 rows, all 64 channels; each of the four rows is taken whole at every point. -/
theorem block_indices : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The feature block at grid point t sits over the same rows as the output block: its entry (n, d) is the feature
    array's entry at the place where the output block's entry (n, d) lands. -/
theorem features_read (V : (c : Dev nD) → (b : Ref sig .tc) → Buf (Elt Ideal) ((c : Thread nD τ).loc b)) (c : Dev nD) (t : Fin cfg8.N) (n : Fin 10000) (d : Fin 64) :
    iblk8 V c 0 t (ix2 n d) = V c main_v79 (((cfg8.win 5).blk t).view.emb (ix2 n d)) := by
  obtain ⟨e00, e01, -, -, -, -, -, -, -, -, e50, e51⟩ := block_indices t
  show V c main_v79 (((cfg8.win 0).blk t).view.emb (ix2 n d)) = V c main_v79 (((cfg8.win 5).blk t).view.emb (ix2 n d))
  have h : (((cfg8.win 0).blk t).view.emb (ix2 n d)) = (((cfg8.win 5).blk t).view.emb (ix2 n d)) := by
    funext a; apply Fin.ext
    match a with
    | ⟨0, _⟩ => show win8_0.index t (0 : Fin 2) * 10000 + 1 * n.val = win8_5.index t (0 : Fin 2) * 10000 + 1 * n.val; omega
    | ⟨1, _⟩ => show win8_0.index t (1 : Fin 2) * 64 + 1 * d.val = win8_5.index t (1 : Fin 2) * 64 + 1 * d.val; omega
  rw [h]

/-- The first of the four rows is read whole at every grid point: its entry (0, d) is the row's entry at the channel
    of the place where the output block's entry (n, d) lands. -/
theorem row1_read (V : (c : Dev nD) → (b : Ref sig .tc) → Buf (Elt Ideal) ((c : Thread nD τ).loc b)) (c : Dev nD) (t : Fin cfg8.N) (n : Fin 10000) (d : Fin 64) :
    iblk8 V c 1 t (ix2 (0 : Fin 1) d) = V c main_v82 (ix2 (n0 := 1) (n1 := 64) 0 ((((cfg8.win 5).blk t).view.emb (ix2 n d)) 1)) := by
  obtain ⟨-, -, e0, e1, -, -, -, -, -, -, e50, e51⟩ := block_indices t
  show V c main_v82 (((cfg8.win 1).blk t).view.emb (ix2 (0 : Fin 1) d)) = V c main_v82 (ix2 (n0 := 1) (n1 := 64) 0 ((((cfg8.win 5).blk t).view.emb (ix2 n d)) 1))
  have h : (((cfg8.win 1).blk t).view.emb (ix2 (0 : Fin 1) d)) = (ix2 (n0 := 1) (n1 := 64) 0 ((((cfg8.win 5).blk t).view.emb (ix2 n d)) 1)) := by
    funext a; apply Fin.ext
    match a with
    | ⟨0, _⟩ => show win8_1.index t (0 : Fin 2) * 1 + 1 * 0 = 0; omega
    | ⟨1, _⟩ => show win8_1.index t (1 : Fin 2) * 64 + 1 * d.val = win8_5.index t (1 : Fin 2) * 64 + 1 * d.val; omega
  rw [h]

/-- The second of the four rows is read whole at every grid point: its entry (0, d) is the row's entry at the channel
    of the place where the output block's entry (n, d) lands. -/
theorem row2_read (V : (c : Dev nD) → (b : Ref sig .tc) → Buf (Elt Ideal) ((c : Thread nD τ).loc b)) (c : Dev nD) (t : Fin cfg8.N) (n : Fin 10000) (d : Fin 64) :
    iblk8 V c 2 t (ix2 (0 : Fin 1) d) = V c main_v89 (ix2 (n0 := 1) (n1 := 64) 0 ((((cfg8.win 5).blk t).view.emb (ix2 n d)) 1)) := by
  obtain ⟨-, -, -, -, e0, e1, -, -, -, -, e50, e51⟩ := block_indices t
  show V c main_v89 (((cfg8.win 2).blk t).view.emb (ix2 (0 : Fin 1) d)) = V c main_v89 (ix2 (n0 := 1) (n1 := 64) 0 ((((cfg8.win 5).blk t).view.emb (ix2 n d)) 1))
  have h : (((cfg8.win 2).blk t).view.emb (ix2 (0 : Fin 1) d)) = (ix2 (n0 := 1) (n1 := 64) 0 ((((cfg8.win 5).blk t).view.emb (ix2 n d)) 1)) := by
    funext a; apply Fin.ext
    match a with
    | ⟨0, _⟩ => show win8_2.index t (0 : Fin 2) * 1 + 1 * 0 = 0; omega
    | ⟨1, _⟩ => show win8_2.index t (1 : Fin 2) * 64 + 1 * d.val = win8_5.index t (1 : Fin 2) * 64 + 1 * d.val; omega
  rw [h]

/-- The third of the four rows is read whole at every grid point: its entry (0, d) is the row's entry at the channel
    of the place where the output block's entry (n, d) lands. -/
theorem row3_read (V : (c : Dev nD) → (b : Ref sig .tc) → Buf (Elt Ideal) ((c : Thread nD τ).loc b)) (c : Dev nD) (t : Fin cfg8.N) (n : Fin 10000) (d : Fin 64) :
    iblk8 V c 3 t (ix2 (0 : Fin 1) d) = V c main_v90 (ix2 (n0 := 1) (n1 := 64) 0 ((((cfg8.win 5).blk t).view.emb (ix2 n d)) 1)) := by
  obtain ⟨-, -, -, -, -, -, e0, e1, -, -, e50, e51⟩ := block_indices t
  show V c main_v90 (((cfg8.win 3).blk t).view.emb (ix2 (0 : Fin 1) d)) = V c main_v90 (ix2 (n0 := 1) (n1 := 64) 0 ((((cfg8.win 5).blk t).view.emb (ix2 n d)) 1))
  have h : (((cfg8.win 3).blk t).view.emb (ix2 (0 : Fin 1) d)) = (ix2 (n0 := 1) (n1 := 64) 0 ((((cfg8.win 5).blk t).view.emb (ix2 n d)) 1)) := by
    funext a; apply Fin.ext
    match a with
    | ⟨0, _⟩ => show win8_3.index t (0 : Fin 2) * 1 + 1 * 0 = 0; omega
    | ⟨1, _⟩ => show win8_3.index t (1 : Fin 2) * 64 + 1 * d.val = win8_5.index t (1 : Fin 2) * 64 + 1 * d.val; omega
  rw [h]

/-- The fourth of the four rows is read whole at every grid point: its entry (0, d) is the row's entry at the channel
    of the place where the output block's entry (n, d) lands. -/
theorem row4_read (V : (c : Dev nD) → (b : Ref sig .tc) → Buf (Elt Ideal) ((c : Thread nD τ).loc b)) (c : Dev nD) (t : Fin cfg8.N) (n : Fin 10000) (d : Fin 64) :
    iblk8 V c 4 t (ix2 (0 : Fin 1) d) = V c main_v91 (ix2 (n0 := 1) (n1 := 64) 0 ((((cfg8.win 5).blk t).view.emb (ix2 n d)) 1)) := by
  obtain ⟨-, -, -, -, -, -, -, -, e0, e1, e50, e51⟩ := block_indices t
  show V c main_v91 (((cfg8.win 4).blk t).view.emb (ix2 (0 : Fin 1) d)) = V c main_v91 (ix2 (n0 := 1) (n1 := 64) 0 ((((cfg8.win 5).blk t).view.emb (ix2 n d)) 1))
  have h : (((cfg8.win 4).blk t).view.emb (ix2 (0 : Fin 1) d)) = (ix2 (n0 := 1) (n1 := 64) 0 ((((cfg8.win 5).blk t).view.emb (ix2 n d)) 1)) := by
    funext a; apply Fin.ext
    match a with
    | ⟨0, _⟩ => show win8_4.index t (0 : Fin 2) * 1 + 1 * 0 = 0; omega
    | ⟨1, _⟩ => show win8_4.index t (1 : Fin 2) * 64 + 1 * d.val = win8_5.index t (1 : Fin 2) * 64 + 1 * d.val; omega
  rw [h]

/-- What grid point t writes back is the t-th block of rows of the normalised, scaled, shifted and cut-off array. -/
theorem flushed_eq (V : (c : Dev nD) → (b : Ref sig .tc) → Buf (Elt Ideal) ((c : Thread nD τ).loc b)) (c : Dev nD) (t : Fin cfg8.N) :
    (dat8 (F := Ideal) V c).flushed 5 t
      = ((cfg8.win 5).blk t).view.read (Elt Ideal)
          (Cert.Spec.affRelu (V c main_v79) (V c main_v82) (V c main_v89) (V c main_v90) (V c main_v91)) := by
  show (cfg8.win 5).cut (grid8.coords t) ((dat8 (F := Ideal) V c).after 5 t) = _
  rw [after8_5]
  unfold out8_5
  rw [View.canon_unit_zero origin]
  simp only [View.ld_unit_zero (S := S10000x64) origin, View.ld_unit_zero (S := S1x64) origin]
  funext j
  obtain ⟨n, d, rfl⟩ : ∃ (n : Fin 10000) (d : Fin 64), j = ix2 n d := ⟨j 0, j 1, eq_ix2 j⟩
  show k8_pay1 (iblk8 V c 0 t) (iblk8 V c 1 t) (iblk8 V c 2 t) (iblk8 V c 3 t) (iblk8 V c 4 t) (ix2 n d)
      = Cert.Spec.affRelu (V c main_v79) (V c main_v82) (V c main_v89) (V c main_v90) (V c main_v91) (((cfg8.win 5).blk t).view.emb (ix2 n d))
  exact block_value (V c main_v79) (V c main_v82) (V c main_v89) (V c main_v90) (V c main_v91)
    (iblk8 V c 0 t) (iblk8 V c 1 t) (iblk8 V c 2 t) (iblk8 V c 3 t) (iblk8 V c 4 t) n d (((cfg8.win 5).blk t).view.emb (ix2 n d))
    (features_read V c t n d) (row1_read V c t n d) (row2_read V c t n d) (row3_read V c t n d) (row4_read V c t n d)

/-- An entry of the output array lies in grid point t's block exactly when, on each axis, its coordinate lies in the
    block's range. -/
theorem mem_block (t : Fin cfg8.N) (i : S100000x64.Idx) :
    i ∈ ((cfg8.win 5).blk t).view.set ↔
      ∀ a : Fin 2, win8_5.index t a * S10000x64.size a ≤ (i a).val ∧ (i a).val < win8_5.index t a * S10000x64.size a + S10000x64.size a := by
  show i ∈ ((View.whole main_v92).slice (win8_5.rect t)).set ↔ _
  rw [View.set_slice_whole, Rect.mem_set_unit]
  exact Iff.rfl

/-- Every entry of the output array is written back by some grid point: row r belongs to the block of point r / 10000. -/
theorem covered (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  have hN : cfg8.N = 10 := N_8
  refine ⟨⟨(i 0).val / 10000, by rw [hN]; omega⟩, flush8_5 _, ?_⟩
  obtain ⟨-, -, -, -, -, -, -, -, -, -, e50, e51⟩ := block_indices ⟨(i 0).val / 10000, by rw [hN]; omega⟩
  rw [mem_block]
  intro a
  match a with
  | ⟨0, _⟩ =>
    show win8_5.index ⟨(i 0).val / 10000, _⟩ (0 : Fin 2) * 10000 ≤ (i 0).val
      ∧ (i 0).val < win8_5.index ⟨(i 0).val / 10000, _⟩ (0 : Fin 2) * 10000 + 10000
    rw [e50]; show (i 0).val / 10000 * 10000 ≤ (i 0).val ∧ (i 0).val < (i 0).val / 10000 * 10000 + 10000; omega
  | ⟨1, _⟩ =>
    show win8_5.index ⟨(i 0).val / 10000, _⟩ (1 : Fin 2) * 64 ≤ (i 1).val
      ∧ (i 1).val < win8_5.index ⟨(i 0).val / 10000, _⟩ (1 : Fin 2) * 64 + 64
    rw [e51]; omega

/-- After the region the output array holds, entry by entry, the feature array minus the first row, times the second
    and third rows, plus the fourth, cut off below at zero. -/
theorem final (V : (c : Dev nD) → (b : Ref sig .tc) → Buf (Elt Ideal) ((c : Thread nD τ).loc b)) (c : Dev nD) :
    (dat8 (F := Ideal) V c).arrAt 5 cfg8.N
      = Cert.Spec.affRelu (V c main_v79) (V c main_v82) (V c main_v89) (V c main_v90) (V c main_v91) :=
  (dat8 (F := Ideal) V c).arrAt_eq_of_cover 5
    (Cert.Spec.affRelu (V c main_v79) (V c main_v82) (V c main_v89) (V c main_v90) (V c main_v91))
    (fun t _ => flushed_eq V c t) covered

end Cert.KernelIdeal.AffineRegion8

end
-- ==== Proof.BatchedDot.lean ====
/-
  The host's batched product and the entrywise product are one function.

  The reference multiplies, for each of the 27 offsets, the 50000 x 64 block of looked-up rows by the offset's
  64 x 64 matrix, as one batched product: the offset is the batch axis of both operands, the channel of the rows is
  contracted with the first axis of the matrix.  Over the extended reals that product, read at the entry
  (offset k, edge e, channel d), is the plain sum over the 64 contracted channels c of row (k, e) at c times the
  matrix of k at (c, d) -- no accumulator, no order of summation left in it.  That sum is the entry the
  specification's `mm` states, so the two are equal entry by entry; no finiteness is used (only the reading of the
  product as a sum, never a law that fails at the infinities).
-/
import proofs.«110267_j20564303414103_1_alg».proof.Proof.Spec
import Idealize.ShloMosaic.PureOps.Ideal.Laws
import Idealize.ShloMosaic.Lib.StackMember

noncomputable section

namespace Cert.Spec

open Idealize.ShloMosaic Idealize.ShloMosaic.ValueIdx

/-- The batched product at (k, e, d) is the sum over the contracted channel c of g (k, e, c) * w (k, c, d): a product
    of two stacks of matrices, taken matrix by matrix, read at one entry. -/
theorem mmR_apply (g : Rows) (w : Wts) (k : Fin 27) (e : Fin 50000) (d : Fin 64) :
    mmR g w (ix3 k e d) = ∑ c : Fin 64, g (ix3 k e c) * w (ix3 k c d) :=
  StackMember.dotGeneral_stack_apply
    Cert.ReferenceIdeal.Facts₀.dot_S27x50000x64_S27x64x64_S27x50000x64_2_1_1_2_0_0_wf none g w k e d

/-- The entrywise product is the host's batched product. -/
theorem mm_eq_mmR (g : Rows) (w : Wts) : mm g w = mmR g w := by
  funext j
  obtain ⟨k, e, d, rfl⟩ : ∃ (k : Fin 27) (e : Fin 50000) (d : Fin 64), j = ix3 k e d := ⟨j 0, j 1, j 2, eq_ix3 j⟩
  exact (mmR_apply g w k e d).symm

end Cert.Spec

end
-- ==== Proof.FiniteInputs.lean ====
/-
  Finiteness of the inputs.

  The precondition is one bit: the conjunction, over the ten float arguments, of "every entry's absolute value is
  strictly below plus infinity", each taken as a conjunction over all entries of the array.  A conjunction of bits is
  one only when every conjunct is, and an extended real whose absolute value is below plus infinity is neither of the
  two infinities, hence a real number.  So under the precondition every entry of every float argument is real.
-/
import proofs.«110267_j20564303414103_1_alg».proof.Defs
import proofs.«110267_j20564303414103_1_alg».proof.Proof.Gen.Pre_finite_inputs
import Idealize.ShloMosaic.Lib.ReduceAll
import Idealize.ShloMosaic.Lib.ValueIdx

noncomputable section

namespace Cert.FiniteInputs

open Idealize.ShloMosaic Idealize.SL.Sem

/-- The scalar shape has exactly one index. -/
instance : Subsingleton Cert.Pre_finite_inputs.S_.Idx := ⟨fun a b => funext fun d => d.elim0⟩

/-- An extended real whose absolute value lies strictly below the float pattern of plus infinity is a real number:
    plus infinity fails the comparison by itself, minus infinity through its negation. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- One array of the precondition: when the conjunction over all entries of "the absolute value is below plus
    infinity" is one, every entry of the array is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

/-- The conjunction of two one-bit words is one exactly when both are. -/
theorem and_at (x y : IVec Cert.Pre_finite_inputs.S_ 1) (i : Cert.Pre_finite_inputs.S_.Idx)
    (h : andi x y i = 1#1) : x i = 1#1 ∧ y i = 1#1 := IntOp.andi_eq_one.1 h

/-- Under the certificate's precondition every entry of each of the ten float arguments is a real number: the
    predicate is the conjunction, array by array, of "all absolute values are below plus infinity". -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal)) := by
  have h0 := congrFun (h c) ValueIdx.ix0
  dsimp only [Cert.Pre_finite_inputs.fn, Cert.Pre_finite_inputs.fn_part1, Cert.Pre_finite_inputs.fn_part2] at h0
  obtain ⟨h0, e11⟩ := and_at _ _ _ h0
  obtain ⟨h0, e10⟩ := and_at _ _ _ h0
  obtain ⟨h0, e9⟩ := and_at _ _ _ h0
  obtain ⟨h0, e8⟩ := and_at _ _ _ h0
  obtain ⟨h0, e7⟩ := and_at _ _ _ h0
  obtain ⟨h0, e6⟩ := and_at _ _ _ h0
  obtain ⟨h0, e5⟩ := and_at _ _ _ h0
  obtain ⟨h0, e4⟩ := and_at _ _ _ h0
  obtain ⟨e0, e3⟩ := and_at _ _ _ h0
  exact ⟨real_of_all _ _ _ _ e0, real_of_all _ _ _ _ e3, real_of_all _ _ _ _ e4, real_of_all _ _ _ _ e5,
    real_of_all _ _ _ _ e6, real_of_all _ _ _ _ e7, real_of_all _ _ _ _ e8, real_of_all _ _ _ _ e9,
    real_of_all _ _ _ _ e10, real_of_all _ _ _ _ e11⟩

end Cert.FiniteInputs

end
-- ==== Proof.RefRunOps.lean ====
/-
  The reference program's run, read as a straight line of host operations.

  The reference computes three layers, each a sparse convolution (row lookup, one 64 x 64 product per offset,
  scatter-add into zeros) followed by a normalisation over the 100000 rows (mean, two-pass variance, scale, shift)
  and a positive part.  Its variance and its positive part are module-local functions; a call executes the callee's
  operations on the caller's buffers, so the whole program is ONE list of 210 operations, 70 a layer, each writing a
  buffer of its own.  The list is cut where the mathematics cuts it — a convolution's 23 operations, then a
  normalisation's 47 — and, because the program is stated in three consecutive pieces whose ends fall inside layers two
  and three, once more at those two ends: eight consecutive stretches in all.
-/
import proofs.«110267_j20564303414103_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Layer one's convolution: wrap the row numbers, look the rows up, multiply by the offsets' matrices, scatter-add into zeros. -/
abbrev opsA1 : List (HloOp τ sig (Elt F)) :=
  [ StableHlo.nullary main_c (constantI S_ 32 0#32),
    StableHlo.unary main_c main_v0 (broadcastInDim S27x50000 ![] bcast_S_S27x50000 : (⟨S_, .i32⟩ : BufTy).Contents (Elt F) → (⟨S27x50000, .i32⟩ : BufTy).Contents (Elt F)),
    StableHlo.binary main_arg1 main_v0 main_v1 (cmpi .slt : (⟨S27x50000, .i32⟩ : BufTy).Contents (Elt F) → (⟨S27x50000, .i32⟩ : BufTy).Contents (Elt F) → (⟨S27x50000, .i1⟩ : BufTy).Contents (Elt F)),
    StableHlo.nullary main_c_0 (constantI S_ 32 100000#32),
    StableHlo.unary main_c_0 main_v2 (broadcastInDim S27x50000 ![] bcast_S_S27x50000 : (⟨S_, .i32⟩ : BufTy).Contents (Elt F) → (⟨S27x50000, .i32⟩ : BufTy).Contents (Elt F)),
    StableHlo.binary main_arg1 main_v2 main_v3 (addi : (⟨S27x50000, .i32⟩ : BufTy).Contents (Elt F) → (⟨S27x50000, .i32⟩ : BufTy).Contents (Elt F) → (⟨S27x50000, .i32⟩ : BufTy).Contents (Elt F)),
    StableHlo.ternary main_v1 main_v3 main_arg1 main_v4 (select : (⟨S27x50000, .i1⟩ : BufTy).Contents (Elt F) → (⟨S27x50000, .i32⟩ : BufTy).Contents (Elt F) → (⟨S27x50000, .i32⟩ : BufTy).Contents (Elt F) → (⟨S27x50000, .i32⟩ : BufTy).Contents (Elt F)),
    StableHlo.unary main_v4 main_v5 (broadcastInDim S27x50000x1 ![0, 1] bcast_S27x50000_S27x50000x1_0_1 : (⟨S27x50000, .i32⟩ : BufTy).Contents (Elt F) → (⟨S27x50000x1, .i32⟩ : BufTy).Contents (Elt F)),
    StableHlo.binary main_arg0 main_v5 main_v6 ((fun x i => Host.gather gather_S100000x64_S27x50000x1_S27x50000x64_2_0_n_n_0_2_164 x i) : (⟨S100000x64, .f32⟩ : BufTy).Contents (Elt F) → (⟨S27x50000x1, .i32⟩ : BufTy).Contents (Elt F) → (⟨S27x50000x64, .f32⟩ : BufTy).Contents (Elt F)),
    StableHlo.binary main_v6 main_arg3 main_v7 ((fun l r => Host.dotGeneral dot_S27x50000x64_S27x64x64_S27x50000x64_2_1_1_2_0_0 none l r) : (⟨S27x50000x64, .f32⟩ : BufTy).Contents (Elt F) → (⟨S27x64x64, .f32⟩ : BufTy).Contents (Elt F) → (⟨S27x50000x64, .f32⟩ : BufTy).Contents (Elt F)),
    StableHlo.nullary main_cst (constant S_ .f32 0x00000000#32),
    StableHlo.unary main_cst main_v8 (broadcastInDim S100000x64 ![] bcast_S_S100000x64 : (⟨S_, .f32⟩ : BufTy).Contents (Elt F) → (⟨S100000x64, .f32⟩ : BufTy).Contents (Elt F)),
    StableHlo.reshape main_arg2 main_v9 rfl shapeCasts_S27x50000_S1350000,
    StableHlo.reshape main_v7 main_v10 rfl shapeCasts_S27x50000x64_S1350000x64,
    StableHlo.nullary main_c_1 (constantI S_ 32 0#32),
    StableHlo.unary main_c_1 main_v11 (broadcastInDim S1350000 ![] bcast_S_S1350000 : (⟨S_, .i32⟩ : BufTy).Contents (Elt F) → (⟨S1350000, .i32⟩ : BufTy).Contents (Elt F)),
    StableHlo.binary main_v9 main_v11 main_v12 (cmpi .slt : (⟨S1350000, .i32⟩ : BufTy).Contents (Elt F) → (⟨S1350000, .i32⟩ : BufTy).Contents (Elt F) → (⟨S1350000, .i1⟩ : BufTy).Contents (Elt F)),
    StableHlo.nullary main_c_2 (constantI S_ 32 100000#32),
    StableHlo.unary main_c_2 main_v13 (broadcastInDim S1350000 ![] bcast_S_S1350000 : (⟨S_, .i32⟩ : BufTy).Contents (Elt F) → (⟨S1350000, .i32⟩ : BufTy).Contents (Elt F)),
    StableHlo.binary main_v9 main_v13 main_v14 (addi : (⟨S1350000, .i32⟩ : BufTy).Contents (Elt F) → (⟨S1350000, .i32⟩ : BufTy).Contents (Elt F) → (⟨S1350000, .i32⟩ : BufTy).Contents (Elt F)),
    StableHlo.ternary main_v12 main_v14 main_v9 main_v15 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v15 main_v16 (broadcastInDim S1350000x1 ![0] bcast_S1350000_S1350000x1_0 : (⟨S1350000, .i32⟩ : BufTy).Contents (Elt F) → (⟨S1350000x1, .i32⟩ : BufTy).Contents (Elt F)),
    StableHlo.ternary main_v8 main_v16 main_v10 main_v17 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)) ]

/-- Layer one's normalisation: column sums, mean, two-pass variance (the callee's operations and its callee's), scale, shift, positive part. -/
abbrev opsA2 : List (HloOp τ sig (Elt F)) :=
  [ StableHlo.nullary main_cst_3 (constant S_ .f32 0x00000000#32),
    StableHlo.binary main_v17 main_cst_3 main_v18 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_4 (constant S_ .f32 0x47C35000#32),
    StableHlo.unary main_cst_4 main_v19 (broadcastInDim S64 ![] bcast_S_S64 : (⟨S_, .f32⟩ : BufTy).Contents (Elt F) → (⟨S64, .f32⟩ : BufTy).Contents (Elt F)),
    StableHlo.binary main_v18 main_v19 main_v20 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (.of main_v17 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v17 : StableHlo.TRef sig ⟨S100000x64, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v20 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v23 main_v24 (subf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3727C5AC#32),
    StableHlo.unary main_cst_6 main_v25 (broadcastInDim S64 ![] bcast_S_S64 : (⟨S_, .f32⟩ : BufTy).Contents (Elt F) → (⟨S64, .f32⟩ : BufTy).Contents (Elt F)),
    StableHlo.binary main_v21 main_v25 main_v26 (addf : (⟨S64, .f32⟩ : BufTy).Contents (Elt F) → (⟨S64, .f32⟩ : BufTy).Contents (Elt F) → (⟨S64, .f32⟩ : BufTy).Contents (Elt F)),
    StableHlo.unary main_v26 main_v27 (Host.rsqrt : (⟨S64, .f32⟩ : BufTy).Contents (Elt F) → (⟨S64, .f32⟩ : BufTy).Contents (Elt F)),
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v29 main_v30 (mulf : (⟨S100000x64, .f32⟩ : BufTy).Contents (Elt F) → (⟨S100000x64, .f32⟩ : BufTy).Contents (Elt F) → (⟨S100000x64, .f32⟩ : BufTy).Contents (Elt F)),
    StableHlo.unary main_arg6 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v32 main_v33 (mulf : (⟨S100000x64, .f32⟩ : BufTy).Contents (Elt F) → (⟨S100000x64, .f32⟩ : BufTy).Contents (Elt F) → (⟨S100000x64, .f32⟩ : BufTy).Contents (Elt F)),
    StableHlo.unary main_arg7 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v35 main_v36 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v36 : StableHlo.TRef sig ⟨S100000x64, .f32⟩) main_call1.v0 main_call1.v1 maximumf ]

/-- Layer two's convolution up to the flattened output row numbers (the program's first piece ends here). -/
abbrev opsB : List (HloOp τ sig (Elt F)) :=
  [ StableHlo.nullary main_c_7 (constantI S_ 32 0#32),
    StableHlo.unary main_c_7 main_v38 (broadcastInDim S27x50000 ![] bcast_S_S27x50000 : (⟨S_, .i32⟩ : BufTy).Contents (Elt F) → (⟨S27x50000, .i32⟩ : BufTy).Contents (Elt F)),
    StableHlo.binary main_arg1 main_v38 main_v39 (cmpi .slt : (⟨S27x50000, .i32⟩ : BufTy).Contents (Elt F) → (⟨S27x50000, .i32⟩ : BufTy).Contents (Elt F) → (⟨S27x50000, .i1⟩ : BufTy).Contents (Elt F)),
    StableHlo.nullary main_c_8 (constantI S_ 32 100000#32),
    StableHlo.unary main_c_8 main_v40 (broadcastInDim S27x50000 ![] bcast_S_S27x50000 : (⟨S_, .i32⟩ : BufTy).Contents (Elt F) → (⟨S27x50000, .i32⟩ : BufTy).Contents (Elt F)),
    StableHlo.binary main_arg1 main_v40 main_v41 (addi : (⟨S27x50000, .i32⟩ : BufTy).Contents (Elt F) → (⟨S27x50000, .i32⟩ : BufTy).Contents (Elt F) → (⟨S27x50000, .i32⟩ : BufTy).Contents (Elt F)),
    StableHlo.ternary main_v39 main_v41 main_arg1 main_v42 (select : (⟨S27x50000, .i1⟩ : BufTy).Contents (Elt F) → (⟨S27x50000, .i32⟩ : BufTy).Contents (Elt F) → (⟨S27x50000, .i32⟩ : BufTy).Contents (Elt F) → (⟨S27x50000, .i32⟩ : BufTy).Contents (Elt F)),
    StableHlo.unary main_v42 main_v43 (broadcastInDim S27x50000x1 ![0, 1] bcast_S27x50000_S27x50000x1_0_1 : (⟨S27x50000, .i32⟩ : BufTy).Contents (Elt F) → (⟨S27x50000x1, .i32⟩ : BufTy).Contents (Elt F)),
    StableHlo.binary main_v37 main_v43 main_v44 ((fun x i => Host.gather gather_S100000x64_S27x50000x1_S27x50000x64_2_0_n_n_0_2_164 x i) : (⟨S100000x64, .f32⟩ : BufTy).Contents (Elt F) → (⟨S27x50000x1, .i32⟩ : BufTy).Contents (Elt F) → (⟨S27x50000x64, .f32⟩ : BufTy).Contents (Elt F)),
    StableHlo.binary main_v44 main_arg4 main_v45 ((fun l r => Host.dotGeneral dot_S27x50000x64_S27x64x64_S27x50000x64_2_1_1_2_0_0 none l r) : (⟨S27x50000x64, .f32⟩ : BufTy).Contents (Elt F) → (⟨S27x64x64, .f32⟩ : BufTy).Contents (Elt F) → (⟨S27x50000x64, .f32⟩ : BufTy).Contents (Elt F)),
    StableHlo.nullary main_cst_9 (constant S_ .f32 0x00000000#32),
    StableHlo.unary main_cst_9 main_v46 (broadcastInDim S100000x64 ![] bcast_S_S100000x64 : (⟨S_, .f32⟩ : BufTy).Contents (Elt F) → (⟨S100000x64, .f32⟩ : BufTy).Contents (Elt F)),
    StableHlo.reshape main_arg2 main_v47 rfl shapeCasts_S27x50000_S1350000 ]

/-- The rest of layer two's convolution: flatten the products, wrap the output row numbers, scatter-add. -/
abbrev opsC1 : List (HloOp τ sig (Elt F)) :=
  [ StableHlo.reshape main_v45 main_v48 rfl shapeCasts_S27x50000x64_S1350000x64,
    StableHlo.nullary main_c_10 (constantI S_ 32 0#32),
    StableHlo.unary main_c_10 main_v49 (broadcastInDim S1350000 ![] bcast_S_S1350000 : (⟨S_, .i32⟩ : BufTy).Contents (Elt F) → (⟨S1350000, .i32⟩ : BufTy).Contents (Elt F)),
    StableHlo.binary main_v47 main_v49 main_v50 (cmpi .slt : (⟨S1350000, .i32⟩ : BufTy).Contents (Elt F) → (⟨S1350000, .i32⟩ : BufTy).Contents (Elt F) → (⟨S1350000, .i1⟩ : BufTy).Contents (Elt F)),
    StableHlo.nullary main_c_11 (constantI S_ 32 100000#32),
    StableHlo.unary main_c_11 main_v51 (broadcastInDim S1350000 ![] bcast_S_S1350000 : (⟨S_, .i32⟩ : BufTy).Contents (Elt F) → (⟨S1350000, .i32⟩ : BufTy).Contents (Elt F)),
    StableHlo.binary main_v47 main_v51 main_v52 (addi : (⟨S1350000, .i32⟩ : BufTy).Contents (Elt F) → (⟨S1350000, .i32⟩ : BufTy).Contents (Elt F) → (⟨S1350000, .i32⟩ : BufTy).Contents (Elt F)),
    StableHlo.ternary main_v50 main_v52 main_v47 main_v53 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v53 main_v54 (broadcastInDim S1350000x1 ![0] bcast_S1350000_S1350000x1_0 : (⟨S1350000, .i32⟩ : BufTy).Contents (Elt F) → (⟨S1350000x1, .i32⟩ : BufTy).Contents (Elt F)),
    StableHlo.ternary main_v46 main_v54 main_v48 main_v55 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)) ]

/-- Layer two's normalisation. -/
abbrev opsC2 : List (HloOp τ sig (Elt F)) :=
  [ StableHlo.nullary main_cst_12 (constant S_ .f32 0x00000000#32),
    StableHlo.binary main_v55 main_cst_12 main_v56 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_13 (constant S_ .f32 0x47C35000#32),
    StableHlo.unary main_cst_13 main_v57 (broadcastInDim S64 ![] bcast_S_S64 : (⟨S_, .f32⟩ : BufTy).Contents (Elt F) → (⟨S64, .f32⟩ : BufTy).Contents (Elt F)),
    StableHlo.binary main_v56 main_v57 main_v58 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call2.cst (constant S_ .f32 0x00000000#32),
    StableHlo.TRef.binary (.of main_v55 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v55 : StableHlo.TRef sig ⟨S100000x64, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v58 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v61 main_v62 (subf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3727C5AC#32),
    StableHlo.unary main_cst_15 main_v63 (broadcastInDim S64 ![] bcast_S_S64 : (⟨S_, .f32⟩ : BufTy).Contents (Elt F) → (⟨S64, .f32⟩ : BufTy).Contents (Elt F)),
    StableHlo.binary main_v59 main_v63 main_v64 (addf : (⟨S64, .f32⟩ : BufTy).Contents (Elt F) → (⟨S64, .f32⟩ : BufTy).Contents (Elt F) → (⟨S64, .f32⟩ : BufTy).Contents (Elt F)),
    StableHlo.unary main_v64 main_v65 (Host.rsqrt : (⟨S64, .f32⟩ : BufTy).Contents (Elt F) → (⟨S64, .f32⟩ : BufTy).Contents (Elt F)),
    StableHlo.unary main_v65 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v67 main_v68 (mulf : (⟨S100000x64, .f32⟩ : BufTy).Contents (Elt F) → (⟨S100000x64, .f32⟩ : BufTy).Contents (Elt F) → (⟨S100000x64, .f32⟩ : BufTy).Contents (Elt F)),
    StableHlo.unary main_arg8 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (mulf : (⟨S100000x64, .f32⟩ : BufTy).Contents (Elt F) → (⟨S100000x64, .f32⟩ : BufTy).Contents (Elt F) → (⟨S100000x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v73 main_v74 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v74 : StableHlo.TRef sig ⟨S100000x64, .f32⟩) main_call3.v0 main_call3.v1 maximumf ]

/-- Layer three's convolution. -/
abbrev opsD1 : List (HloOp τ sig (Elt F)) :=
  [ StableHlo.nullary main_c_16 (constantI S_ 32 0#32),
    StableHlo.unary main_c_16 main_v76 (broadcastInDim S27x50000 ![] bcast_S_S27x50000 : (⟨S_, .i32⟩ : BufTy).Contents (Elt F) → (⟨S27x50000, .i32⟩ : BufTy).Contents (Elt F)),
    StableHlo.binary main_arg1 main_v76 main_v77 (cmpi .slt : (⟨S27x50000, .i32⟩ : BufTy).Contents (Elt F) → (⟨S27x50000, .i32⟩ : BufTy).Contents (Elt F) → (⟨S27x50000, .i1⟩ : BufTy).Contents (Elt F)),
    StableHlo.nullary main_c_17 (constantI S_ 32 100000#32),
    StableHlo.unary main_c_17 main_v78 (broadcastInDim S27x50000 ![] bcast_S_S27x50000 : (⟨S_, .i32⟩ : BufTy).Contents (Elt F) → (⟨S27x50000, .i32⟩ : BufTy).Contents (Elt F)),
    StableHlo.binary main_arg1 main_v78 main_v79 (addi : (⟨S27x50000, .i32⟩ : BufTy).Contents (Elt F) → (⟨S27x50000, .i32⟩ : BufTy).Contents (Elt F) → (⟨S27x50000, .i32⟩ : BufTy).Contents (Elt F)),
    StableHlo.ternary main_v77 main_v79 main_arg1 main_v80 (select : (⟨S27x50000, .i1⟩ : BufTy).Contents (Elt F) → (⟨S27x50000, .i32⟩ : BufTy).Contents (Elt F) → (⟨S27x50000, .i32⟩ : BufTy).Contents (Elt F) → (⟨S27x50000, .i32⟩ : BufTy).Contents (Elt F)),
    StableHlo.unary main_v80 main_v81 (broadcastInDim S27x50000x1 ![0, 1] bcast_S27x50000_S27x50000x1_0_1 : (⟨S27x50000, .i32⟩ : BufTy).Contents (Elt F) → (⟨S27x50000x1, .i32⟩ : BufTy).Contents (Elt F)),
    StableHlo.binary main_v75 main_v81 main_v82 ((fun x i => Host.gather gather_S100000x64_S27x50000x1_S27x50000x64_2_0_n_n_0_2_164 x i) : (⟨S100000x64, .f32⟩ : BufTy).Contents (Elt F) → (⟨S27x50000x1, .i32⟩ : BufTy).Contents (Elt F) → (⟨S27x50000x64, .f32⟩ : BufTy).Contents (Elt F)),
    StableHlo.binary main_v82 main_arg5 main_v83 ((fun l r => Host.dotGeneral dot_S27x50000x64_S27x64x64_S27x50000x64_2_1_1_2_0_0 none l r) : (⟨S27x50000x64, .f32⟩ : BufTy).Contents (Elt F) → (⟨S27x64x64, .f32⟩ : BufTy).Contents (Elt F) → (⟨S27x50000x64, .f32⟩ : BufTy).Contents (Elt F)),
    StableHlo.nullary main_cst_18 (constant S_ .f32 0x00000000#32),
    StableHlo.unary main_cst_18 main_v84 (broadcastInDim S100000x64 ![] bcast_S_S100000x64 : (⟨S_, .f32⟩ : BufTy).Contents (Elt F) → (⟨S100000x64, .f32⟩ : BufTy).Contents (Elt F)),
    StableHlo.reshape main_arg2 main_v85 rfl shapeCasts_S27x50000_S1350000,
    StableHlo.reshape main_v83 main_v86 rfl shapeCasts_S27x50000x64_S1350000x64,
    StableHlo.nullary main_c_19 (constantI S_ 32 0#32),
    StableHlo.unary main_c_19 main_v87 (broadcastInDim S1350000 ![] bcast_S_S1350000 : (⟨S_, .i32⟩ : BufTy).Contents (Elt F) → (⟨S1350000, .i32⟩ : BufTy).Contents (Elt F)),
    StableHlo.binary main_v85 main_v87 main_v88 (cmpi .slt : (⟨S1350000, .i32⟩ : BufTy).Contents (Elt F) → (⟨S1350000, .i32⟩ : BufTy).Contents (Elt F) → (⟨S1350000, .i1⟩ : BufTy).Contents (Elt F)),
    StableHlo.nullary main_c_20 (constantI S_ 32 100000#32),
    StableHlo.unary main_c_20 main_v89 (broadcastInDim S1350000 ![] bcast_S_S1350000 : (⟨S_, .i32⟩ : BufTy).Contents (Elt F) → (⟨S1350000, .i32⟩ : BufTy).Contents (Elt F)),
    StableHlo.binary main_v85 main_v89 main_v90 (addi : (⟨S1350000, .i32⟩ : BufTy).Contents (Elt F) → (⟨S1350000, .i32⟩ : BufTy).Contents (Elt F) → (⟨S1350000, .i32⟩ : BufTy).Contents (Elt F)),
    StableHlo.ternary main_v88 main_v90 main_v85 main_v91 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v91 main_v92 (broadcastInDim S1350000x1 ![0] bcast_S1350000_S1350000x1_0 : (⟨S1350000, .i32⟩ : BufTy).Contents (Elt F) → (⟨S1350000x1, .i32⟩ : BufTy).Contents (Elt F)),
    StableHlo.ternary main_v84 main_v92 main_v86 main_v93 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)) ]

/-- The first three operations of layer three's normalisation (the program's second piece ends here). -/
abbrev opsD2 : List (HloOp τ sig (Elt F)) :=
  [ StableHlo.nullary main_cst_21 (constant S_ .f32 0x00000000#32),
    StableHlo.binary main_v93 main_cst_21 main_v94 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_22 (constant S_ .f32 0x47C35000#32) ]

/-- The rest of layer three's normalisation. -/
abbrev opsE : List (HloOp τ sig (Elt F)) :=
  [ StableHlo.unary main_cst_22 main_v95 (broadcastInDim S64 ![] bcast_S_S64 : (⟨S_, .f32⟩ : BufTy).Contents (Elt F) → (⟨S64, .f32⟩ : BufTy).Contents (Elt F)),
    StableHlo.binary main_v94 main_v95 main_v96 (Host.divf : (⟨S64, .f32⟩ : BufTy).Contents (Elt F) → (⟨S64, .f32⟩ : BufTy).Contents (Elt F) → (⟨S64, .f32⟩ : BufTy).Contents (Elt F)),
    StableHlo.nullary main_c_23 (constantI S_ 32 0#32),
    StableHlo.TRef.nullary main_call4.cst (constant S_ .f32 0x00000000#32),
    StableHlo.TRef.binary (.of main_v93 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v93 : StableHlo.TRef sig ⟨S100000x64, .f32⟩) main_call4.v4 main_call4.v5 subf,
    StableHlo.TRef.binary main_call4.v5 main_call4.v5 main_call4.v6 mulf,
    StableHlo.TRef.unary (.of main_c_23 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v96 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v99 main_v100 (subf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3727C5AC#32),
    StableHlo.unary main_cst_24 main_v101 (broadcastInDim S64 ![] bcast_S_S64 : (⟨S_, .f32⟩ : BufTy).Contents (Elt F) → (⟨S64, .f32⟩ : BufTy).Contents (Elt F)),
    StableHlo.binary main_v97 main_v101 main_v102 (addf : (⟨S64, .f32⟩ : BufTy).Contents (Elt F) → (⟨S64, .f32⟩ : BufTy).Contents (Elt F) → (⟨S64, .f32⟩ : BufTy).Contents (Elt F)),
    StableHlo.unary main_v102 main_v103 (Host.rsqrt : (⟨S64, .f32⟩ : BufTy).Contents (Elt F) → (⟨S64, .f32⟩ : BufTy).Contents (Elt F)),
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v105 main_v106 (mulf : (⟨S100000x64, .f32⟩ : BufTy).Contents (Elt F) → (⟨S100000x64, .f32⟩ : BufTy).Contents (Elt F) → (⟨S100000x64, .f32⟩ : BufTy).Contents (Elt F)),
    StableHlo.unary main_arg10 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_arg11 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v112 : StableHlo.TRef sig ⟨S100000x64, .f32⟩) main_call5.v0 main_call5.v1 maximumf ]

/-- The 210 operations, in order. -/
abbrev ops : List (HloOp τ sig (Elt F)) :=
  (opsA1 ++ (opsA2 ++ opsB)) ++ ((opsC1 ++ (opsC2 ++ (opsD1 ++ opsD2))) ++ opsE)

set_option maxRecDepth 8192 in
set_option maxHeartbeats 4000000 in
/-- The program's first piece is layer one and the start of layer two's convolution: a call is its callee's operations. -/
theorem main_part0_eq (c : Dev nD) : main_part0 (F := F) c = seq (opsA1 ++ (opsA2 ++ opsB)) := rfl

set_option maxRecDepth 8192 in
set_option maxHeartbeats 4000000 in
/-- The program's second piece: the rest of layer two, and layer three up to the divisor of its mean. -/
theorem main_part1_eq (c : Dev nD) : main_part1 (F := F) c = seq (opsC1 ++ (opsC2 ++ (opsD1 ++ opsD2))) := rfl

set_option maxRecDepth 8192 in
set_option maxHeartbeats 4000000 in
/-- The program's third piece: the rest of layer three. -/
theorem main_part2_eq (c : Dev nD) : main_part2 (F := F) c = seq opsE := rfl

/-- The program is the straight line of its 210 operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA1_sub : (opsA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem opsA2_sub : (opsA2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub ..⟩
theorem opsC1_sub : (opsC1 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., ternary_bufs_sub ..⟩
theorem opsC2_sub : (opsC2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsD1_sub : (opsD1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩
theorem opsD2_sub : (opsD2 : List (HloOp τ sig (Elt F))).Forall fun op => op.bufs ⊆ tcRefs τ sig :=
  ⟨nullary_bufs_sub .., binary_bufs_sub .., nullary_bufs_sub ..⟩
theorem opsE_sub : (opsE : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with (h | h | h) | (h | h | h | h) | h
    exacts [List.forall_iff_forall_mem.mp opsA1_sub op h, List.forall_iff_forall_mem.mp opsA2_sub op h,
      List.forall_iff_forall_mem.mp opsB_sub op h, List.forall_iff_forall_mem.mp opsC1_sub op h,
      List.forall_iff_forall_mem.mp opsC2_sub op h, List.forall_iff_forall_mem.mp opsD1_sub op h,
      List.forall_iff_forall_mem.mp opsD2_sub op h, List.forall_iff_forall_mem.mp opsE_sub op h]

/-- No operation of the line leaves a result undetermined. -/
theorem ops_fresh : ∀ op ∈ (ops : List (HloOp τ sig (Elt F))), op.fresh = ∅ := by
  intro op h
  simp only [ops, List.mem_append] at h
  rcases h with (h | h | h) | (h | h | h | h) | h <;>
    ((repeat (cases h with | head => rfl | tail _ h => ?_)); exact nomatch h)

/-- Every weakly fair execution of the reference terminates, and every buffer then holds what the 210 operations,
    applied in order to the launch contents, leave in it. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRunNet.lean ====
/-
  The reference's three layers as functions of arrays, over any float values.

  One layer: a row of the input for each of 27 x 50000 (offset, edge) pairs (row numbers below zero raised by the row
  count), the rows of offset k multiplied by the 64 x 64 matrix of offset k, every product row added into the output
  row its edge names, starting from zeros; then every column normalised by its mean and by its variance taken in two
  passes — centre, square, sum, divide, kept where the divisor is positive —, scaled, shifted, and cut off at zero.
  Each function below is the composition of the host operations in the order the program applies them.
-/
import proofs.«110267_j20564303414103_1_alg».proof.Proof.Gen.ReferenceIdeal
import Idealize.ShloMosaic.PureOps

noncomputable section

namespace Cert.ReferenceIdeal.RefRun

open Cert.ReferenceIdeal Cert.ReferenceIdeal.Facts₀ Idealize.ShloMosaic

variable {F : FTy → Type} [FloatOps F]

/-- The row lookup: row numbers below zero are raised by 100000, then whole rows are looked up. -/
def gathF (x : FVec F S100000x64 .f32) (i : IVec S27x50000 32) : FVec F S27x50000x64 .f32 :=
  Host.gather gather_S100000x64_S27x50000x1_S27x50000x64_2_0_n_n_0_2_164 x
    (broadcastInDim S27x50000x1 ![0, 1] bcast_S27x50000_S27x50000x1_0_1
      (select (cmpi .slt i (broadcastInDim S27x50000 ![] bcast_S_S27x50000 (constantI S_ 32 0#32)))
        (addi i (broadcastInDim S27x50000 ![] bcast_S_S27x50000 (constantI S_ 32 100000#32))) i))

/-- The product of every looked-up row with its offset's matrix. -/
def mmF (g : FVec F S27x50000x64 .f32) (w : FVec F S27x64x64 .f32) : FVec F S27x50000x64 .f32 :=
  Host.dotGeneral dot_S27x50000x64_S27x64x64_S27x50000x64_2_1_1_2_0_0 none g w

/-- The flattened output row numbers, below zero raised by 100000, as a column. -/
def scatIdxF (o : IVec S27x50000 32) : IVec S1350000x1 32 :=
  broadcastInDim S1350000x1 ![0] bcast_S1350000_S1350000x1_0
    (select (cmpi .slt (shapeCast S1350000 o shapeCasts_S27x50000_S1350000) (broadcastInDim S1350000 ![] bcast_S_S1350000 (constantI S_ 32 0#32)))
      (addi (shapeCast S1350000 o shapeCasts_S27x50000_S1350000) (broadcastInDim S1350000 ![] bcast_S_S1350000 (constantI S_ 32 100000#32)))
      (shapeCast S1350000 o shapeCasts_S27x50000_S1350000))

/-- The scatter-add: every product row added into the row of a zero array that its edge names. -/
def scatF (y : FVec F S27x50000x64 .f32) (o : IVec S27x50000 32) : FVec F S100000x64 .f32 :=
  Host.scatterAdd scatter_S100000x64_S1350000x1_S1350000x64_1_0_0_1
    (broadcastInDim S100000x64 ![] bcast_S_S100000x64 (constant (F := F) S_ .f32 0x00000000#32))
    (scatIdxF o)
    (shapeCast S1350000x64 y shapeCasts_S27x50000x64_S1350000x64)

/-- One sparse convolution. -/
def convF (x : FVec F S100000x64 .f32) (i o : IVec S27x50000 32) (w : FVec F S27x64x64 .f32) : FVec F S100000x64 .f32 :=
  scatF (mmF (gathF x i) w) o

/-- The sum over the rows, from zero. -/
def sumF (x : FVec F S100000x64 .f32) : FVec F S64 .f32 :=
  Host.reduceAdd x (constant (F := F) S_ .f32 0x00000000#32) reducesTo_S100000x64_S64_d0 h_S_

/-- The mean: the sum over the rows divided by 100000. -/
def meanF (x : FVec F S100000x64 .f32) : FVec F S64 .f32 :=
  Host.divf (sumF x) (broadcastInDim S64 ![] bcast_S_S64 (constant (F := F) S_ .f32 0x47C35000#32))

/-- A per-channel vector laid over all 100000 rows. -/
def overRowsF (v : FVec F S64 .f32) : FVec F S100000x64 .f32 :=
  broadcastInDim S100000x64 ![0, 1] bcast_S1x64_S100000x64_0_1 (broadcastInDim S1x64 ![1] bcast_S64_S1x64_1 v)

/-- 100000 minus the (zero) correction: the divisor of the variance. -/
def divisorF : FVec F S_ .f32 :=
  subf (constant (F := F) S_ .f32 0x47C35000#32) (sitofp .f32 (constantI S_ 32 0#32))

/-- The input centred by its mean, the mean taken as a 1 x 64 row. -/
def centredF (x : FVec F S100000x64 .f32) : FVec F S100000x64 .f32 :=
  subf x (broadcastInDim S100000x64 ![0, 1] bcast_S1x64_S100000x64_0_1
    (Host.divf (broadcastInDim S1x64 ![1] bcast_S64_S1x64_1 (sumF x))
      (broadcastInDim S1x64 ![] bcast_S_S1x64 (constant (F := F) S_ .f32 0x47C35000#32))))

/-- The variance in two passes: centre, square, sum, divide by the divisor; kept where the divisor is positive. -/
def varF (x : FVec F S100000x64 .f32) : FVec F S64 .f32 :=
  select (broadcastInDim S64 ![] bcast_S_S64 (cmpf .ogt (divisorF (F := F)) (constant (F := F) S_ .f32 0x00000000#32)))
    (Host.divf
      (Host.reduceAdd (mulf (centredF x) (centredF x)) (constant (F := F) S_ .f32 0x00000000#32) reducesTo_S100000x64_S64_d0 h_S_)
      (broadcastInDim S64 ![] bcast_S_S64 (divisorF (F := F))))
    (broadcastInDim S64 ![] bcast_S_S64 (id (constant (F := F) S_ .f32 0x7FC00000#32)))

/-- Normalise with the two-pass variance, scale, shift, positive part. -/
def bnF (x : FVec F S100000x64 .f32) (γ β : FVec F S64 .f32) : FVec F S100000x64 .f32 :=
  maximumf
    (addf
      (mulf
        (mulf (subf x (overRowsF (meanF x)))
          (overRowsF (Host.rsqrt (addf (varF x) (broadcastInDim S64 ![] bcast_S_S64 (constant (F := F) S_ .f32 0x3727C5AC#32))))))
        (overRowsF γ))
      (overRowsF β))
    (broadcastInDim S100000x64 ![] bcast_S_S100000x64 (constant (F := F) S_ .f32 0x00000000#32))

/-- One layer: convolution, then normalisation. -/
def layerF (x : FVec F S100000x64 .f32) (i o : IVec S27x50000 32) (w : FVec F S27x64x64 .f32) (γ β : FVec F S64 .f32) :
    FVec F S100000x64 .f32 :=
  bnF (convF x i o w) γ β

/-- The three layers. -/
def netF (x : FVec F S100000x64 .f32) (i o : IVec S27x50000 32) (w1 w2 w3 : FVec F S27x64x64 .f32)
    (g1 b1 g2 b2 g3 b3 : FVec F S64 .f32) : FVec F S100000x64 .f32 :=
  layerF (layerF (layerF x i o w1 g1 b1) i o w2 g2 b2) i o w3 g3 b3

end Cert.ReferenceIdeal.RefRun

end
-- ==== Proof.RefRunConv.lean ====
/-
  What a convolution's stretch of operations leaves in its output buffer.

  Reading the 23 operations back from the scatter-add: the zero array, the flattened and wrapped output row numbers,
  and the flattened products of the looked-up rows with the offsets' matrices.  Composed, that is the convolution of
  the contents found in the input buffer, the two row-number buffers and the layer's weights — for ANY contents the
  stretch starts from, which is what lets one equation serve the launch contents in layer one and the contents the
  earlier layers left in layers two and three.
-/
import proofs.«110267_j20564303414103_1_alg».proof.Proof.RefRunOps
import proofs.«110267_j20564303414103_1_alg».proof.Proof.RefRunNet

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

set_option maxHeartbeats 1000000 in
/-- Layer one's convolution reads the features, the two row-number arrays and the first weights. -/
theorem conv1 (V : Valuation τ sig (Elt F)) :
    after opsA1 V (Proc.devRef .tc main_v17)
      = convF (V (Proc.devRef .tc main_arg0)) (V (Proc.devRef .tc main_arg1)) (V (Proc.devRef .tc main_arg2))
          (V (Proc.devRef .tc main_arg3)) := by
  simp only [opsA1]
  after_results_simp
  rfl

set_option maxHeartbeats 1000000 in
/-- Layer two's convolution reads layer one's output and the second weights. -/
theorem conv2 (V : Valuation τ sig (Elt F)) :
    after opsC1 (after opsB V) (Proc.devRef .tc main_v55)
      = convF (V (Proc.devRef .tc main_v37)) (V (Proc.devRef .tc main_arg1)) (V (Proc.devRef .tc main_arg2))
          (V (Proc.devRef .tc main_arg4)) := by
  simp only [opsB, opsC1]
  after_results_simp
  rfl

set_option maxHeartbeats 1000000 in
/-- Layer three's convolution reads layer two's output and the third weights. -/
theorem conv3 (V : Valuation τ sig (Elt F)) :
    after opsD1 V (Proc.devRef .tc main_v93)
      = convF (V (Proc.devRef .tc main_v75)) (V (Proc.devRef .tc main_arg1)) (V (Proc.devRef .tc main_arg2))
          (V (Proc.devRef .tc main_arg5)) := by
  simp only [opsD1]
  after_results_simp
  rfl

end Cert.ReferenceIdeal.RefRun

end
-- ==== Proof.LibTypedRefs.lean ====
/-
  A value carried to a buffer's own type and back.

  A host operation printed inside a module-local function (an outlined relu, a log-softmax) names its buffers by
  typed references: a reference together with the fact that its buffer has a stated type. The operation's function
  is then wrapped: each operand is carried from the buffer's type to the stated one, the result back. When such
  operations are composed, every intermediate value makes the round trip — stated type, buffer's type, stated type —
  and the round trip is the identity, for ANY typed reference, by taking the type fact apart. Rewriting with this
  one equation first leaves a composed term free of transports, which then meets the plain composition of the
  operations' functions syntactically; without it the comparison has to evaluate each buffer's type out of the
  program's buffer table.
-/
import Idealize.ShloMosaic.Lib.StableHlo

noncomputable section

namespace Idealize.ShloMosaic.TypedRefs

open Idealize.ShloMosaic Idealize.ShloMosaic.StableHlo

variable {sig : RefSig} {Val : EltTy → Type} {T : BufTy}

/-- A value of the stated type, carried to the buffer's type and back, is the value. -/
theorem ofBuf_toBuf (x : TRef sig T) (v : T.Contents Val) : x.ofBuf (x.toBuf v) = v := by
  obtain ⟨r, rfl, _, _⟩ := x; rfl

/-- A buffer's contents, carried to the stated type and back, are the contents. -/
theorem toBuf_ofBuf (x : TRef sig T) (v : x.ref.ty.Contents Val) : x.toBuf (x.ofBuf v) = v := by
  obtain ⟨r, rfl, _, _⟩ := x; rfl

end Idealize.ShloMosaic.TypedRefs

end
-- ==== Proof.RefRunBn.lean ====
/-
  What a normalisation's stretch of operations leaves in its output buffer.

  The 47 operations: the column sums and the mean; the variance function's 19 operations and the 3 of the selection
  it calls (sum again, centre with the mean kept as a 1 x 64 row, square, sum, divide by 100000 - 0, keep the quotient
  where that divisor is positive); then subtract the mean, multiply by the reciprocal root of variance plus epsilon,
  by the scale, add the shift, and take the maximum with zero (the positive-part function's 3 operations).  The
  callees state their operations at the tensor types of their own signatures and carry each value to its buffer's
  own type and back; between two of a callee's operations the round trip cancels, and at a literal buffer the
  carrying is the identity, so the composed term is the normalisation of the contents found in the input buffer, for
  any contents the stretch starts from.
-/
import proofs.«110267_j20564303414103_1_alg».proof.Proof.RefRunOps
import proofs.«110267_j20564303414103_1_alg».proof.Proof.RefRunNet
import proofs.«110267_j20564303414103_1_alg».proof.Proof.LibTypedRefs

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

set_option maxHeartbeats 4000000 in
/-- Layer one's normalisation reads the convolution's output and the first scale and shift. -/
theorem bn1 (V : Valuation τ sig (Elt F)) :
    after opsA2 V (Proc.devRef .tc main_v37)
      = bnF (V (Proc.devRef .tc main_v17)) (V (Proc.devRef .tc main_arg6)) (V (Proc.devRef .tc main_arg7)) := by
  simp only [opsA2]
  after_results_simp
  simp only [TypedRefs.ofBuf_toBuf, TypedRefs.toBuf_ofBuf]
  rfl

set_option maxHeartbeats 4000000 in
/-- Layer two's normalisation. -/
theorem bn2 (V : Valuation τ sig (Elt F)) :
    after opsC2 V (Proc.devRef .tc main_v75)
      = bnF (V (Proc.devRef .tc main_v55)) (V (Proc.devRef .tc main_arg8)) (V (Proc.devRef .tc main_arg9)) := by
  simp only [opsC2]
  after_results_simp
  simp only [TypedRefs.ofBuf_toBuf, TypedRefs.toBuf_ofBuf]
  rfl

set_option maxHeartbeats 4000000 in
/-- Layer three's normalisation (its first three operations end the program's second piece). -/
theorem bn3 (V : Valuation τ sig (Elt F)) :
    after opsE (after opsD2 V) (Proc.devRef .tc main_v113)
      = bnF (V (Proc.devRef .tc main_v93)) (V (Proc.devRef .tc main_arg10)) (V (Proc.devRef .tc main_arg11)) := by
  simp only [opsD2, opsE]
  after_results_simp
  simp only [TypedRefs.ofBuf_toBuf, TypedRefs.toBuf_ofBuf]
  rfl

end Cert.ReferenceIdeal.RefRun

end
-- ==== Proof.RefRunKeep.lean ====
/-
  Which buffers a stretch of operations leaves alone.

  Every operation writes exactly one buffer, its result's.  A buffer that is not among a stretch's results therefore
  holds after the stretch what it held before it: the arguments through the whole program, and a layer's output
  through the next layer's convolution.
-/
import proofs.«110267_j20564303414103_1_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The buffers stretch A1 writes, in order. -/
abbrev opsA1_W : List (Ref sig .tc) := [main_c, main_v0, main_v1, main_c_0, main_v2, main_v3, main_v4, main_v5, main_v6, main_v7, main_cst, main_v8, main_v9, main_v10, main_c_1, main_v11, main_v12, main_c_2, main_v13, main_v14, main_v15, main_v16, main_v17]

set_option maxRecDepth 8192 in
theorem opsA1_writes : (opsA1 : List (HloOp τ sig (Elt F))).Forall fun op =>
    op.writes ⊆ (opsA1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch A1 does not write keeps its contents through it. -/
theorem keepA1 (V : Valuation τ sig (Elt F)) (r : Ref sig .tc) (h : r ∉ opsA1_W) :
    after opsA1 V (Proc.devRef .tc r) = V (Proc.devRef .tc r) :=
  after_of_writes_sub opsA1 V opsA1_writes h

/-- The buffers stretch A2 writes, in order. -/
abbrev opsA2_W : List (Ref sig .tc) := [main_cst_3, main_v18, main_cst_4, main_v19, main_v20, main_c_5, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v21, main_v22, main_v23, main_v24, main_cst_6, main_v25, main_v26, main_v27, main_v28, main_v29, main_v30, main_v31, main_v32, main_v33, main_v34, main_v35, main_v36, main_call1_cst, main_call1_v0, main_v37]

set_option maxRecDepth 8192 in
theorem opsA2_writes : (opsA2 : List (HloOp τ sig (Elt F))).Forall fun op =>
    op.writes ⊆ (opsA2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch A2 does not write keeps its contents through it. -/
theorem keepA2 (V : Valuation τ sig (Elt F)) (r : Ref sig .tc) (h : r ∉ opsA2_W) :
    after opsA2 V (Proc.devRef .tc r) = V (Proc.devRef .tc r) :=
  after_of_writes_sub opsA2 V opsA2_writes h

/-- The buffers stretch B writes, in order. -/
abbrev opsB_W : List (Ref sig .tc) := [main_c_7, main_v38, main_v39, main_c_8, main_v40, main_v41, main_v42, main_v43, main_v44, main_v45, main_cst_9, main_v46, main_v47]

set_option maxRecDepth 8192 in
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch B does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- The buffers stretch C1 writes, in order. -/
abbrev opsC1_W : List (Ref sig .tc) := [main_v48, main_c_10, main_v49, main_v50, main_c_11, main_v51, main_v52, main_v53, main_v54, main_v55]

set_option maxRecDepth 8192 in
theorem opsC1_writes : (opsC1 : List (HloOp τ sig (Elt F))).Forall fun op =>
    op.writes ⊆ (opsC1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch C1 does not write keeps its contents through it. -/
theorem keepC1 (V : Valuation τ sig (Elt F)) (r : Ref sig .tc) (h : r ∉ opsC1_W) :
    after opsC1 V (Proc.devRef .tc r) = V (Proc.devRef .tc r) :=
  after_of_writes_sub opsC1 V opsC1_writes h

/-- The buffers stretch C2 writes, in order. -/
abbrev opsC2_W : List (Ref sig .tc) := [main_cst_12, main_v56, main_cst_13, main_v57, main_v58, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v59, main_v60, main_v61, main_v62, main_cst_15, main_v63, main_v64, main_v65, main_v66, main_v67, main_v68, main_v69, main_v70, main_v71, main_v72, main_v73, main_v74, main_call3_cst, main_call3_v0, main_v75]

set_option maxRecDepth 8192 in
theorem opsC2_writes : (opsC2 : List (HloOp τ sig (Elt F))).Forall fun op =>
    op.writes ⊆ (opsC2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch C2 does not write keeps its contents through it. -/
theorem keepC2 (V : Valuation τ sig (Elt F)) (r : Ref sig .tc) (h : r ∉ opsC2_W) :
    after opsC2 V (Proc.devRef .tc r) = V (Proc.devRef .tc r) :=
  after_of_writes_sub opsC2 V opsC2_writes h

/-- The buffers stretch D1 writes, in order. -/
abbrev opsD1_W : List (Ref sig .tc) := [main_c_16, main_v76, main_v77, main_c_17, main_v78, main_v79, main_v80, main_v81, main_v82, main_v83, main_cst_18, main_v84, main_v85, main_v86, main_c_19, main_v87, main_v88, main_c_20, main_v89, main_v90, main_v91, main_v92, main_v93]

set_option maxRecDepth 8192 in
theorem opsD1_writes : (opsD1 : List (HloOp τ sig (Elt F))).Forall fun op =>
    op.writes ⊆ (opsD1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch D1 does not write keeps its contents through it. -/
theorem keepD1 (V : Valuation τ sig (Elt F)) (r : Ref sig .tc) (h : r ∉ opsD1_W) :
    after opsD1 V (Proc.devRef .tc r) = V (Proc.devRef .tc r) :=
  after_of_writes_sub opsD1 V opsD1_writes h

/-- The buffers stretch D2 writes, in order. -/
abbrev opsD2_W : List (Ref sig .tc) := [main_cst_21, main_v94, main_cst_22]

set_option maxRecDepth 8192 in
theorem opsD2_writes : (opsD2 : List (HloOp τ sig (Elt F))).Forall fun op =>
    op.writes ⊆ (opsD2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch D2 does not write keeps its contents through it. -/
theorem keepD2 (V : Valuation τ sig (Elt F)) (r : Ref sig .tc) (h : r ∉ opsD2_W) :
    after opsD2 V (Proc.devRef .tc r) = V (Proc.devRef .tc r) :=
  after_of_writes_sub opsD2 V opsD2_writes h

/-- The buffers stretch E writes, in order. -/
abbrev opsE_W : List (Ref sig .tc) := [main_v95, main_v96, main_c_23, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v97, main_v98, main_v99, main_v100, main_cst_24, main_v101, main_v102, main_v103, main_v104, main_v105, main_v106, main_v107, main_v108, main_v109, main_v110, main_v111, main_v112, main_call5_cst, main_call5_v0, main_v113]

set_option maxRecDepth 8192 in
theorem opsE_writes : (opsE : List (HloOp τ sig (Elt F))).Forall fun op =>
    op.writes ⊆ (opsE_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch E does not write keeps its contents through it. -/
theorem keepE (V : Valuation τ sig (Elt F)) (r : Ref sig .tc) (h : r ∉ opsE_W) :
    after opsE V (Proc.devRef .tc r) = V (Proc.devRef .tc r) :=
  after_of_writes_sub opsE V opsE_writes h

end Cert.ReferenceIdeal.RefRun

end
-- ==== Proof.RefRun.lean ====
/-
  The reference's run: every weakly fair execution terminates with the result buffer at the three-layer network of
  the argument arrays, and the arguments as they were.

  The 210 operations run as eight consecutive stretches.  A layer is a convolution's stretch followed by a
  normalisation's, and leaves in its output buffer the layer function of what it found in its input buffer, in the
  two row-number buffers and in its own weights, scale and shift; none of those but the input is written by any
  operation, so each layer finds them as the launch left them, and finds in its input buffer what the layer before
  it left there.  Composing the three equations gives the network; the arguments are among no stretch's results.
-/
import proofs.«110267_j20564303414103_1_alg».proof.Proof.RefRunConv
import proofs.«110267_j20564303414103_1_alg».proof.Proof.RefRunBn
import proofs.«110267_j20564303414103_1_alg».proof.Proof.RefRunKeep

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The whole line, stretch after stretch. -/
theorem after_ops (V : Valuation τ sig (Elt F)) :
    after ops V
      = after opsE (after opsD2 (after opsD1 (after opsC2 (after opsC1 (after opsB (after opsA2 (after opsA1 V))))))) := by
  simp only [ops, after_append]

/-- Layer one, from any contents: the layer function of the features, the row numbers, and the first parameters. -/
theorem layer1 (V : Valuation τ sig (Elt F)) :
    after opsA2 (after opsA1 V) (Proc.devRef .tc main_v37)
      = layerF (V (Proc.devRef .tc main_arg0)) (V (Proc.devRef .tc main_arg1)) (V (Proc.devRef .tc main_arg2))
          (V (Proc.devRef .tc main_arg3)) (V (Proc.devRef .tc main_arg6)) (V (Proc.devRef .tc main_arg7)) := by
  rw [bn1, conv1, keepA1 V main_arg6 (by decide), keepA1 V main_arg7 (by decide)]
  rfl

/-- Layer two, from any contents: it reads layer one's output buffer. -/
theorem layer2 (V : Valuation τ sig (Elt F)) :
    after opsC2 (after opsC1 (after opsB V)) (Proc.devRef .tc main_v75)
      = layerF (V (Proc.devRef .tc main_v37)) (V (Proc.devRef .tc main_arg1)) (V (Proc.devRef .tc main_arg2))
          (V (Proc.devRef .tc main_arg4)) (V (Proc.devRef .tc main_arg8)) (V (Proc.devRef .tc main_arg9)) := by
  rw [bn2, conv2, keepC1 _ main_arg8 (by decide), keepB V main_arg8 (by decide),
    keepC1 _ main_arg9 (by decide), keepB V main_arg9 (by decide)]
  rfl

/-- Layer three, from any contents: it reads layer two's output buffer. -/
theorem layer3 (V : Valuation τ sig (Elt F)) :
    after opsE (after opsD2 (after opsD1 V)) (Proc.devRef .tc main_v113)
      = layerF (V (Proc.devRef .tc main_v75)) (V (Proc.devRef .tc main_arg1)) (V (Proc.devRef .tc main_arg2))
          (V (Proc.devRef .tc main_arg5)) (V (Proc.devRef .tc main_arg10)) (V (Proc.devRef .tc main_arg11)) := by
  rw [bn3, conv3, keepD1 V main_arg10 (by decide), keepD1 V main_arg11 (by decide)]
  rfl

/-- A buffer layer one does not write keeps its contents through it. -/
theorem keepL1 (V : Valuation τ sig (Elt F)) (r : Ref sig .tc) (h : r ∉ opsA1_W ∧ r ∉ opsA2_W) :
    after opsA2 (after opsA1 V) (Proc.devRef .tc r) = V (Proc.devRef .tc r) :=
  (keepA2 _ r h.2).trans (keepA1 V r h.1)

/-- A buffer layer two does not write keeps its contents through it. -/
theorem keepL2 (V : Valuation τ sig (Elt F)) (r : Ref sig .tc) (h : r ∉ opsB_W ∧ r ∉ opsC1_W ∧ r ∉ opsC2_W) :
    after opsC2 (after opsC1 (after opsB V)) (Proc.devRef .tc r) = V (Proc.devRef .tc r) :=
  (keepC2 _ r h.2.2).trans ((keepC1 _ r h.2.1).trans (keepB V r h.1))

/-- A buffer layer three does not write keeps its contents through it. -/
theorem keepL3 (V : Valuation τ sig (Elt F)) (r : Ref sig .tc) (h : r ∉ opsD1_W ∧ r ∉ opsD2_W ∧ r ∉ opsE_W) :
    after opsE (after opsD2 (after opsD1 V)) (Proc.devRef .tc r) = V (Proc.devRef .tc r) :=
  (keepE _ r h.2.2).trans ((keepD2 _ r h.2.1).trans (keepD1 V r h.1))

/-- A buffer no operation writes keeps its contents through the whole line. -/
theorem kept (V : Valuation τ sig (Elt F)) (r : Ref sig .tc)
    (h : (r ∉ opsA1_W ∧ r ∉ opsA2_W) ∧ (r ∉ opsB_W ∧ r ∉ opsC1_W ∧ r ∉ opsC2_W) ∧ (r ∉ opsD1_W ∧ r ∉ opsD2_W ∧ r ∉ opsE_W)) :
    after ops V (Proc.devRef .tc r) = V (Proc.devRef .tc r) := by
  rw [after_ops, keepL3 _ r h.2.2, keepL2 _ r h.2.1, keepL1 V r h.1]

/-- The result buffer after the whole line, from any contents: the network of the argument buffers' contents. -/
theorem result_eq (V : Valuation τ sig (Elt F)) :
    after ops V (Proc.devRef .tc main_v113)
      = netF (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  rw [after_ops, layer3, layer2,
    keepL2 _ main_arg1 (by decide), keepL2 _ main_arg2 (by decide), keepL2 _ main_arg5 (by decide),
    keepL2 _ main_arg10 (by decide), keepL2 _ main_arg11 (by decide),
    layer1,
    keepL1 V main_arg1 (by decide), keepL1 V main_arg2 (by decide), keepL1 V main_arg4 (by decide),
    keepL1 V main_arg5 (by decide), keepL1 V main_arg8 (by decide), keepL1 V main_arg9 (by decide),
    keepL1 V main_arg10 (by decide), keepL1 V main_arg11 (by decide)]
  rfl

/-- On every device, for any float values, from any memory with zero counters: every weakly fair execution of the
    reference terminates with the result at the network of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113)
        = netF (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v113).trans (result_eq (launchContents m c)),
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide)),
      (h c main_arg11).trans (kept (launchContents m c) main_arg11 (by decide))⟩)
    (run_after m ρ)

end Cert.ReferenceIdeal.RefRun

end
-- ==== Proof.RefValue.lean ====
/-
  The reference's network is the specification's two-pass network.

  The specification writes one layer as: look the rows up, multiply by the offsets' matrices with the host's batched
  product, scatter-add into zeros, then normalise each column with the mean and the variance taken in two passes,
  scale, shift, positive part.  The reference's layer is the same operations in the same order; its lookup, product
  and scatter-add are described by records that differ from the specification's only in the proof that the
  dimension numbers are well formed.  So each function is the specification's by unfolding definitions, and the
  equality passes from the lookup up to the whole network by congruence.
-/
import proofs.«110267_j20564303414103_1_alg».proof.Proof.Spec
import proofs.«110267_j20564303414103_1_alg».proof.Proof.RefRun

noncomputable section

namespace Cert.ReferenceIdeal.RefValue

open Cert.ReferenceIdeal Cert.ReferenceIdeal.RefRun Idealize.ShloMosaic Idealize.ShloMosaic.TcCoe Idealize.SL.Sem

set_option maxHeartbeats 400000 in
/-- The row lookup is the specification's. -/
theorem gathF_eq (x : Cert.Spec.Feat) (i : Cert.Spec.Edge) : gathF (F := Ideal) x i = Cert.Spec.gath x i := rfl

set_option maxHeartbeats 400000 in
/-- The per-offset product is the specification's batched product. -/
theorem mmF_eq (g : Cert.Spec.Rows) (w : Cert.Spec.Wts) : mmF (F := Ideal) g w = Cert.Spec.mmR g w := rfl

set_option maxHeartbeats 400000 in
/-- The scatter-add is the specification's. -/
theorem scatF_eq (y : Cert.Spec.Rows) (o : Cert.Spec.Edge) : scatF (F := Ideal) y o = Cert.Spec.scat y o := rfl

set_option maxHeartbeats 400000 in
/-- The column sum is the specification's. -/
theorem sumF_eq (x : Cert.Spec.Feat) : sumF (F := Ideal) x = Cert.Spec.sumR x := rfl

set_option maxHeartbeats 400000 in
/-- The mean is the specification's. -/
theorem meanF_eq (x : Cert.Spec.Feat) : meanF (F := Ideal) x = Cert.Spec.meanR x := rfl

set_option maxHeartbeats 400000 in
/-- Laying a channel vector over the rows is the specification's. -/
theorem overRowsF_eq (v : Cert.Spec.Chan) : overRowsF (F := Ideal) v = Cert.Spec.overRows v := rfl

set_option maxHeartbeats 400000 in
/-- The two-pass variance is the specification's. -/
theorem varF_eq (x : Cert.Spec.Feat) : varF (F := Ideal) x = Cert.Spec.varR x := rfl

set_option maxHeartbeats 400000 in
/-- The normalisation is the specification's two-pass normalisation. -/
theorem bnF_eq (x : Cert.Spec.Feat) (γ β : Cert.Spec.Chan) : bnF (F := Ideal) x γ β = Cert.Spec.bnR x γ β := by
  unfold bnF Cert.Spec.bnR
  rw [meanF_eq, varF_eq, overRowsF_eq, overRowsF_eq, overRowsF_eq, overRowsF_eq]

/-- One layer is the specification's two-pass layer. -/
theorem layerF_eq (x : Cert.Spec.Feat) (i o : Cert.Spec.Edge) (w : Cert.Spec.Wts) (γ β : Cert.Spec.Chan) :
    layerF (F := Ideal) x i o w γ β = Cert.Spec.layerR x i o w γ β := by
  unfold layerF convF Cert.Spec.layerR
  rw [gathF_eq, mmF_eq, scatF_eq, bnF_eq]

/-- The three layers are the specification's two-pass network. -/
theorem netF_eq (x : Cert.Spec.Feat) (i o : Cert.Spec.Edge) (w1 w2 w3 : Cert.Spec.Wts) (g1 b1 g2 b2 g3 b3 : Cert.Spec.Chan) :
    netF (F := Ideal) x i o w1 w2 w3 g1 b1 g2 b2 g3 b3 = Cert.Spec.netR x i o w1 w2 w3 g1 b1 g2 b2 g3 b3 := by
  unfold netF Cert.Spec.netR
  rw [layerF_eq, layerF_eq, layerF_eq]

/-- Every weakly fair execution of the reference, read over the extended reals, terminates with the result buffer at
    the specification's two-pass network of the argument arrays, and the argument buffers as the launch left them. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v113)
        = Cert.Spec.netR (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.ReferenceIdeal.defs (F := Ideal)) _ _).mono
    (fun _ h c => ⟨(h c).1.trans (netF_eq _ _ _ _ _ _ _ _ _ _ _ _), (h c).2⟩)
    (RefRun.run (F := Ideal) m ρ)

end Cert.ReferenceIdeal.RefValue

end
-- ==== Proof.LibFinite.lean ====
/-
  Which host operations keep an array of extended reals inside the real numbers.

  The exact operations on the extended reals agree with the textbook ones on the reals, and leave the reals only at a
  few corners: a division by zero, a reciprocal square root of a number that is not positive, a power of a negative base.
  An array all of whose entries are reals stays so under every host operation a message-passing layer uses: an entry of
  a gather, a broadcast, a concatenation or a select is an entry of an operand; an entry of a scatter-add, of a sum over
  an axis or of a matrix product is a finite sum of entries, or of products of entries, of the operands; sums, differences,
  products and maxima of reals are reals; a power of two reals is the real power; a quotient by a real that is not zero is
  a product with its reciprocal; the reciprocal square root of a positive real is a real.
-/
import Idealize.ShloMosaic.PureOps.Ideal.Laws

namespace Cert.LibFinite

open Idealize.ShloMosaic

/-- An extended real that is a real number. -/
abbrev IsReal (x : EReal) : Prop := ∃ r : ℝ, x = (r : EReal)

/-- A family of extended reals all of whose members are real numbers. -/
abbrev AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of reals is a real. -/
theorem isReal_sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- A quotient of reals by a real that is not zero is a real. -/
theorem IsReal.div {x y : EReal} (hx : IsReal x) (hy : IsReal y) (h0 : y ≠ 0) : IsReal (Ideal.div x y) := by
  obtain ⟨b, rfl⟩ := hy
  have hb : b ≠ 0 := fun h => h0 (by rw [h]; rfl)
  rw [Ideal.div_coe hb]
  exact hx.mul (isReal_coe _)

/-- A power of two reals is the real power. -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-- The reciprocal square root of a positive real is a real. -/
theorem isReal_rsqrt {x : EReal} (hx : IsReal x) (hpos : 0 < x) : IsReal (Ideal.rsqrt x) := by
  obtain ⟨a, rfl⟩ := hx
  have ha : 0 < a := by exact_mod_cast hpos
  rw [Ideal.rsqrt_coe, if_neg (not_lt.mpr ha.le), if_neg ha.ne']
  exact isReal_coe _

/-- A select returns one of its two last operands. -/
theorem isReal_select (c : BitVec 1) {x y : EReal} (hx : IsReal x) (hy : IsReal y) : IsReal (Scalar.select c x y) := by
  unfold Scalar.select; split <;> assumption

/-- An `f32` pattern whose exponent field is not all ones denotes a real. -/
theorem isReal_ofBits_f32 (w : BitVec 32) (h : (w.extractLsb' 23 8).toNat ≠ 255) : IsReal (Ideal.ofBits .f32 w) := by
  show IsReal (Ideal.ieee 8 23 w)
  unfold Ideal.ieee
  simp only
  rw [if_neg (by simpa using h)]
  split <;> exact isReal_coe _

/-! ## Arrays -/

variable {s t : Shape} {φ : FTy}

theorem allReal_constant_f32 (w : BitVec 32) (h : (w.extractLsb' 23 8).toNat ≠ 255) :
    AllReal (constant (F := Ideal) s .f32 w) := fun _ => isReal_ofBits_f32 w h

theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_mulf {a b : FVec Ideal s φ} (ha : AllReal a) (hb : AllReal b) : AllReal (mulf a b) :=
  fun i => (ha i).mul (hb i)
theorem allReal_maximumf {a b : FVec Ideal s φ} (ha : AllReal a) (hb : AllReal b) : AllReal (maximumf a b) :=
  fun i => (ha i).max (hb i)
theorem allReal_select (c : IVec s 1) {a b : FVec Ideal s φ} (ha : AllReal a) (hb : AllReal b) : AllReal (select c a b) :=
  fun i => isReal_select (c i) (ha i) (hb i)
theorem allReal_powf {a b : FVec Ideal s φ} (ha : AllReal a) (hb : AllReal b) : AllReal (Host.powf a b) :=
  fun i => (ha i).pow (hb i)
theorem allReal_divf {a b : FVec Ideal s φ} (ha : AllReal a) (hb : AllReal b) (h0 : ∀ i, b i ≠ 0) :
    AllReal (Host.divf a b) :=
  fun i => (ha i).div (hb i) (h0 i)
theorem allReal_rsqrt {a : FVec Ideal s φ} (ha : AllReal a) (hpos : ∀ i, 0 < a i) : AllReal (Host.rsqrt a) :=
  fun i => isReal_rsqrt (ha i) (hpos i)

/-- An entry of a broadcast is an entry of the operand. -/
theorem allReal_broadcastInDim (dims : Fin s.rank → Fin t.rank) (h : s.BroadcastsInDim t dims) {x : s.Idx → EReal}
    (hx : AllReal x) : AllReal (broadcastInDim t dims h x) := fun _ => hx _

/-- An entry of a gather is an entry of the operand. -/
theorem allReal_gather {si : Shape} {w : Nat} (d : GatherDims s si t) {x : s.Idx → EReal} (idx : IVec si w)
    (hx : AllReal x) : AllReal (Host.gather d x idx) := fun _ => hx _

/-- An entry of a concatenation is an entry of one of the pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- An entry of a scatter-add is the operand's entry plus a finite sum of update entries. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- An entry of a sum over axes is the initial value plus a finite sum of operand entries. -/
theorem allReal_reduceAdd {axes : List (Fin s.rank)} {u : Shape} {x : FVec Ideal s φ} {init : u.Idx → Ideal φ}
    (h : s.ReducesTo axes t) (hu : 0 < u.numel) (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- An entry of a matrix product is a finite sum of products of operand entries. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact isReal_sum _ _ fun k _ => (hl _).mul (hr _)

end Cert.LibFinite
-- ==== Proof.LibVariance.lean ====
/-
  Mean and variance of a finite family of real numbers, as the extended reals compute them.

  A batch normalisation takes, over a finite family `x i` (`i : ι`, `n` members), the mean `μ = (∑ x i) / n` and
  the variance. The variance is written in two ways: in two passes, `(∑ (x i - μ)²) / n`, or in one pass,
  `(∑ (x i)²) · (1/n) - μ²`. Over the reals the two are equal (expand the square and use `∑ x i = n · μ`); over the
  extended reals they are equal when every `x i` is a real and can differ at an infinity, where a difference of two
  infinite sums has no meaning. This module proves the equality for real families, read in the extended reals with the
  division `Ideal.div` by the real `n` on one side and the product with the real `1 / n` on the other, and that both are
  the coercion of a real `v ≥ 0`, so that the reciprocal square root of `v + ε` for a real `ε > 0` is again a real.
-/
import Idealize.ShloMosaic.PureOps.Ideal

namespace Cert.LibVariance

open Idealize.ShloMosaic

/-- The coercion of the reals into the extended reals commutes with a finite sum. -/
theorem coe_finset_sum {ι : Type*} (s : Finset ι) (h : ι → ℝ) :
    ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

variable {ι : Type*} [Fintype ι]

/-- The same over a whole finite type. -/
theorem coe_sum (h : ι → ℝ) : ((∑ i, h i : ℝ) : EReal) = ∑ i, (h i : EReal) :=
  coe_finset_sum Finset.univ h

/-- The mean of a real family: the sum divided by `n`. -/
noncomputable def mean (h : ι → ℝ) (n : ℝ) : ℝ := (∑ i, h i) / n

/-- The variance of a real family, in two passes: the mean of the squared deviations from the mean. -/
noncomputable def var (h : ι → ℝ) (n : ℝ) : ℝ := (∑ i, (h i - mean h n) * (h i - mean h n)) / n

/-- The mean as a product with the reciprocal `1 / n`, in the extended reals. -/
theorem mean_mul (h : ι → ℝ) (n : ℝ) :
    (∑ i, (h i : EReal)) * ((1 / n : ℝ) : EReal) = ((mean h n : ℝ) : EReal) := by
  rw [← coe_sum, ← EReal.coe_mul, mul_one_div]; rfl

/-- The mean as a quotient by the real `n ≠ 0`, in the extended reals. -/
theorem mean_div (h : ι → ℝ) {n : ℝ} (hn : n ≠ 0) :
    Ideal.div (∑ i, (h i : EReal)) (n : EReal) = ((mean h n : ℝ) : EReal) := by
  rw [Ideal.div_coe hn, mean_mul]

/-- A variance is not negative (the family has `n > 0` members). -/
theorem var_nonneg (h : ι → ℝ) {n : ℝ} (hc : (Fintype.card ι : ℝ) = n) : 0 ≤ var h n := by
  unfold var
  have hn : 0 ≤ n := hc ▸ Nat.cast_nonneg _
  exact div_nonneg (Finset.sum_nonneg fun i _ => mul_self_nonneg _) hn

/-- Over the reals: the mean of the squares less the square of the mean is the mean of the squared deviations.
    Expand `(h i - μ)² = (h i)² - 2 μ h i + μ²`, sum over the `n` members, and use `∑ h i = n μ`. -/
theorem one_pass_eq_var (h : ι → ℝ) {n : ℝ} (hc : (Fintype.card ι : ℝ) = n) (hn : n ≠ 0) :
    (∑ i, h i * h i) * (1 / n) - mean h n * mean h n = var h n := by
  have hS : ∑ i, h i = mean h n * n := by unfold mean; field_simp
  unfold var
  generalize mean h n = μ at hS ⊢
  have e : ∑ i, (h i - μ) * (h i - μ) = (∑ i, h i * h i) - 2 * μ * (∑ i, h i) + n * (μ * μ) := by
    have : ∀ i, (h i - μ) * (h i - μ) = h i * h i - 2 * μ * h i + μ * μ := fun i => by ring
    simp only [this]
    rw [Finset.sum_add_distrib, Finset.sum_sub_distrib, ← Finset.mul_sum, Finset.sum_const, Finset.card_univ,
      nsmul_eq_mul, hc]
  rw [e, hS]
  field_simp
  ring

/-- The one-pass variance in the extended reals is the coercion of the real variance. -/
theorem one_pass_coe (h : ι → ℝ) {n : ℝ} (hc : (Fintype.card ι : ℝ) = n) (hn : n ≠ 0) :
    (∑ i, (h i : EReal) * (h i : EReal)) * ((1 / n : ℝ) : EReal)
        - ((mean h n : ℝ) : EReal) * ((mean h n : ℝ) : EReal) = ((var h n : ℝ) : EReal) := by
  simp only [← EReal.coe_mul]
  rw [← coe_sum, ← EReal.coe_mul, ← EReal.coe_sub, one_pass_eq_var h hc hn]

/-- The two-pass variance in the extended reals is the coercion of the real variance. -/
theorem two_pass_coe (h : ι → ℝ) {n : ℝ} (hn : n ≠ 0) :
    Ideal.div (∑ i, ((h i : EReal) - ((mean h n : ℝ) : EReal)) * ((h i : EReal) - ((mean h n : ℝ) : EReal))) (n : EReal)
      = ((var h n : ℝ) : EReal) := by
  simp only [← EReal.coe_sub, ← EReal.coe_mul]
  rw [← coe_sum, Ideal.div_coe hn, ← EReal.coe_mul, mul_one_div]; rfl

/-- The reciprocal square root of `v + ε` for reals `v ≥ 0`, `ε > 0` is a positive real. -/
theorem rsqrt_coe_add {v e : ℝ} (hv : 0 ≤ v) (he : 0 < e) :
    Ideal.rsqrt ((v : EReal) + (e : EReal)) = (((Real.sqrt (v + e))⁻¹ : ℝ) : EReal) := by
  rw [← EReal.coe_add, Ideal.rsqrt_coe, if_neg (by linarith), if_neg (by linarith)]

/-! ## The same for a family of extended reals whose members are all reals -/

/-- For a family of extended reals, all of them reals, with `n ≠ 0` members: the mean (as a product with `1 / n`, or
    as a quotient by `n`) is a real `μ`, and the variance, in one pass or in two, is one real `v ≥ 0`. -/
theorem stats_real (x : ι → EReal) (hx : ∀ i, ∃ r : ℝ, x i = (r : EReal)) {n : ℝ}
    (hc : (Fintype.card ι : ℝ) = n) (hn : n ≠ 0) :
    ∃ μ v : ℝ, 0 ≤ v ∧
      (∑ i, x i) * ((1 / n : ℝ) : EReal) = (μ : EReal) ∧
      Ideal.div (∑ i, x i) (n : EReal) = (μ : EReal) ∧
      (∑ i, x i * x i) * ((1 / n : ℝ) : EReal) - (μ : EReal) * (μ : EReal) = (v : EReal) ∧
      Ideal.div (∑ i, (x i - (μ : EReal)) * (x i - (μ : EReal))) (n : EReal) = (v : EReal) := by
  choose h hh using hx
  obtain rfl : x = fun i => (h i : EReal) := funext hh
  exact ⟨mean h n, var h n, var_nonneg h hc, mean_mul h n, mean_div h hn, one_pass_coe h hc hn, two_pass_coe h hn⟩

/-- The mean as a quotient is the mean as a product, for any family of extended reals (no member need be a real). -/
theorem mean_div_eq_mul (x : ι → EReal) {n : ℝ} (hn : n ≠ 0) :
    Ideal.div (∑ i, x i) (n : EReal) = (∑ i, x i) * ((1 / n : ℝ) : EReal) :=
  Ideal.div_coe hn _

/-- The variance in two passes, as a reference computes it (`∑ (x i - μ)² / n` with `μ = (∑ x i) / n`), equals the
    variance in one pass, as a kernel accumulates it (`(∑ (x i)²) · (1/n) - μ · μ` with `μ = (∑ x i) · (1/n)`), when
    every member is a real. -/
theorem two_pass_eq_one_pass (x : ι → EReal) (hx : ∀ i, ∃ r : ℝ, x i = (r : EReal)) {n : ℝ}
    (hc : (Fintype.card ι : ℝ) = n) (hn : n ≠ 0) :
    Ideal.div (∑ i, (x i - Ideal.div (∑ i, x i) (n : EReal)) * (x i - Ideal.div (∑ i, x i) (n : EReal))) (n : EReal)
      = (∑ i, x i * x i) * ((1 / n : ℝ) : EReal)
          - ((∑ i, x i) * ((1 / n : ℝ) : EReal)) * ((∑ i, x i) * ((1 / n : ℝ) : EReal)) := by
  obtain ⟨μ, v, _, h1, h2, h3, h4⟩ := stats_real x hx hc hn
  rw [h2, h1, h3, h4]

/-- Under the same hypotheses the one-pass variance plus a real `ε > 0` has a real reciprocal square root. -/
theorem rsqrt_one_pass_real (x : ι → EReal) (hx : ∀ i, ∃ r : ℝ, x i = (r : EReal)) {n : ℝ}
    (hc : (Fintype.card ι : ℝ) = n) (hn : n ≠ 0) {e : ℝ} (he : 0 < e) :
    ∃ s : ℝ, Ideal.rsqrt ((∑ i, x i * x i) * ((1 / n : ℝ) : EReal)
          - ((∑ i, x i) * ((1 / n : ℝ) : EReal)) * ((∑ i, x i) * ((1 / n : ℝ) : EReal)) + (e : EReal)) = (s : EReal) := by
  obtain ⟨μ, v, hv, h1, _, h3, _⟩ := stats_real x hx hc hn
  rw [h1, h3]
  exact ⟨_, rsqrt_coe_add hv he⟩

end Cert.LibVariance
-- ==== Proof.BnMath.lean ====
/-
  One column of a batch normalisation, over the extended reals.

  A batch normalisation treats each of the 64 channels by itself: a column is the 100000 values one channel takes
  over the rows.  From a column `c` it takes the mean `μ = (∑ c n) / 100000` and the reciprocal standard deviation
  `1 / √(var + ε)`.  The variance is accumulated in one of two ways.  In one pass, from the sum and the sum of squares:
  `(∑ (c n)²) / 100000 - μ²`.  In two passes, as a library function takes it: the sum starts from a zero word, the
  squared deviations `(c n - μ)²` are summed from a zero word and divided by the divisor `100000 - 0` (the row count
  less a correction that is the integer zero), and the quotient is kept where that divisor is positive (elsewhere a
  not-a-number word would be returned).

  This module writes the two readings as functions of a column and proves them equal when every value of the column
  is a real number.  The zero word is the number zero, so a sum started from it is the sum; the divisor is 100000, which
  is positive, so the quotient is kept; and for real values the mean of the squared deviations is the mean of the
  squares less the square of the mean (expand the square and use `∑ c n = 100000 μ`), a real number that is not
  negative.  With the real `ε > 0` added it is positive, so its reciprocal square root is a real number too.  At an
  infinite value the two variances can differ (a difference of two infinite sums has no meaning), which is why the
  equality is stated for real columns only.
-/
import Idealize.ShloMosaic.PureOps.Ideal.Laws
import Idealize.ShloMosaic.Lib.ValueIdx
import proofs.«110267_j20564303414103_1_alg».proof.Proof.LibFinite
import proofs.«110267_j20564303414103_1_alg».proof.Proof.LibVariance

noncomputable section

namespace Cert.BnMath

open Idealize.ShloMosaic Cert.LibFinite

/-- A column: the value one channel takes at each of the 100000 rows. -/
abbrev Col := Fin 100000 → EReal

/-- The row count as both programs write it: the single-precision word of 100000. -/
def rows : EReal := Ideal.ofBits .f32 0x47C35000#32

/-- The small number added to a variance before the square root, as both programs write it (about 1e-5). -/
def eps : EReal := Ideal.ofBits .f32 0x3727C5AC#32

/-- The word `0x47C35000` is `(2^23 + 4411392) · 2^(143 - 127 - 23) = 12800000 / 128 = 100000`. -/
theorem rows_eq : rows = ((100000 : ℝ) : EReal) := by
  unfold rows
  simp [Ideal.ofBits, Ideal.ieee, -EReal.coe_mul]; norm_num

/-- The word `0x3727C5AC` is `(2^23 + 2606508) · 2^(110 - 127 - 23) = 10995116 · 2^(-40)`, a positive real. -/
theorem eps_pos : ∃ e : ℝ, 0 < e ∧ eps = (e : EReal) := by
  refine ⟨(10995116 : ℝ) * (2 : ℝ) ^ (-40 : ℤ), by positivity, ?_⟩
  unfold eps
  simp [Ideal.ofBits, Ideal.ieee, -EReal.coe_mul]

/-- There are 100000 rows. -/
theorem card_rows : (Fintype.card (Fin 100000) : ℝ) = 100000 := by simp

/-! ## The one-pass reading -/

/-- The mean of a column: its sum divided by the row count. -/
def meanK (c : Col) : EReal := Ideal.div (∑ n, c n) rows

/-- One over the standard deviation, the variance in one pass: mean of the squares less the square of the mean. -/
def invK (c : Col) : EReal := Ideal.rsqrt (Ideal.div (∑ n, c n * c n) rows - meanK c * meanK c + eps)

/-! ## The two-pass reading -/

/-- The mean of a column, its sum started from the zero word. -/
def meanR (c : Col) : EReal := Ideal.div (Ideal.ofBits .f32 0x00000000#32 + ∑ n, c n) rows

/-- The divisor of the variance: the row count less the integer zero read as a number. -/
def divisor : EReal := rows - (((0#32 : BitVec 32).toInt : ℝ) : EReal)

/-- The variance in two passes: the squared deviations from the mean, summed from the zero word and divided by the
    divisor, kept where the divisor is positive and replaced by a not-a-number word elsewhere. -/
def varR (c : Col) : EReal :=
  Scalar.select (Ideal.cmp .ogt divisor (Ideal.ofBits .f32 0x00000000#32))
    (Ideal.div (Ideal.ofBits .f32 0x00000000#32 + ∑ n, (c n - meanR c) * (c n - meanR c)) divisor)
    (Ideal.ofBits .f32 0x7FC00000#32)

/-- One over the standard deviation, the variance in two passes. -/
def invR (c : Col) : EReal := Ideal.rsqrt (varR c + eps)

/-! ## The two readings agree -/

/-- A sum started from the zero word is the sum, so the two means are one (no value need be real). -/
theorem meanR_eq (c : Col) : meanR c = meanK c := by
  unfold meanR meanK
  rw [Ideal.ofBits_zero_f32, zero_add]

/-- The divisor `100000 - 0` is the row count. -/
theorem divisor_eq : divisor = rows := by
  unfold divisor
  rw [BitVec.toInt_zero, Int.cast_zero, EReal.coe_zero, sub_zero]

/-- The divisor is positive, so the two-pass variance is the quotient itself: the mean of the squared deviations. -/
theorem varR_eq (c : Col) : varR c = Ideal.div (∑ n, (c n - meanK c) * (c n - meanK c)) rows := by
  have hpos : Ideal.cmp .ogt rows 0 = 1#1 := by
    rw [rows_eq]
    unfold Ideal.cmp
    have : (0 : EReal) < ((100000 : ℝ) : EReal) := by exact_mod_cast (by norm_num : (0 : ℝ) < 100000)
    simp [this]
  unfold varR
  rw [divisor_eq, Ideal.ofBits_zero_f32, zero_add, hpos, ValueIdx.select_one]
  simp only [meanR_eq]

/-- For a column of reals: the mean is a real `μ`, and the variance, in one pass or in two, is one real `v ≥ 0`. -/
theorem stats (c : Col) (hc : AllReal c) :
    ∃ μ v : ℝ, 0 ≤ v ∧ meanK c = (μ : EReal)
      ∧ Ideal.div (∑ n, c n * c n) rows - meanK c * meanK c = (v : EReal) ∧ varR c = (v : EReal) := by
  obtain ⟨μ, v, hv, _, h2, h3, h4⟩ :=
    Cert.LibVariance.stats_real c hc card_rows (by norm_num : (100000 : ℝ) ≠ 0)
  have hm : meanK c = (μ : EReal) := by unfold meanK; rw [rows_eq]; exact h2
  refine ⟨μ, v, hv, hm, ?_, ?_⟩
  · rw [hm, rows_eq, Cert.LibVariance.mean_div_eq_mul (fun n => c n * c n) (by norm_num : (100000 : ℝ) ≠ 0)]
    exact h3
  · rw [varR_eq, hm, rows_eq]
    exact h4

/-- The reciprocal standard deviations of the two readings are equal on a column of reals. -/
theorem invR_eq (c : Col) (hc : AllReal c) : invR c = invK c := by
  obtain ⟨μ, v, _, _, h1, h2⟩ := stats c hc
  unfold invR invK
  rw [h1, h2]

/-- The mean of a column of reals is a real. -/
theorem isReal_meanK (c : Col) (hc : AllReal c) : IsReal (meanK c) := by
  obtain ⟨μ, _, _, hm, _, _⟩ := stats c hc
  exact ⟨μ, hm⟩

/-- The reciprocal standard deviation of a column of reals is a real: the variance is not negative and `ε > 0`. -/
theorem isReal_invK (c : Col) (hc : AllReal c) : IsReal (invK c) := by
  obtain ⟨μ, v, hv, _, h1, _⟩ := stats c hc
  obtain ⟨e, he, hE⟩ := eps_pos
  unfold invK
  rw [h1, hE]
  exact ⟨_, Cert.LibVariance.rsqrt_coe_add hv he⟩

end Cert.BnMath

end
-- ==== Proof.BnLayer.lean ====
/-
  The normalisation layer entry by entry: the one-pass and the two-pass forms agree on real features.

  Entry `(n, d)` of a normalised feature array depends on the entry `x (n, d)` and on column `d` of `x` only:
  it is `max ((x (n, d) - μ_d) · s_d · γ_d + β_d) 0`, where `μ_d` is the mean of the column and `s_d` one over the
  square root of its variance plus `ε`.  This module reads both forms of the layer at an entry.  In the one-pass form
  the statistics are kept as 1 x 64 rows and read at `(0, d)`: the row of column sums there is the sum of column
  `d`, a per-channel vector reshaped to a row reads its entry `d`.  In the two-pass form the statistics are vectors
  of 64 numbers laid over the rows by two broadcasts, which read entry `d` at every row; the host's sum over the rows
  is its initial word plus the sum of the column.  Both forms thus become the column functions of `BnMath`, which are
  equal on a column of reals; and since the mean and the reciprocal standard deviation of a real column are reals,
  every entry of the layer is a real when the features, the scale and the shift are.
-/
import proofs.«110267_j20564303414103_1_alg».proof.Proof.Spec
import proofs.«110267_j20564303414103_1_alg».proof.Proof.BnMath
import Idealize.ShloMosaic.Lib.Pipeline.Value
import Idealize.ShloMosaic.Lib.ValueLayout
import Idealize.ShloMosaic.Lib.IdealHost

noncomputable section

namespace Cert.Spec

open Idealize.ShloMosaic Idealize.ShloMosaic.ValueIdx Cert.LibFinite

namespace BnRead

/-- Column `d` of a feature array: its value at each row. -/
def col (x : Feat) (d : Fin 64) : BnMath.Col := fun n => x (ix2 n d)

/-- A column of a real feature array is a column of reals. -/
theorem allReal_col (x : Feat) (hx : AllReal x) (d : Fin 64) : AllReal (col x d) := fun n => hx (ix2 n d)

/-! ## The one-pass form at an entry -/

section OnePassRead
open Cert.KernelIdeal Cert.KernelIdeal.Facts₀

/-- The mean row at `(0, d)` is the mean of column `d`: the row of column sums there is the column's sum, and the
    row of the row count holds 100000 everywhere. -/
theorem meanK_colsum_apply (x : Feat) (d : Fin 64) :
    meanK (colsum x) (ix2 (0 : Fin 1) d) = BnMath.meanK (col x d) := rfl

/-- The reciprocal-deviation row at `(0, d)` is that of column `d`, the variance in one pass. -/
theorem invK_colsum_apply (x : Feat) (d : Fin 64) :
    invK (colsum x) (colsumsq x) (ix2 (0 : Fin 1) d) = BnMath.invK (col x d) := rfl

/-- A per-channel vector reshaped to a 1 x 64 row reads its entry `d` at `(0, d)`. -/
theorem rowOf_apply (v : Chan) (d : Fin 64) : rowOf v (ix2 (0 : Fin 1) d) = v (ix1 d) := by
  unfold rowOf
  exact shapeCast_a_1a_apply v _ 0 d

/-- Entry `(n, d)` of the one-pass layer. -/
theorem bnK_apply (x : Feat) (γ β : Chan) (n : Fin 100000) (d : Fin 64) :
    bnK x γ β (ix2 n d)
      = max ((x (ix2 n d) - BnMath.meanK (col x d)) * BnMath.invK (col x d) * γ (ix1 d) + β (ix1 d)) 0 := by
  show max ((x (ix2 n d) - meanK (colsum x) (ix2 (0 : Fin 1) d)) * invK (colsum x) (colsumsq x) (ix2 (0 : Fin 1) d)
      * rowOf γ (ix2 (0 : Fin 1) d) + rowOf β (ix2 (0 : Fin 1) d)) 0 = _
  rw [meanK_colsum_apply, invK_colsum_apply, rowOf_apply, rowOf_apply]

end OnePassRead

/-! ## The two-pass form at an entry -/

section TwoPassRead
open Cert.ReferenceIdeal Cert.ReferenceIdeal.Facts₀

/-- A per-channel vector laid over the rows reads its entry `d` at every `(n, d)`: the first broadcast makes it the
    one row of a 1 x 64 array, the second repeats that row. -/
theorem overRows_apply (v : Chan) (n : Fin 100000) (d : Fin 64) : overRows v (ix2 n d) = v (ix1 d) := by
  unfold overRows
  refine (broadcastInDim_apply _ _ _ (ix2 n d) (ix2 (0 : Fin 1) d) ?_).trans ?_
  · intro a; match a with
    | ⟨0, _⟩ => rfl
    | ⟨1, _⟩ => rfl
  · refine broadcastInDim_apply _ _ _ (ix2 (0 : Fin 1) d) (ix1 d) ?_
    intro a; match a with
    | ⟨0, _⟩ => rfl

/-- The host's sum over the rows, from the zero word, at channel `d`: the zero word plus the sum of column `d`.
    (The entries that reduce to channel `d` are the `(n, d)`.) -/
theorem hostSum_apply (y : Feat) (d : Fin 64) :
    Host.reduceAdd y (constant (F := Ideal) S_ .f32 0x00000000#32) reducesTo_S100000x64_S64_d0 h_S_ (ix1 d)
      = Ideal.ofBits .f32 0x00000000#32 + ∑ n : Fin 100000, y (ix2 n d) := by
  have h : S100000x64.Reduces [0] S64 := by decide
  refine (Ideal.hostReduceAdd_single reducesTo_S100000x64_S64_d0 h y _ (ix1 d)).trans ?_
  refine congrArg (_ + ·) ?_
  refine Finset.sum_congr rfl fun k _ => congrArg y ?_
  funext a; apply Fin.ext
  match a with
  | ⟨0, _⟩ => rfl
  | ⟨1, _⟩ => rfl

/-- The mean vector at channel `d` is the two-pass mean of column `d`. -/
theorem meanR_apply (x : Feat) (d : Fin 64) : meanR x (ix1 d) = BnMath.meanR (col x d) := by
  show Ideal.div (sumR x (ix1 d)) (Ideal.ofBits .f32 0x47C35000#32) = _
  unfold sumR
  rw [hostSum_apply]
  rfl

/-- The mean the variance is centred with — kept as a 1 x 64 row and repeated over the rows — reads the two-pass mean
    of column `d` at every `(n, d)`. -/
theorem centre_apply (x : Feat) (n : Fin 100000) (d : Fin 64) :
    broadcastInDim S100000x64 ![0, 1] bcast_S1x64_S100000x64_0_1
        (Host.divf (broadcastInDim S1x64 ![1] bcast_S64_S1x64_1 (sumR x))
          (broadcastInDim S1x64 ![] bcast_S_S1x64 (constant (F := Ideal) S_ .f32 0x47C35000#32))) (ix2 n d)
      = BnMath.meanR (col x d) := by
  refine (broadcastInDim_apply _ _ _ (ix2 n d) (ix2 (0 : Fin 1) d) ?_).trans ?_
  · intro a; match a with
    | ⟨0, _⟩ => rfl
    | ⟨1, _⟩ => rfl
  · show Ideal.div (broadcastInDim S1x64 ![1] bcast_S64_S1x64_1 (sumR x) (ix2 (0 : Fin 1) d))
        (Ideal.ofBits .f32 0x47C35000#32) = _
    rw [broadcastInDim_apply _ _ (sumR x) (ix2 (0 : Fin 1) d) (ix1 d) (by
      intro a; match a with
      | ⟨0, _⟩ => rfl)]
    exact meanR_apply x d

/-- The two-pass variance at channel `d`, for any array `M` of centres that reads `μ` down column `d`: the
    select on the divisor's sign, of the quotient of the summed squared deviations by the divisor. -/
theorem varForm_apply (x M : Feat) (d : Fin 64) (μ : EReal) (hM : ∀ n : Fin 100000, M (ix2 n d) = μ) :
    select (broadcastInDim S64 ![] bcast_S_S64 (cmpf .ogt divisorR (constant (F := Ideal) S_ .f32 0x00000000#32)))
        (Host.divf
          (Host.reduceAdd (mulf (subf x M) (subf x M)) (constant (F := Ideal) S_ .f32 0x00000000#32)
            reducesTo_S100000x64_S64_d0 h_S_)
          (broadcastInDim S64 ![] bcast_S_S64 divisorR))
        (broadcastInDim S64 ![] bcast_S_S64 (id (constant (F := Ideal) S_ .f32 0x7FC00000#32))) (ix1 d)
      = Scalar.select (Ideal.cmp .ogt BnMath.divisor (Ideal.ofBits .f32 0x00000000#32))
          (Ideal.div (Ideal.ofBits .f32 0x00000000#32 + ∑ n : Fin 100000, (x (ix2 n d) - μ) * (x (ix2 n d) - μ))
            BnMath.divisor)
          (Ideal.ofBits .f32 0x7FC00000#32) := by
  show Scalar.select (Ideal.cmp .ogt BnMath.divisor (Ideal.ofBits .f32 0x00000000#32))
      (Ideal.div
        (Host.reduceAdd (mulf (subf x M) (subf x M)) (constant (F := Ideal) S_ .f32 0x00000000#32)
          reducesTo_S100000x64_S64_d0 h_S_ (ix1 d))
        BnMath.divisor)
      (Ideal.ofBits .f32 0x7FC00000#32) = _
  have hs : ∑ n : Fin 100000, mulf (subf x M) (subf x M) (ix2 n d)
      = ∑ n : Fin 100000, (x (ix2 n d) - μ) * (x (ix2 n d) - μ) :=
    Finset.sum_congr rfl fun n _ => by
      show (x (ix2 n d) - M (ix2 n d)) * (x (ix2 n d) - M (ix2 n d)) = _
      rw [hM n]
  rw [hostSum_apply, hs]

/-- The variance vector at channel `d` is the two-pass variance of column `d`. -/
theorem varR_apply (x : Feat) (d : Fin 64) : varR x (ix1 d) = BnMath.varR (col x d) :=
  varForm_apply x _ d _ fun n => centre_apply x n d

/-- Entry `(n, d)` of the two-pass layer. -/
theorem bnR_apply (x : Feat) (γ β : Chan) (n : Fin 100000) (d : Fin 64) :
    bnR x γ β (ix2 n d)
      = max ((x (ix2 n d) - BnMath.meanR (col x d)) * BnMath.invR (col x d) * γ (ix1 d) + β (ix1 d)) 0 := by
  show max ((x (ix2 n d) - overRows (meanR x) (ix2 n d))
        * overRows (Host.rsqrt (addf (varR x)
            (broadcastInDim S64 ![] bcast_S_S64 (constant (F := Ideal) S_ .f32 0x3727C5AC#32)))) (ix2 n d)
        * overRows γ (ix2 n d) + overRows β (ix2 n d))
      (Ideal.ofBits .f32 0x00000000#32) = _
  rw [overRows_apply, overRows_apply, overRows_apply, overRows_apply, meanR_apply, Ideal.ofBits_zero_f32]
  show max ((x (ix2 n d) - BnMath.meanR (col x d))
        * Ideal.rsqrt (varR x (ix1 d) + Ideal.ofBits .f32 0x3727C5AC#32) * γ (ix1 d) + β (ix1 d)) 0 = _
  rw [varR_apply]
  rfl

end TwoPassRead

end BnRead

/-! ## The two forms agree, and keep the reals -/

open BnRead

/-- On real features the one-pass and the two-pass normalisation layers are the same array: entry by entry both are
    `max ((x - μ) · s · γ + β) 0` with the same column mean `μ` and the same reciprocal deviation `s`. -/
theorem bnK_eq_bnR (x : Feat) (γ β : Chan) (hx : AllReal x) : bnK x γ β = bnR x γ β := by
  funext j
  obtain ⟨n, d, rfl⟩ : ∃ (n : Fin 100000) (d : Fin 64), j = ix2 n d := ⟨j 0, j 1, eq_ix2 j⟩
  rw [bnK_apply, bnR_apply, BnMath.meanR_eq, BnMath.invR_eq _ (allReal_col x hx d)]

/-- The normalisation layer of real features, with real scale and shift, has real entries: the column mean and the
    reciprocal deviation are reals, and differences, products, sums and maxima of reals are reals. -/
theorem allReal_bnK (x : Feat) (γ β : Chan) (hx : AllReal x) (hγ : AllReal γ) (hβ : AllReal β) :
    AllReal (bnK x γ β) := by
  intro j
  obtain ⟨n, d, rfl⟩ : ∃ (n : Fin 100000) (d : Fin 64), j = ix2 n d := ⟨j 0, j 1, eq_ix2 j⟩
  rw [bnK_apply]
  exact (((((hx _).sub (BnMath.isReal_meanK _ (allReal_col x hx d))).mul
    (BnMath.isReal_invK _ (allReal_col x hx d))).mul (hγ _)).add (hβ _)).max isReal_zero

end Cert.Spec

end
-- ==== Proof.RealLayers.lean ====
/-
  Real entries stay real through the lookup, the product and the scatter-add of a layer.

  An entry of the row lookup is an entry of the feature array, whatever the row numbers are.  An entry of the
  host's per-offset product is a sum of 64 products of an entry of the rows with an entry of the offset's matrix.  An entry of
  the scatter-add into zeros is the zero word, which is the number zero, plus a finite sum of entries of the product
  rows (reshaped to 1350000 rows, which only renames their indices).  Sums and products of reals are reals, so each of
  the three steps takes arrays of reals to arrays of reals.
-/
import proofs.«110267_j20564303414103_1_alg».proof.Proof.Spec
import proofs.«110267_j20564303414103_1_alg».proof.Proof.LibFinite

noncomputable section

namespace Cert.Spec

open Idealize.ShloMosaic Idealize.ShloMosaic.ValueIdx Cert.LibFinite

/-- The looked-up rows of real features are real: each entry is an entry of the features. -/
theorem allReal_gath (x : Feat) (i : Edge) (hx : AllReal x) : AllReal (gath x i) :=
  allReal_gather _ _ hx

/-- The host's batched product of real rows and real matrices is real. -/
theorem allReal_mmR (g : Rows) (w : Wts) (hg : AllReal g) (hw : AllReal w) : AllReal (mmR g w) :=
  allReal_dotGeneral _ _ hg hw

/-- The scatter-add of real product rows into zeros is real: zero plus a finite sum of entries of the rows. -/
theorem allReal_scat (y : Rows) (o : Edge) (hy : AllReal y) : AllReal (scat y o) :=
  allReal_scatterAdd _ _
    (allReal_broadcastInDim _ _ (allReal_constant_f32 0x00000000#32 (by decide)))
    (fun _ => hy _)

end Cert.Spec

end
-- ==== Proof.NetEq.lean ====
/-
  The three layers: the one-pass network is the two-pass network on real inputs.

  A layer is a row lookup, a per-offset product, a scatter-add and a normalisation.  The two forms of a layer differ in
  the product (entry by entry, or the host's batched product: equal for every operand, the hypothesis `hmm`) and in
  the normalisation (one-pass or two-pass variance: equal when the features that are normalised are reals).  Given
  real features and real weights, the scattered products are reals, so the two forms of the layer are one array; and
  that array is again real, so the next layer's input is.  Three layers need this three times.
-/
import proofs.«110267_j20564303414103_1_alg».proof.Proof.BnLayer
import proofs.«110267_j20564303414103_1_alg».proof.Proof.RealLayers

noncomputable section

namespace Cert.Spec

open Idealize.ShloMosaic Cert.LibFinite

namespace NetEq

/-- The entrywise product of real rows and real matrices is real: a sum of 64 products of reals. -/
theorem allReal_mm (g : Rows) (w : Wts) (hg : AllReal g) (hw : AllReal w) : AllReal (mm g w) :=
  fun _ => isReal_sum _ _ fun _ _ => (hg _).mul (hw _)

/-- A one-pass layer of real features with real weights, scale and shift has real entries. -/
theorem allReal_layerK (x : Feat) (i o : Edge) (w : Wts) (γ β : Chan)
    (hx : AllReal x) (hw : AllReal w) (hγ : AllReal γ) (hβ : AllReal β) : AllReal (layerK x i o w γ β) :=
  allReal_bnK _ γ β (allReal_scat _ o (allReal_mm _ w (allReal_gath x i hx) hw)) hγ hβ

/-- On real features and real weights the two forms of a layer are one array: the products agree for every operand,
    and the scattered products that are normalised are reals. -/
theorem layerK_eq_layerR (hmm : ∀ (g : Rows) (w : Wts), mm g w = mmR g w)
    (x : Feat) (i o : Edge) (w : Wts) (γ β : Chan) (hx : AllReal x) (hw : AllReal w) :
    layerK x i o w γ β = layerR x i o w γ β := by
  unfold layerK layerR
  rw [hmm]
  exact bnK_eq_bnR _ γ β (allReal_scat _ o (allReal_mmR _ w (allReal_gath x i hx) hw))

end NetEq

open NetEq

/-- The three layers in the one-pass form and in the two-pass form are one array on real inputs: each layer's input
    is real, the first by hypothesis, the next two because a layer of reals is real. -/
theorem netK_eq_netR (hmm : ∀ (g : Rows) (w : Wts), mm g w = mmR g w)
    (x : Feat) (i o : Edge) (w1 w2 w3 : Wts) (g1 b1 g2 b2 g3 b3 : Chan)
    (hx : AllReal x) (hw1 : AllReal w1) (hw2 : AllReal w2) (hw3 : AllReal w3)
    (hg1 : AllReal g1) (hb1 : AllReal b1) (hg2 : AllReal g2) (hb2 : AllReal b2) (hg3 : AllReal g3) (hb3 : AllReal b3) :
    netK x i o w1 w2 w3 g1 b1 g2 b2 g3 b3 = netR x i o w1 w2 w3 g1 b1 g2 b2 g3 b3 := by
  have a1 : AllReal (layerK x i o w1 g1 b1) := allReal_layerK x i o w1 g1 b1 hx hw1 hg1 hb1
  have a2 : AllReal (layerK (layerK x i o w1 g1 b1) i o w2 g2 b2) := allReal_layerK _ i o w2 g2 b2 a1 hw2 hg2 hb2
  unfold netK netR
  rw [← layerK_eq_layerR hmm x i o w1 g1 b1 hx hw1, ← layerK_eq_layerR hmm _ i o w2 g2 b2 a1 hw2,
    ← layerK_eq_layerR hmm _ i o w3 g3 b3 a2 hw3]

end Cert.Spec

end
-- ==== Proof.lean ====
/-
  Three layers of sparse convolution and batch normalisation: the kernel against the reference, over the
  extended reals.

  Both programs compute, layer by layer: look a feature row up for each of 27 x 50000 (offset, edge) pairs, multiply
  the rows of each offset by that offset's 64 x 64 matrix, add every product row into the output row its edge names,
  then normalise each of the 64 columns by its mean and variance over the 100000 rows, scale, shift, and take the
  positive part.  The kernel does the products and the normalisation in nine pipelined regions: the product block by
  block (10000 rows of one offset at a time), the column sums and sums of squares accumulated over ten blocks of rows,
  the normalisation block by block from a mean row and an inverse-deviation row that the host computes between the
  regions from the two sums.  Read off its run, the kernel's result is the three layers with the variance taken in ONE
  pass, E[x^2] - E[x]^2.  The reference's result is the three layers with the host's batched product and the
  variance taken in TWO passes, E[(x - E[x])^2].

  The block products summed entry by entry are the host's product (sums of products, no law beyond reordering).
  The two variances agree when every entry of the normalised array is a real number: then both are one real
  v >= 0, and 1 / sqrt (v + eps) is a real.  The precondition makes every float argument real; the row lookup copies
  entries, products and sums of reals are real, the scatter-add into zeros adds reals, and a normalised real array
  is real — so each layer's input is real, and layer by layer the two programs agree.

  The frames of the two kernel programs are the generated ones; the reference's frame is its run with the result
  dropped; the idealisation rewrote no operation.
-/
import proofs.«110267_j20564303414103_1_alg».proof.Defs
import proofs.«110267_j20564303414103_1_alg».proof.Proof.Gen.Kernel
import proofs.«110267_j20564303414103_1_alg».proof.Proof.Gen.Kernel.Frame
import proofs.«110267_j20564303414103_1_alg».proof.Proof.Gen.KernelIdeal
import proofs.«110267_j20564303414103_1_alg».proof.Proof.Gen.KernelIdeal.Frame
import proofs.«110267_j20564303414103_1_alg».proof.Proof.Gen.ReferenceIdeal
import proofs.«110267_j20564303414103_1_alg».proof.Proof.Gen.Pre_finite_inputs
import proofs.«110267_j20564303414103_1_alg».proof.Proof.KValue
import proofs.«110267_j20564303414103_1_alg».proof.Proof.MatmulRegion0
import proofs.«110267_j20564303414103_1_alg».proof.Proof.MatmulRegion3
import proofs.«110267_j20564303414103_1_alg».proof.Proof.MatmulRegion6
import proofs.«110267_j20564303414103_1_alg».proof.Proof.StatsRegion1
import proofs.«110267_j20564303414103_1_alg».proof.Proof.StatsRegion4
import proofs.«110267_j20564303414103_1_alg».proof.Proof.StatsRegion7
import proofs.«110267_j20564303414103_1_alg».proof.Proof.AffineRegion2
import proofs.«110267_j20564303414103_1_alg».proof.Proof.AffineRegion5
import proofs.«110267_j20564303414103_1_alg».proof.Proof.AffineRegion8
import proofs.«110267_j20564303414103_1_alg».proof.Proof.BatchedDot
import proofs.«110267_j20564303414103_1_alg».proof.Proof.FiniteInputs
import proofs.«110267_j20564303414103_1_alg».proof.Proof.RefValue
import proofs.«110267_j20564303414103_1_alg».proof.Proof.NetEq
import Idealize.ShloMosaic.Adequacy
import Idealize.ShloMosaic.Init

-- a buffer's type is looked up in a program's table by its number: the later the buffer, the longer the look-up
set_option maxHeartbeats 4000000

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference terminates without a fault and leaves its arguments as launched: its run, the result dropped. -/
theorem frame_reference : Cert.frame_ReferenceIdeal := fun m ρ _ =>
  (θ_run Cert.ReferenceIdeal.defs _ _).mono (fun _ h c => (h c).2) (Cert.ReferenceIdeal.RefValue.run m ρ)

/-- From memories agreeing on the arguments both programs run, and their results are equal entry by entry: the
    one-pass network equals the two-pass network on real arguments. -/
theorem algebraic : Cert.algebraic_KernelIdeal_ReferenceIdeal := by
  intro m ρ m' ρ' hpre hagree
  -- the kernel's run: its result is the one-pass network of the launch memory's arguments
  have hk := Cert.KernelIdeal.KValue.run m ρ
    Cert.KernelIdeal.MatmulRegion0.final Cert.KernelIdeal.StatsRegion1.final_sum Cert.KernelIdeal.StatsRegion1.final_sumsq Cert.KernelIdeal.AffineRegion2.final
    Cert.KernelIdeal.MatmulRegion3.final Cert.KernelIdeal.StatsRegion4.final_sum Cert.KernelIdeal.StatsRegion4.final_sumsq Cert.KernelIdeal.AffineRegion5.final
    Cert.KernelIdeal.MatmulRegion6.final Cert.KernelIdeal.StatsRegion7.final_sum Cert.KernelIdeal.StatsRegion7.final_sumsq Cert.KernelIdeal.AffineRegion8.final
  refine ⟨_, hk, ?_⟩
  refine (θ_run Cert.ReferenceIdeal.defs _ _).mono (fun r h c => ⟨(h c).1.trans ?_, (h c).2⟩)
    (Cert.ReferenceIdeal.RefValue.run m' ρ')
  obtain ⟨h0, h3, h4, h5, h6, h7, h8, h9, h10, h11⟩ := Cert.FiniteInputs.of_pre m hpre c
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.Spec.netK_eq_netR Cert.Spec.mm_eq_mmR _ _ _ _ _ _ _ _ _ _ _ _ h0 h3 h4 h5 h6 h7 h8 h9 h10 h11).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
